-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x256 : Shape := ⟨3, ![16, 1, 256]⟩
abbrev S16x2048x256 : Shape := ⟨3, ![16, 2048, 256]⟩
abbrev S16x2049 : Shape := ⟨2, ![16, 2049]⟩
abbrev S256x256 : Shape := ⟨2, ![256, 256]⟩
abbrev S2049x256 : Shape := ⟨2, ![2049, 256]⟩
abbrev S_ : Shape := ⟨0, ![]⟩

class Facts : Prop where
  bcast_S_S16x1x256 : S_.BroadcastsInDim S16x1x256 (![] : Fin 0 → Fin S16x1x256.rank)
  reducesTo_S16x1x256_S_d0_1_2 : S16x1x256.ReducesTo [0, 1, 2] S_
  h_S_ : 0 < S_.numel
  bcast_S_S16x2048x256 : S_.BroadcastsInDim S16x2048x256 (![] : Fin 0 → Fin S16x2048x256.rank)
  reducesTo_S16x2048x256_S_d0_1_2 : S16x2048x256.ReducesTo [0, 1, 2] S_
  bcast_S_S16x2049 : S_.BroadcastsInDim S16x2049 (![] : Fin 0 → Fin S16x2049.rank)
  reducesTo_S16x2049_S_d0_1 : S16x2049.ReducesTo [0, 1] S_
  bcast_S_S256x256 : S_.BroadcastsInDim S256x256 (![] : Fin 0 → Fin S256x256.rank)
  reducesTo_S256x256_S_d0_1 : S256x256.ReducesTo [0, 1] S_
  bcast_S_S2049x256 : S_.BroadcastsInDim S2049x256 (![] : Fin 0 → Fin S2049x256.rank)
  reducesTo_S2049x256_S_d0_1 : S2049x256.ReducesTo [0, 1] S_

variable [Facts]

def fn_part3 {F : FTy → Type} [FloatOps F] (main_arg5 : FVec F S16x2049 .f32) (main_v48 : IVec S_ 1) (main_v50 : IVec S16x2049 1) : IVec S_ 1 :=
  let main_c_19 : IVec S_ 1 := constantI S_ 1 1#1
  let main_v51 : IVec S_ 1 := (fun x v => Host.reduce IntOp.andi x v reducesTo_S16x2049_S_d0_1 h_S_) main_v50 main_c_19
  let main_v52 : IVec S_ 1 := andi main_v48 main_v51
  let main_cst_20 : FVec F S_ .f32 := constant S_ .f32 0x00000000#32
  let main_v53 : FVec F S16x2049 .f32 := broadcastInDim S16x2049 ![] bcast_S_S16x2049 main_cst_20
  let main_v54 : IVec S16x2049 1 := cmpf .oge main_arg5 main_v53
  let main_c_21 : IVec S_ 1 := constantI S_ 1 1#1
  let main_v55 : IVec S_ 1 := (fun x v => Host.reduce IntOp.andi x v reducesTo_S16x2049_S_d0_1 h_S_) main_v54 main_c_21
  let main_v56 : IVec S_ 1 := andi main_v52 main_v55
  main_v56

def fn_part2 {F : FTy → Type} [FloatOps F] (main_arg4 : FVec F S16x2049 .f32) (main_arg5 : FVec F S16x2049 .f32) (main_arg7 : FVec F S2049x256 .f32) (main_arg8 : FVec F S256x256 .f32) (main_arg9 : FVec F S2049x256 .f32) (main_v33 : IVec S_ 1) : IVec S_ 1 :=
  let main_v34 : FVec F S2049x256 .f32 := Host.absf main_arg7
  let main_cst_12 : FVec F S_ .f32 := constant S_ .f32 0x7F800000#32
  let main_v35 : FVec F S2049x256 .f32 := broadcastInDim S2049x256 ![] bcast_S_S2049x256 main_cst_12
  let main_v36 : IVec S2049x256 1 := cmpf .olt main_v34 main_v35
  let main_c_13 : IVec S_ 1 := constantI S_ 1 1#1
  let main_v37 : IVec S_ 1 := (fun x v => Host.reduce IntOp.andi x v reducesTo_S2049x256_S_d0_1 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S2049x256 .f32 := Host.absf main_arg9
  let main_cst_16 : FVec F S_ .f32 := constant S_ .f32 0x7F800000#32
  let main_v45 : FVec F S2049x256 .f32 := broadcastInDim S2049x256 ![] bcast_S_S2049x256 main_cst_16
  let main_v46 : IVec S2049x256 1 := cmpf .olt main_v44 main_v45
  let main_c_17 : IVec S_ 1 := constantI S_ 1 1#1
  let main_v47 : IVec S_ 1 := (fun x v => Host.reduce IntOp.andi x v reducesTo_S2049x256_S_d0_1 h_S_) main_v46 main_c_17
  let main_v48 : IVec S_ 1 := andi main_v43 main_v47
  let main_cst_18 : FVec F S_ .f32 := constant S_ .f32 0x00000000#32
  let main_v49 : FVec F S16x2049 .f32 := broadcastInDim S16x2049 ![] bcast_S_S16x2049 main_cst_18
  let main_v50 : IVec S16x2049 1 := cmpf .oge main_arg4 main_v49
  fn_part3 (F := F) main_arg5 main_v48 main_v50

def fn_part1 {F : FTy → Type} [FloatOps F] (main_arg4 : FVec F S16x2049 .f32) (main_arg5 : FVec F S16x2049 .f32) (main_arg6 : FVec F S256x256 .f32) (main_arg7 : FVec F S2049x256 .f32) (main_arg8 : FVec F S256x256 .f32) (main_arg9 : FVec F S2049x256 .f32) (main_v13 : IVec S_ 1) (main_v16 : IVec S16x2048x256 1) : IVec S_ 1 :=
  let main_c_5 : IVec S_ 1 := constantI S_ 1 1#1
  let main_v17 : IVec S_ 1 := (fun x v => Host.reduce IntOp.andi x v reducesTo_S16x2048x256_S_d0_1_2 h_S_) main_v16 main_c_5
  let main_v18 : IVec S_ 1 := andi main_v13 main_v17
  let main_v19 : FVec F S16x2049 .f32 := Host.absf main_arg4
  let main_cst_6 : FVec F S_ .f32 := constant S_ .f32 0x7F800000#32
  let main_v20 : FVec F S16x2049 .f32 := broadcastInDim S16x2049 ![] bcast_S_S16x2049 main_cst_6
  let main_v21 : IVec S16x2049 1 := cmpf .olt main_v19 main_v20
  let main_c_7 : IVec S_ 1 := constantI S_ 1 1#1
  let main_v22 : IVec S_ 1 := (fun x v => Host.reduce IntOp.andi x v reducesTo_S16x2049_S_d0_1 h_S_) main_v21 main_c_7
  let main_v23 : IVec S_ 1 := andi main_v18 main_v22
  let main_v24 : FVec F S16x2049 .f32 := Host.absf main_arg5
  let main_cst_8 : FVec F S_ .f32 := constant S_ .f32 0x7F800000#32
  let main_v25 : FVec F S16x2049 .f32 := broadcastInDim S16x2049 ![] bcast_S_S16x2049 main_cst_8
  let main_v26 : IVec S16x2049 1 := cmpf .olt main_v24 main_v25
  let main_c_9 : IVec S_ 1 := constantI S_ 1 1#1
  let main_v27 : IVec S_ 1 := (fun x v => Host.reduce IntOp.andi x v reducesTo_S16x2049_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg4 main_arg5 main_arg7 main_arg8 main_arg9 main_v33

def fn {F : FTy → Type} [FloatOps F] (main_arg0 : FVec F S16x1x256 .f32) (main_arg1 : FVec F S16x1x256 .f32) (main_arg2 : FVec F S16x2048x256 .f32) (main_arg3 : FVec F S16x2048x256 .f32) (main_arg4 : FVec F S16x2049 .f32) (main_arg5 : FVec F S16x2049 .f32) (main_arg6 : FVec F S256x256 .f32) (main_arg7 : FVec F S2049x256 .f32) (main_arg8 : FVec F S256x256 .f32) (main_arg9 : FVec F S2049x256 .f32) : IVec S_ 1 :=
  let main_v0 : FVec F S16x1x256 .f32 := Host.absf main_arg0
  let main_cst : FVec F S_ .f32 := constant S_ .f32 0x7F800000#32
  let main_v1 : FVec F S16x1x256 .f32 := broadcastInDim S16x1x256 ![] bcast_S_S16x1x256 main_cst
  let main_v2 : IVec S16x1x256 1 := cmpf .olt main_v0 main_v1
  let main_c : IVec S_ 1 := constantI S_ 1 1#1
  let main_v3 : IVec S_ 1 := (fun x v => Host.reduce IntOp.andi x v reducesTo_S16x1x256_S_d0_1_2 h_S_) main_v2 main_c
  let main_v4 : FVec F S16x1x256 .f32 := Host.absf main_arg1
  let main_cst_0 : FVec F S_ .f32 := constant S_ .f32 0x7F800000#32
  let main_v5 : FVec F S16x1x256 .f32 := broadcastInDim S16x1x256 ![] bcast_S_S16x1x256 main_cst_0
  let main_v6 : IVec S16x1x256 1 := cmpf .olt main_v4 main_v5
  let main_c_1 : IVec S_ 1 := constantI S_ 1 1#1
  let main_v7 : IVec S_ 1 := (fun x v => Host.reduce IntOp.andi x v reducesTo_S16x1x256_S_d0_1_2 h_S_) main_v6 main_c_1
  let main_v8 : IVec S_ 1 := andi main_v3 main_v7
  let main_v9 : FVec F S16x2048x256 .f32 := Host.absf main_arg2
  let main_cst_2 : FVec F S_ .f32 := constant S_ .f32 0x7F800000#32
  let main_v10 : FVec F S16x2048x256 .f32 := broadcastInDim S16x2048x256 ![] bcast_S_S16x2048x256 main_cst_2
  let main_v11 : IVec S16x2048x256 1 := cmpf .olt main_v9 main_v10
  let main_c_3 : IVec S_ 1 := constantI S_ 1 1#1
  let main_v12 : IVec S_ 1 := (fun x v => Host.reduce IntOp.andi x v reducesTo_S16x2048x256_S_d0_1_2 h_S_) main_v11 main_c_3
  let main_v13 : IVec S_ 1 := andi main_v8 main_v12
  let main_v14 : FVec F S16x2048x256 .f32 := Host.absf main_arg3
  let main_cst_4 : FVec F S_ .f32 := constant S_ .f32 0x7F800000#32
  let main_v15 : FVec F S16x2048x256 .f32 := broadcastInDim S16x2048x256 ![] bcast_S_S16x2048x256 main_cst_4
  let main_v16 : IVec S16x2048x256 1 := cmpf .olt main_v14 main_v15
  fn_part1 (F := F) main_arg4 main_arg5 main_arg6 main_arg7 main_arg8 main_arg9 main_v13 main_v16
-- ==== Kernel.lean ====
abbrev S16x1x256 : Shape := ⟨3, ![16, 1, 256]⟩
abbrev S16x2048x256 : Shape := ⟨3, ![16, 2048, 256]⟩
abbrev S16x2049 : Shape := ⟨2, ![16, 2049]⟩
abbrev S256x256 : Shape := ⟨2, ![256, 256]⟩
abbrev S2049x256 : Shape := ⟨2, ![2049, 256]⟩
abbrev S16x1x2049 : Shape := ⟨3, ![16, 1, 2049]⟩
abbrev S16x2048 : Shape := ⟨2, ![16, 2048]⟩
abbrev S16x1x2048 : Shape := ⟨3, ![16, 1, 2048]⟩
abbrev S1x256 : Shape := ⟨2, ![1, 256]⟩
abbrev S1x1x256 : Shape := ⟨3, ![1, 1, 256]⟩
abbrev S1x2048x256 : Shape := ⟨3, ![1, 2048, 256]⟩
abbrev S1x1x2049 : Shape := ⟨3, ![1, 1, 2049]⟩
abbrev S1x1x2048 : Shape := ⟨3, ![1, 1, 2048]⟩
abbrev S255x256 : Shape := ⟨2, ![255, 256]⟩
abbrev S1x255 : Shape := ⟨2, ![1, 255]⟩
abbrev S2048x256 : Shape := ⟨2, ![2048, 256]⟩
abbrev S2304x256 : Shape := ⟨2, ![2304, 256]⟩
abbrev S1x2049 : Shape := ⟨2, ![1, 2049]⟩
abbrev S1x2304 : Shape := ⟨2, ![1, 2304]⟩
abbrev S256 : Shape := ⟨1, ![256]⟩
abbrev S2304x1 : Shape := ⟨2, ![2304, 1]⟩
abbrev S2304 : Shape := ⟨1, ![2304]⟩
abbrev S1x1 : Shape := ⟨2, ![1, 1]⟩
abbrev S1x2048 : Shape := ⟨2, ![1, 2048]⟩
abbrev S2048x1 : Shape := ⟨2, ![2048, 1]⟩

abbrev nBuf : Space → Nat
  | .hbm => 20
  | .vmem => 24
  | .smem => 0
  | _ => 0

abbrev bufTy : (tb : Table) → Fin (tcTables nBuf tb) → BufTy
  | .hbm, ⟨0, _⟩ => ⟨S16x1x256, .f32⟩
  | .hbm, ⟨1, _⟩ => ⟨S16x1x256, .f32⟩
  | .hbm, ⟨2, _⟩ => ⟨S16x2048x256, .f32⟩
  | .hbm, ⟨3, _⟩ => ⟨S16x2048x256, .f32⟩
  | .hbm, ⟨4, _⟩ => ⟨S16x2049, .f32⟩
  | .hbm, ⟨5, _⟩ => ⟨S16x2049, .f32⟩
  | .hbm, ⟨6, _⟩ => ⟨S256x256, .f32⟩
  | .hbm, ⟨7, _⟩ => ⟨S2049x256, .f32⟩
  | .hbm, ⟨8, _⟩ => ⟨S256x256, .f32⟩
  | .hbm, ⟨9, _⟩ => ⟨S2049x256, .f32⟩
  | .hbm, ⟨10, _⟩ => ⟨S16x1x2049, .f32⟩
  | .hbm, ⟨11, _⟩ => ⟨S16x1x2049, .f32⟩
  | .hbm, ⟨12, _⟩ => ⟨S16x2048, .f32⟩
  | .hbm, ⟨13, _⟩ => ⟨S16x1x2048, .f32⟩
  | .hbm, ⟨14, _⟩ => ⟨S16x2048, .f32⟩
  | .hbm, ⟨15, _⟩ => ⟨S16x1x2048, .f32⟩
  | .hbm, ⟨16, _⟩ => ⟨S1x256, .f32⟩
  | .hbm, ⟨17, _⟩ => ⟨S1x256, .f32⟩
  | .hbm, ⟨18, _⟩ => ⟨S16x2048x256, .f32⟩
  | .hbm, ⟨19, _⟩ => ⟨S16x2048x256, .f32⟩
  | .local _ .vmem, ⟨0, _⟩ => ⟨S1x1x256, .f32⟩
  | .local _ .vmem, ⟨1, _⟩ => ⟨S1x1x256, .f32⟩
  | .local _ .vmem, ⟨2, _⟩ => ⟨S1x2048x256, .f32⟩
  | .local _ .vmem, ⟨3, _⟩ => ⟨S1x2048x256, .f32⟩
  | .local _ .vmem, ⟨4, _⟩ => ⟨S1x1x256, .f32⟩
  | .local _ .vmem, ⟨5, _⟩ => ⟨S1x1x256, .f32⟩
  | .local _ .vmem, ⟨6, _⟩ => ⟨S1x2048x256, .f32⟩
  | .local _ .vmem, ⟨7, _⟩ => ⟨S1x2048x256, .f32⟩
  | .local _ .vmem, ⟨8, _⟩ => ⟨S1x1x2049, .f32⟩
  | .local _ .vmem, ⟨9, _⟩ => ⟨S1x1x2049, .f32⟩
  | .local _ .vmem, ⟨10, _⟩ => ⟨S1x1x2049, .f32⟩
  | .local _ .vmem, ⟨11, _⟩ => ⟨S1x1x2049, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S256x256, .f32⟩
  | .local _ .vmem, ⟨17, _⟩ => ⟨S1x256, .f32⟩
  | .local _ .vmem, ⟨18, _⟩ => ⟨S256x256, .f32⟩
  | .local _ .vmem, ⟨19, _⟩ => ⟨S1x256, .f32⟩
  | .local _ .vmem, ⟨20, _⟩ => ⟨S1x2048x256, .f32⟩
  | .local _ .vmem, ⟨21, _⟩ => ⟨S1x2048x256, .f32⟩
  | .local _ .vmem, ⟨22, _⟩ => ⟨S1x2048x256, .f32⟩
  | .local _ .vmem, ⟨23, _⟩ => ⟨S1x2048x256, .f32⟩
  | _, _ => ⟨S16x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2049 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2049 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x2048x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2048x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S16x2049_S16x1x2049_0_2 : S16x2049.BroadcastsInDim S16x1x2049 (![0, 2] : Fin 2 → Fin S16x1x2049.rank)
  slices_S16x2049_S16x2048_0_0 : S16x2049.Slices ![0, 0] S16x2048
  bcast_S16x2048_S16x1x2048_0_2 : S16x2048.BroadcastsInDim S16x1x2048 (![0, 2] : Fin 2 → Fin S16x1x2048.rank)
  slices_S2049x256_S1x256_0_0 : S2049x256.Slices ![0, 0] S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  concatenates_S1x256_S2048x256_S255x256_S2304x256_d0 : Shape.Concatenates [S1x256, S2048x256, S255x256] S2304x256 0
  inb_S1x1x2049_S1x1x2049_0_0_0 : ∀ a, (![0, 0, 0] : Fin 3 → Nat) a + S1x1x2049.size a ≤ S1x1x2049.size a
  h_S1x1x2049 : 0 < S1x1x2049.numel
  shapeCasts_S1x1x2049_S1x2049 : S1x1x2049.ShapeCasts S1x2049
  concatenates_S1x2049_S1x255_S1x2304_d1 : Shape.Concatenates [S1x2049, S1x255] S1x2304 1
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S2304x256_S256 : S2304x256.Reduces [0] S256
  shapeCasts_S256_S1x256 : S256.ShapeCasts S1x256
  transposes_S1x2304_p1_0_S2304x1 : S1x2304.Transposes [1, 0] S2304x1
  broadcasts_S1x256_S2304x256 : S1x256.Broadcasts S2304x256
  broadcasts_S2304x1_S2304x256 : S2304x1.Broadcasts S2304x256
  bitsLt_bf16_f32 : FTy.bits .bf16 < FTy.bits .f32
  slices_S2304x256_o0_0_S256x256 : S2304x256.Slices ![0, 0] S256x256
  slices_S1x2304_o0_0_S1x256 : S1x2304.Slices ![0, 0] S1x256
  reduces_S2304x256_S2304 : S2304x256.Reduces [1] S2304
  shapeCasts_S2304_S2304x1 : S2304.ShapeCasts S2304x1
  slices_S2304x256_o0_0_S1x256 : S2304x256.Slices ![0, 0] S1x256
  iota_S1x256_d1_w32 : S1x256.Iotas .tc 32 [1]
  natLt_1_32 : 1 < 32
  slices_S2304x256_o256_0_S256x256 : S2304x256.Slices ![256, 0] S256x256
  slices_S1x2304_o0_256_S1x256 : S1x2304.Slices ![0, 256] S1x256
  slices_S2304x256_o512_0_S256x256 : S2304x256.Slices ![512, 0] S256x256
  slices_S1x2304_o0_512_S1x256 : S1x2304.Slices ![0, 512] S1x256
  slices_S2304x256_o768_0_S256x256 : S2304x256.Slices ![768, 0] S256x256
  slices_S1x2304_o0_768_S1x256 : S1x2304.Slices ![0, 768] S1x256
  slices_S2304x256_o1024_0_S256x256 : S2304x256.Slices ![1024, 0] S256x256
  slices_S1x2304_o0_1024_S1x256 : S1x2304.Slices ![0, 1024] S1x256
  slices_S2304x256_o1280_0_S256x256 : S2304x256.Slices ![1280, 0] S256x256
  slices_S1x2304_o0_1280_S1x256 : S1x2304.Slices ![0, 1280] S1x256
  slices_S2304x256_o1536_0_S256x256 : S2304x256.Slices ![1536, 0] S256x256
  slices_S1x2304_o0_1536_S1x256 : S1x2304.Slices ![0, 1536] S1x256
  slices_S2304x256_o1792_0_S256x256 : S2304x256.Slices ![1792, 0] S256x256
  slices_S1x2304_o0_1792_S1x256 : S1x2304.Slices ![0, 1792] S1x256
  slices_S2304x256_o2048_0_S256x256 : S2304x256.Slices ![2048, 0] S256x256
  slices_S1x2304_o0_2048_S1x256 : S1x2304.Slices ![0, 2048] S1x256
  concatenates_S1x256_S1x256_S1x256_S1x256_S1x256_S1x256_S1x256_S1x256_S1x256_S1x2304_d1 : Shape.Concatenates [S1x256, S1x256, S1x256, S1x256, S1x256, S1x256, S1x256, S1x256, S1x256] S1x2304 1
  slices_S2304x1_o0_0_S1x1 : S2304x1.Slices ![0, 0] S1x1
  transposes_S2304x1_p1_0_S1x2304 : S2304x1.Transposes [1, 0] S1x2304
  broadcasts_S1x1_S1x2304 : S1x1.Broadcasts S1x2304
  slices_S1x2304_o0_0_S1x1 : S1x2304.Slices ![0, 0] S1x1
  broadcasts_S1x1_S1x256 : S1x1.Broadcasts S1x256
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  transposes_S1x2048_p1_0_S2048x1 : S1x2048.Transposes [1, 0] S2048x1
  broadcasts_S1x256_S2048x256 : S1x256.Broadcasts S2048x256
  broadcasts_S2048x1_S2048x256 : S2048x1.Broadcasts S2048x256
  shapeCasts_S2048x256_S1x2048x256 : S2048x256.ShapeCasts S1x2048x256
  dot_S2304x256_S256x256_S2304x256_1_1_0_0_n_n_wf : DotDims.WF S2304x256 S256x256 S2304x256 [1] [1] [0] [0] [] []
  dot_S1x2304_S2304x256_S1x256_1_0_0_1_n_n_wf : DotDims.WF S1x2304 S2304x256 S1x256 [1] [0] [0] [1] [] []
  dot_S1x256_S256x256_S1x256_1_0_0_1_n_n_wf : DotDims.WF S1x256 S256x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256.size a ≤ S16x1x256.size a
  hwx0_0 : ∀ i : grid0.Coords, EltTy.bits .f32 = 32 ∨ (Rect.block (s := S16x1x256) S1x1x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S16x2048x256.size a
  hwx0_1 : ∀ i : grid0.Coords, EltTy.bits .f32 = 32 ∨ (Rect.block (s := S16x2048x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S16x1x256.size a
  hwx0_2 : ∀ i : grid0.Coords, EltTy.bits .f32 = 32 ∨ (Rect.block (s := S16x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S16x2048x256.size a
  hwx0_3 : ∀ i : grid0.Coords, EltTy.bits .f32 = 32 ∨ (Rect.block (s := S16x2048x256) S1x2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2049.size a ≤ S16x1x2049.size a
  hwx0_4 : ∀ i : grid0.Coords, EltTy.bits .f32 = 32 ∨ (Rect.block (s := S16x1x2049) S1x1x2049.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2049.size a ≤ S16x1x2049.size a
  hwx0_5 : ∀ i : grid0.Coords, EltTy.bits .f32 = 32 ∨ (Rect.block (s := S16x1x2049) S1x1x2049.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x2048.size a ≤ S16x1x2048.size a
  hwx0_6 : ∀ i : grid0.Coords, EltTy.bits .f32 = 32 ∨ (Rect.block (s := S16x1x2048) S1x1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x2048.size a ≤ S16x1x2048.size a
  hwx0_7 : ∀ i : grid0.Coords, EltTy.bits .f32 = 32 ∨ (Rect.block (s := S16x1x2048) S1x1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x2048x256.size a ≤ S16x2048x256.size a
  hwx0_12 : ∀ i : grid0.Coords, EltTy.bits .f32 = 32 ∨ (Rect.block (s := S16x2048x256) S1x2048x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x2048x256.size a ≤ S16x2048x256.size a
  hwx0_13 : ∀ i : grid0.Coords, EltTy.bits .f32 = 32 ∨ (Rect.block (s := S16x2048x256) S1x2048x256.size (cc0_transform_13 i) (hinb0_13 i)).WholeWords (EltTy.packing .f32)

variable [Facts₀]

def dot_S2304x256_S256x256_S2304x256_1_1_0_0_n_n : DotDims S2304x256 S256x256 S2304x256 where
  lhsContracting := [1]
  rhsContracting := [1]
  lhsNonContracting := [0]
  rhsNonContracting := [0]
  lhsBatch := []
  rhsBatch := []
  wf := dot_S2304x256_S256x256_S2304x256_1_1_0_0_n_n_wf
def dot_S1x2304_S2304x256_S1x256_1_0_0_1_n_n : DotDims S1x2304 S2304x256 S1x256 where
  lhsContracting := [1]
  rhsContracting := [0]
  lhsNonContracting := [0]
  rhsNonContracting := [1]
  lhsBatch := []
  rhsBatch := []
  wf := dot_S1x2304_S2304x256_S1x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.ofSpec (Memref.whole main_arg0) S1x1x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x2049.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1x2049.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x1x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8_0) S1x2048x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v8_1) S1x2048x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16x1x256 : Shape := ⟨3, ![16, 1, 256]⟩
abbrev S16x2048x256 : Shape := ⟨3, ![16, 2048, 256]⟩
abbrev S16x2049 : Shape := ⟨2, ![16, 2049]⟩
abbrev S256x256 : Shape := ⟨2, ![256, 256]⟩
abbrev S2049x256 : Shape := ⟨2, ![2049, 256]⟩
abbrev S16x2049x256 : Shape := ⟨3, ![16, 2049, 256]⟩
abbrev S_ : Shape := ⟨0, ![]⟩
abbrev S16x256 : Shape := ⟨2, ![16, 256]⟩
abbrev S16x2049x1 : Shape := ⟨3, ![16, 2049, 1]⟩
abbrev S16x2049x2049 : Shape := ⟨3, ![16, 2049, 2049]⟩
abbrev S2049x2049 : Shape := ⟨2, ![2049, 2049]⟩
abbrev S1x2049x2049 : Shape := ⟨3, ![1, 2049, 2049]⟩
abbrev S16x1x2049 : Shape := ⟨3, ![16, 1, 2049]⟩
abbrev S1x2049x256 : Shape := ⟨3, ![1, 2049, 256]⟩
abbrev S16x256x2049 : Shape := ⟨3, ![16, 256, 2049]⟩
abbrev S16x256x1 : Shape := ⟨3, ![16, 256, 1]⟩
abbrev S1x16x1x1x1x256 : Shape := ⟨6, ![1, 16, 1, 1, 1, 256]⟩
abbrev S1x16x2048x1x1x256 : Shape := ⟨6, ![1, 16, 2048, 1, 1, 256]⟩
abbrev S16x2048 : Shape := ⟨2, ![16, 2048]⟩
abbrev S16x2048x1 : Shape := ⟨3, ![16, 2048, 1]⟩

abbrev nBuf : Space → Nat
  | .hbm => 157
  | .vmem => 0
  | .smem => 0
  | _ => 0

abbrev hbmTy0_0 (i : Nat) : BufTy := match i % 128 with
  | 0 => ⟨S16x1x256, .f32⟩
  | 1 => ⟨S16x1x256, .f32⟩
  | 2 => ⟨S16x2048x256, .f32⟩
  | 3 => ⟨S16x2048x256, .f32⟩
  | 4 => ⟨S16x2049, .f32⟩
  | 5 => ⟨S16x2049, .f32⟩
  | 6 => ⟨S256x256, .f32⟩
  | 7 => ⟨S2049x256, .f32⟩
  | 8 => ⟨S256x256, .f32⟩
  | 9 => ⟨S2049x256, .f32⟩
  | 10 => ⟨S16x2049x256, .f32⟩
  | 11 => ⟨S16x2049x256, .f32⟩
  | 12 => ⟨S16x2049x256, .f32⟩
  | 13 => ⟨S_, .f32⟩
  | 14 => ⟨S16x256, .f32⟩
  | 15 => ⟨S16x1x256, .f32⟩
  | 16 => ⟨S16x1x256, .f32⟩
  | 17 => ⟨S_, .f32⟩
  | 18 => ⟨S16x1x256, .f32⟩
  | 19 => ⟨S16x1x256, .f32⟩
  | 20 => ⟨S16x2049x256, .f32⟩
  | 21 => ⟨S16x2049x256, .f32⟩
  | 22 => ⟨S16x2049x1, .f32⟩
  | 23 => ⟨S16x2049x256, .f32⟩
  | 24 => ⟨S16x2049x256, .f32⟩
  | 25 => ⟨S16x2049x2049, .f32⟩
  | 26 => ⟨S16x2049x256, .f32⟩
  | 27 => ⟨S_, .f32⟩
  | 28 => ⟨S16x256, .f32⟩
  | 29 => ⟨S16x1x256, .f32⟩
  | 30 => ⟨S16x1x256, .f32⟩
  | 31 => ⟨S_, .f32⟩
  | 32 => ⟨S16x1x256, .f32⟩
  | 33 => ⟨S16x1x256, .f32⟩
  | 34 => ⟨S16x2049x256, .f32⟩
  | 35 => ⟨S16x2049x256, .f32⟩
  | 36 => ⟨S16x2049x1, .f32⟩
  | 37 => ⟨S16x2049x256, .f32⟩
  | 38 => ⟨S16x2049x256, .f32⟩
  | 39 => ⟨S16x2049x2049, .f32⟩
  | 40 => ⟨S_, .f32⟩
  | 41 => ⟨S_, .f32⟩
  | 42 => ⟨S16x2049x2049, .f32⟩
  | 43 => ⟨S16x2049x2049, .f32⟩
  | 44 => ⟨S2049x2049, .i32⟩
  | 45 => ⟨S2049x2049, .i32⟩
  | 46 => ⟨S_, .i32⟩
  | 47 => ⟨S2049x2049, .i32⟩
  | 48 => ⟨S2049x2049, .i32⟩
  | 49 => ⟨S2049x2049, .i1⟩
  | 50 => ⟨S2049x2049, .f32⟩
  | 51 => ⟨S1x2049x2049, .f32⟩
  | 52 => ⟨S16x2049x2049, .f32⟩
  | 53 => ⟨S16x2049x2049, .f32⟩
  | 54 => ⟨S16x1x2049, .f32⟩
  | 55 => ⟨S16x2049x2049, .f32⟩
  | 56 => ⟨S16x2049x2049, .f32⟩
  | 57 => ⟨S_, .f32⟩
  | 58 => ⟨S16x2049, .f32⟩
  | 59 => ⟨S_, .f32⟩
  | 60 => ⟨S16x2049, .f32⟩
  | 61 => ⟨S16x2049, .f32⟩
  | 62 => ⟨S_, .f32⟩
  | 63 => ⟨S16x2049, .f32⟩
  | 64 => ⟨S16x2049, .f32⟩
  | 65 => ⟨S16x2049x1, .f32⟩
  | 66 => ⟨S16x2049x2049, .f32⟩
  | 67 => ⟨S16x2049x2049, .f32⟩
  | 68 => ⟨S16x1x2049, .f32⟩
  | 69 => ⟨S16x2049x2049, .f32⟩
  | 70 => ⟨S16x2049x2049, .f32⟩
  | 71 => ⟨S16x2049x256, .f32⟩
  | 72 => ⟨S16x2049x256, .f32⟩
  | 73 => ⟨S1x2049x256, .f32⟩
  | 74 => ⟨S16x2049x256, .f32⟩
  | 75 => ⟨S16x2049x256, .f32⟩
  | 76 => ⟨S16x2049x256, .f32⟩
  | 77 => ⟨S16x2049x1, .f32⟩
  | 78 => ⟨S16x2049x256, .f32⟩
  | 79 => ⟨S16x2049x256, .f32⟩
  | 80 => ⟨S16x256x2049, .f32⟩
  | 81 => ⟨S_, .f32⟩
  | 82 => ⟨S_, .f32⟩
  | 83 => ⟨S16x2049x2049, .f32⟩
  | 84 => ⟨S16x2049x2049, .f32⟩
  | 85 => ⟨S2049x2049, .i32⟩
  | 86 => ⟨S2049x2049, .i32⟩
  | 87 => ⟨S_, .i32⟩
  | 88 => ⟨S2049x2049, .i32⟩
  | 89 => ⟨S2049x2049, .i32⟩
  | 90 => ⟨S2049x2049, .i1⟩
  | 91 => ⟨S2049x2049, .f32⟩
  | 92 => ⟨S1x2049x2049, .f32⟩
  | 93 => ⟨S16x2049x2049, .f32⟩
  | 94 => ⟨S16x2049x2049, .f32⟩
  | 95 => ⟨S16x1x2049, .f32⟩
  | 96 => ⟨S16x2049x2049, .f32⟩
  | 97 => ⟨S16x2049x2049, .f32⟩
  | 98 => ⟨S_, .f32⟩
  | 99 => ⟨S16x2049, .f32⟩
  | 100 => ⟨S_, .f32⟩
  | 101 => ⟨S16x2049, .f32⟩
  | 102 => ⟨S16x2049, .f32⟩
  | 103 => ⟨S_, .f32⟩
  | 104 => ⟨S16x2049, .f32⟩
  | 105 => ⟨S16x2049, .f32⟩
  | 106 => ⟨S16x2049x1, .f32⟩
  | 107 => ⟨S16x2049x2049, .f32⟩
  | 108 => ⟨S16x2049x2049, .f32⟩
  | 109 => ⟨S16x1x2049, .f32⟩
  | 110 => ⟨S16x2049x2049, .f32⟩
  | 111 => ⟨S16x2049x2049, .f32⟩
  | 112 => ⟨S16x2049x256, .f32⟩
  | 113 => ⟨S16x2049x256, .f32⟩
  | 114 => ⟨S1x2049x256, .f32⟩
  | 115 => ⟨S16x2049x256, .f32⟩
  | 116 => ⟨S16x2049x256, .f32⟩
  | 117 => ⟨S16x2049x256, .f32⟩
  | 118 => ⟨S16x2049x1, .f32⟩
  | 119 => ⟨S16x2049x256, .f32⟩
  | 120 => ⟨S16x2049x256, .f32⟩
  | 121 => ⟨S16x256x2049, .f32⟩
  | 122 => ⟨S_, .f32⟩
  | 123 => ⟨S16x256x2049, .f32⟩
  | 124 => ⟨S16x256x2049, .f32⟩
  | 125 => ⟨S_, .f32⟩
  | 126 => ⟨S16x256x2049, .f32⟩
  | 127 => ⟨S16x256x2049, .f32⟩
  | _ => ⟨S16x1x256, .f32⟩

abbrev hbmTy0_1 (i : Nat) : BufTy := match i % 128 with
  | 0 => ⟨S16x256x2049, .f32⟩
  | 1 => ⟨S16x256x1, .f32⟩
  | 2 => ⟨S16x256, .f32⟩
  | 3 => ⟨S16x1x256, .f32⟩
  | 4 => ⟨S1x16x1x1x1x256, .f32⟩
  | 5 => ⟨S1x16x2048x1x1x256, .f32⟩
  | 6 => ⟨S16x2048x256, .f32⟩
  | 7 => ⟨S16x2048, .f32⟩
  | 8 => ⟨S16x2048x1, .f32⟩
  | 9 => ⟨S16x2048, .f32⟩
  | 10 => ⟨S16x2048x1, .f32⟩
  | 11 => ⟨S_, .f32⟩
  | 12 => ⟨S16x2048x256, .f32⟩
  | 13 => ⟨S16x2048x256, .f32⟩
  | 14 => ⟨S_, .f32⟩
  | 15 => ⟨S16x2048x256, .f32⟩
  | 16 => ⟨S16x2048x256, .f32⟩
  | 17 => ⟨S16x2048x256, .f32⟩
  | 18 => ⟨S16x2048x256, .f32⟩
  | 19 => ⟨S16x2048x256, .f32⟩
  | 20 => ⟨S_, .f32⟩
  | 21 => ⟨S16x2048x256, .f32⟩
  | 22 => ⟨S16x2048x256, .f32⟩
  | 23 => ⟨S_, .f32⟩
  | 24 => ⟨S16x2048x256, .f32⟩
  | 25 => ⟨S16x2048x256, .f32⟩
  | 26 => ⟨S16x2048x256, .f32⟩
  | 27 => ⟨S16x2048x256, .f32⟩
  | 28 => ⟨S16x2048x256, .f32⟩
  | _ => ⟨S16x1x256, .f32⟩

abbrev hbmTy (i : Nat) : BufTy := match i / 128 with
  | 0 => hbmTy0_0 i
  | 1 => hbmTy0_1 i
  | _ => ⟨S16x1x256, .f32⟩

abbrev bufTy : (tb : Table) → Fin (tcTables nBuf tb) → BufTy
  | .hbm, ⟨i, _⟩ => hbmTy i
  | _, _ => ⟨S16x1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_7 : Ref sig .tc := ⟨.hbm, 81, rfl⟩
abbrev main_call1_v0 : Ref sig .tc := ⟨.hbm, 82, rfl⟩
abbrev main_call1_v1 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_8 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_9 : Ref sig .tc := ⟨.hbm, 98, rfl⟩
abbrev main_v73 : Ref sig .tc := ⟨.hbm, 99, rfl⟩
abbrev main_cst_10 : Ref sig .tc := ⟨.hbm, 100, rfl⟩
abbrev main_v74 : Ref sig .tc := ⟨.hbm, 101, rfl⟩
abbrev main_v75 : Ref sig .tc := ⟨.hbm, 102, rfl⟩
abbrev main_cst_11 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_12 : Ref sig .tc := ⟨.hbm, 122, rfl⟩
abbrev main_v94 : Ref sig .tc := ⟨.hbm, 123, rfl⟩
abbrev main_v95 : Ref sig .tc := ⟨.hbm, 124, rfl⟩
abbrev main_cst_13 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_14 : Ref sig .tc := ⟨.hbm, 139, rfl⟩
abbrev main_v109 : Ref sig .tc := ⟨.hbm, 140, rfl⟩
abbrev main_v110 : Ref sig .tc := ⟨.hbm, 141, rfl⟩
abbrev main_cst_15 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_16 : Ref sig .tc := ⟨.hbm, 148, rfl⟩
abbrev main_v116 : Ref sig .tc := ⟨.hbm, 149, rfl⟩
abbrev main_v117 : Ref sig .tc := ⟨.hbm, 150, rfl⟩
abbrev main_cst_17 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩

abbrev nD : Nat := 1
abbrev τ : Topo := Topo.v7x

variable {F : FTy → Type} [FloatOps F]

class Facts₀ : Prop where
  concatenates_S16x1x256_S16x2048x256_S16x2049x256_d1 : Shape.Concatenates [S16x1x256, S16x2048x256] S16x2049x256 1
  reducesTo_S16x2049x256_S16x256_d1 : S16x2049x256.ReducesTo [1] S16x256
  h_S_ : 0 < S_.numel
  bcast_S16x256_S16x1x256_0_2 : S16x256.BroadcastsInDim S16x1x256 (![0, 2] : Fin 2 → Fin S16x1x256.rank)
  bcast_S_S16x1x256 : S_.BroadcastsInDim S16x1x256 (![] : Fin 0 → Fin S16x1x256.rank)
  bcast_S16x1x256_S16x2049x256_0_1_2 : S16x1x256.BroadcastsInDim S16x2049x256 (![0, 1, 2] : Fin 3 → Fin S16x2049x256.rank)
  bcast_S16x2049_S16x2049x1_0_1 : S16x2049.BroadcastsInDim S16x2049x1 (![0, 1] : Fin 2 → Fin S16x2049x1.rank)
  bcast_S16x2049x1_S16x2049x256_0_1_2 : S16x2049x1.BroadcastsInDim S16x2049x256 (![0, 1, 2] : Fin 3 → Fin S16x2049x256.rank)
  bcast_S_S16x2049x2049 : S_.BroadcastsInDim S16x2049x2049 (![] : Fin 0 → Fin S16x2049x2049.rank)
  bcast_S_S2049x2049 : S_.BroadcastsInDim S2049x2049 (![] : Fin 0 → Fin S2049x2049.rank)
  bcast_S2049x2049_S1x2049x2049_1_2 : S2049x2049.BroadcastsInDim S1x2049x2049 (![1, 2] : Fin 2 → Fin S1x2049x2049.rank)
  bcast_S1x2049x2049_S16x2049x2049_0_1_2 : S1x2049x2049.BroadcastsInDim S16x2049x2049 (![0, 1, 2] : Fin 3 → Fin S16x2049x2049.rank)
  bcast_S16x2049_S16x1x2049_0_2 : S16x2049.BroadcastsInDim S16x1x2049 (![0, 2] : Fin 2 → Fin S16x1x2049.rank)
  bcast_S16x1x2049_S16x2049x2049_0_1_2 : S16x1x2049.BroadcastsInDim S16x2049x2049 (![0, 1, 2] : Fin 3 → Fin S16x2049x2049.rank)
  reducesTo_S16x2049x2049_S16x2049_d2 : S16x2049x2049.ReducesTo [2] S16x2049
  bcast_S_S16x2049 : S_.BroadcastsInDim S16x2049 (![] : Fin 0 → Fin S16x2049.rank)
  bcast_S16x2049x1_S16x2049x2049_0_1_2 : S16x2049x1.BroadcastsInDim S16x2049x2049 (![0, 1, 2] : Fin 3 → Fin S16x2049x2049.rank)
  bcast_S2049x256_S1x2049x256_1_2 : S2049x256.BroadcastsInDim S1x2049x256 (![1, 2] : Fin 2 → Fin S1x2049x256.rank)
  bcast_S1x2049x256_S16x2049x256_0_1_2 : S1x2049x256.BroadcastsInDim S16x2049x256 (![0, 1, 2] : Fin 3 → Fin S16x2049x256.rank)
  transposes_S16x2049x256_S16x256x2049_0_2_1 : S16x2049x256.Transposes [0, 2, 1] S16x256x2049
  bcast_S_S16x256x2049 : S_.BroadcastsInDim S16x256x2049 (![] : Fin 0 → Fin S16x256x2049.rank)
  slices_S16x256x2049_S16x256x1_0_0_0 : S16x256x2049.Slices ![0, 0, 0] S16x256x1
  shapeCasts_S16x256x1_S16x256 : S16x256x1.ShapeCasts S16x256
  shapeCasts_S16x1x256_S1x16x1x1x1x256 : S16x1x256.ShapeCasts S1x16x1x1x1x256
  bcast_S1x16x1x1x1x256_S1x16x2048x1x1x256_0_1_2_3_4_5 : S1x16x1x1x1x256.BroadcastsInDim S1x16x2048x1x1x256 (![0, 1, 2, 3, 4, 5] : Fin 6 → Fin S1x16x2048x1x1x256.rank)
  shapeCasts_S1x16x2048x1x1x256_S16x2048x256 : S1x16x2048x1x1x256.ShapeCasts S16x2048x256
  slices_S16x2049_S16x2048_0_0 : S16x2049.Slices ![0, 0] S16x2048
  bcast_S16x2048_S16x2048x1_0_1 : S16x2048.BroadcastsInDim S16x2048x1 (![0, 1] : Fin 2 → Fin S16x2048x1.rank)
  bcast_S_S16x2048x256 : S_.BroadcastsInDim S16x2048x256 (![] : Fin 0 → Fin S16x2048x256.rank)
  bcast_S16x2048x1_S16x2048x256_0_1_2 : S16x2048x1.BroadcastsInDim S16x2048x256 (![0, 1, 2] : Fin 3 → Fin S16x2048x256.rank)
  dot_S16x2049x256_S16x2049x256_S16x2049x2049_2_2_1_1_0_0_wf : DotDims.WF S16x2049x256 S16x2049x256 S16x2049x2049 [2] [2] [1] [1] [0] [0]
  dot_S16x2049x256_S256x256_S16x2049x256_2_0_01_1_n_n_wf : DotDims.WF S16x2049x256 S256x256 S16x2049x256 [2] [0] [0, 1] [1] [] []
  dot_S16x2049x2049_S16x2049x256_S16x2049x256_2_1_1_2_0_0_wf : DotDims.WF S16x2049x2049 S16x2049x256 S16x2049x256 [2] [1] [1] [2] [0] [0]

variable [Facts₀]

def dot_S16x2049x256_S16x2049x256_S16x2049x2049_2_2_1_1_0_0 : DotDims S16x2049x256 S16x2049x256 S16x2049x2049 where
  lhsContracting := [2]
  rhsContracting := [2]
  lhsNonContracting := [1]
  rhsNonContracting := [1]
  lhsBatch := [0]
  rhsBatch := [0]
  wf := dot_S16x2049x256_S16x2049x256_S16x2049x2049_2_2_1_1_0_0_wf
def dot_S16x2049x256_S256x256_S16x2049x256_2_0_01_1_n_n : DotDims S16x2049x256 S256x256 S16x2049x256 where
  lhsContracting := [2]
  rhsContracting := [0]
  lhsNonContracting := [0, 1]
  rhsNonContracting := [1]
  lhsBatch := []
  rhsBatch := []
  wf := dot_S16x2049x256_S256x256_S16x2049x256_2_0_01_1_n_n_wf
def dot_S16x2049x2049_S16x2049x256_S16x2049x256_2_1_1_2_0_0 : DotDims S16x2049x2049 S16x2049x256 S16x2049x256 where
  lhsContracting := [2]
  rhsContracting := [1]
  lhsNonContracting := [1]
  rhsNonContracting := [2]
  lhsBatch := [0]
  rhsBatch := [0]
  wf := dot_S16x2049x2049_S16x2049x256_S16x2049x256_2_1_1_2_0_0_wf

class Facts : Prop extends Facts₀ where

variable [Facts]
-- ==== Proof.Spec.lean ====
/-
  The mathematics both programs compute, stated once, entry by entry, on the extended reals.

  A graph has N nodes with 256 features each (`feat`) and a node mask `M`. Every feature column is
  scaled by its Euclidean norm over the nodes (bounded below by a small constant) and every node row by
  the node's mask (`xn`); `edge n m` is the inner product of rows n and m of the result. The
  adjacency is the rectified edge matrix plus the identity, its columns masked; it is normalised on both
  sides by the inverse square roots of its row sums, and one graph-convolution layer
  tanh(adj · feat · W + bias) · mask follows. Only node `z` (the prepended token) of the layer is used.

  Two readings of that layer at node z are stated: `outRef` (the adjacency row times feat · W, the
  degree by a power −1/2) and `outK` (the adjacency row times feat first, then W; the degree by a
  reciprocal square root, the degree of a column dropped where its mask is not positive; the
  identity's contribution to a row sum written as the node's own mask).
-/
import Idealize.ShloMosaic.PureOps.Ideal
import Idealize.ShloMosaic.Lib.ValueIdx

noncomputable section

open scoped BigOperators

namespace GraphFuse

open Idealize.ShloMosaic Idealize.ShloMosaic.ValueIdx

/-- Arrays of rank 3 and 2 of extended reals, by literal extents. -/
abbrev A3 (a b c : ℕ) := (⟨3, ![a, b, c]⟩ : Shape).Idx → EReal
abbrev A2 (a b : ℕ) := (⟨2, ![a, b]⟩ : Shape).Idx → EReal

/-- The float literals the two programs share, kept as their words. -/
def eps12 : EReal := Ideal.ofBits .f32 0x2B8CBCCC#32
def eps8 : EReal := Ideal.ofBits .f32 0x322BCC77#32
def mhalf : EReal := Ideal.ofBits .f32 0xBF000000#32
def c07 : EReal := Ideal.ofBits .f32 0x3F333333#32
def c03 : EReal := Ideal.ofBits .f32 0x3E99999A#32
def half : EReal := Ideal.ofBits .f32 0x3F000000#32

/-- The rectifier. -/
def relu (x : EReal) : EReal := max x 0

section graph

variable {N : ℕ} (feat : Fin N → Fin 256 → EReal) (M : Fin N → EReal)

/-- The norm of feature column d over the nodes, bounded below. -/
def colNorm (d : Fin 256) : EReal := max (Ideal.sqrt (∑ k, feat k d * feat k d)) eps12

/-- The normalised, masked features. -/
def xn (n : Fin N) (d : Fin 256) : EReal := Ideal.div (feat n d) (colNorm feat d) * M n

/-- The edge similarity of nodes n and m. -/
def edge (n m : Fin N) : EReal := ∑ d, xn feat M n d * xn feat M m d

/-- An entry of the column-masked adjacency (rectified similarity plus the identity). -/
def adjEntry (n m : Fin N) : EReal := (relu (edge feat M n m) + (if n = m then 1 else 0)) * M m

/-- Its row sum, the node's degree by a power −1/2, and the doubly normalised adjacency. -/
def rowSum (n : Fin N) : EReal := ∑ m, adjEntry feat M n m
def deg (n : Fin N) : EReal := Ideal.pow (rowSum feat M n + eps8) mhalf
def adjNorm (n m : Fin N) : EReal := deg feat M n * adjEntry feat M n m * deg feat M m

/-- feat · W, and the layer at node z: projected first, then aggregated. -/
def preSup (W : Fin 256 → Fin 256 → EReal) (m : Fin N) (e : Fin 256) : EReal := ∑ d, feat m d * W d e
def outRef (W : Fin 256 → Fin 256 → EReal) (b0 : Fin 256 → EReal) (z : Fin N) (e : Fin 256) : EReal :=
  Ideal.tanh (∑ m, adjNorm feat M z m * preSup feat W m e + b0 e) * M z

/-- The second reading: row sums with the identity's share written as the node's mask, degrees by a
    reciprocal square root, row z of the adjacency with a column's degree dropped where its mask is not
    positive, aggregated first and projected second. -/
def rowSumK (n : Fin N) : EReal := ∑ m, relu (edge feat M n m) * M m + M n
def degK (n : Fin N) : EReal := Ideal.rsqrt (rowSumK feat M n + eps8)
def adjK (z m : Fin N) : EReal :=
  degK feat M z * (relu (edge feat M z m) * M m + (if m = z then 1 else 0) * M m) *
    (if 0 < M m then degK feat M m else 0)
def outK (W : Fin 256 → Fin 256 → EReal) (b0 : Fin 256 → EReal) (z : Fin N) (e : Fin 256) : EReal :=
  Ideal.tanh (∑ d, (∑ m, adjK feat M z m * feat m d) * W d e + b0 e) * M z

end graph

/-! ## The graphs of one batch entry, from the argument arrays -/

/-- Node 0 is the input token, nodes 1 … 2048 the base features. -/
def featOf (inp : A3 16 1 256) (base : A3 16 2048 256) (b : Fin 16) : Fin 2049 → Fin 256 → EReal :=
  fun n d => if h : n.val = 0 then inp (ix3 b 0 d) else base (ix3 b ⟨n.val - 1, by omega⟩ d)
def maskOf (mk : A2 16 2049) (b : Fin 16) : Fin 2049 → EReal := fun n => mk (ix2 b n)
def wOf (W : A2 256 256) : Fin 256 → Fin 256 → EReal := fun d e => W (ix2 d e)
def biasOf (bb : A2 2049 256) : Fin 256 → EReal := fun e => bb (ix2 0 e)

/-- The same graph extended by 255 zero nodes with zero mask (2304 = 9 · 256 nodes). -/
def featPad (inp : A3 16 1 256) (base : A3 16 2048 256) (b : Fin 16) : Fin 2304 → Fin 256 → EReal :=
  fun n d => if h : n.val < 2049 then featOf inp base b ⟨n.val, h⟩ d else 0
def maskPad (mk : A2 16 2049) (b : Fin 16) : Fin 2304 → EReal :=
  fun n => if h : n.val < 2049 then mk (ix2 b ⟨n.val, h⟩) else 0

/-- The blended token of batch entry b, in either reading. -/
def gRef (x0 x1 : A3 16 1 256) (x2 x3 : A3 16 2048 256) (x4 x5 : A2 16 2049) (x6 : A2 256 256) (x7 : A2 2049 256)
    (x8 : A2 256 256) (x9 : A2 2049 256) (b : Fin 16) (e : Fin 256) : EReal :=
  c07 * outRef (featOf x0 x2 b) (maskOf x4 b) (wOf x6) (biasOf x7) 0 e
    + c03 * outRef (featOf x1 x3 b) (maskOf x5 b) (wOf x8) (biasOf x9) 0 e
def gK (x0 x1 : A3 16 1 256) (x2 x3 : A3 16 2048 256) (x4 x5 : A2 16 2049) (x6 : A2 256 256) (x7 : A2 2049 256)
    (x8 : A2 256 256) (x9 : A2 2049 256) (b : Fin 16) (e : Fin 256) : EReal :=
  c07 * outK (featPad x0 x2 b) (maskPad x4 b) (wOf x6) (biasOf x7) 0 e
    + c03 * outK (featPad x1 x3 b) (maskPad x5 b) (wOf x8) (biasOf x9) 0 e

/-- Every entry is a real number. -/
def IsReal {ι : Type} (a : ι → EReal) : Prop := ∀ i, ∃ r : ℝ, a i = (r : EReal)

/-- What the proof uses of the inputs: every entry of every array is a real number, and the two node
    masks are nowhere negative. -/
structure Good (x0 x1 : A3 16 1 256) (x2 x3 : A3 16 2048 256) (x4 x5 : A2 16 2049) (x6 : A2 256 256) (x7 : A2 2049 256)
    (x8 : A2 256 256) (x9 : A2 2049 256) : Prop where
  r0 : IsReal x0
  r1 : IsReal x1
  r2 : IsReal x2
  r3 : IsReal x3
  r4 : IsReal x4
  r5 : IsReal x5
  r6 : IsReal x6
  r7 : IsReal x7
  r8 : IsReal x8
  r9 : IsReal x9
  n4 : ∀ i, 0 ≤ x4 i
  n5 : ∀ i, 0 ≤ x5 i

/-- A fused output: half the base features plus half the blended token, masked per row. -/
def fuse (base : A3 16 2048 256) (mk : A2 16 2049) (g : Fin 16 → Fin 256 → EReal) (b : Fin 16) (r : Fin 2048) (e : Fin 256) : EReal :=
  (half * base (ix3 b r e) + half * g b e) * mk (ix2 b r.castSucc)

end GraphFuse

end
-- ==== Proof.KerDefs.lean ====
/-
  The padded graph of one grid point, read off the blocks the body loads: node 0 is the token, nodes 1 … 2048 the
  base features, 255 zero rows after them; the mask row extended by 255 zeros; the weights and the bias row by
  coordinates.
-/
import proofs.«179044_j54949811585484_2_alg».proof.Proof.Gen.KernelIdeal
import proofs.«179044_j54949811585484_2_alg».proof.Proof.Spec
import Idealize.ShloMosaic.Lib.ValueIdx

noncomputable section

namespace GraphFuse.Ker

open Cert.KernelIdeal Idealize.ShloMosaic Idealize.ShloMosaic.ValueIdx GraphFuse

/-- Node 0 is the token, nodes 1 … 2048 the base features, the other 255 rows zero. -/
def featB (inp : S1x1x256.Idx → EReal) (base : S1x2048x256.Idx → EReal) : Fin 2304 → Fin 256 → EReal :=
  fun n d => if h0 : n.val = 0 then inp (ix3 (0 : Fin 1) (0 : Fin 1) d)
    else if h : n.val < 2049 then base (ix3 (0 : Fin 1) (⟨n.val - 1, by omega⟩ : Fin 2048) d) else 0

/-- The mask row extended by 255 zeros. -/
def maskB (mk : S1x1x2049.Idx → EReal) : Fin 2304 → EReal :=
  fun n => if h : n.val < 2049 then mk (ix3 (0 : Fin 1) (0 : Fin 1) (⟨n.val, h⟩ : Fin 2049)) else 0

/-- The weights and the bias row by coordinates. -/
def wB (W : S256x256.Idx → EReal) : Fin 256 → Fin 256 → EReal := fun d e => W (ix2 d e)
def bB (b : S1x256.Idx → EReal) : Fin 256 → EReal := fun e => b (ix2 (0 : Fin 1) e)

/-- The blended token of one grid point, from the twelve loaded blocks. -/
def gB (x0 : S1x1x256.Idx → EReal) (x1 : S1x2048x256.Idx → EReal) (x2 : S1x1x256.Idx → EReal) (x3 : S1x2048x256.Idx → EReal)
    (x4 x5 : S1x1x2049.Idx → EReal) (x8 : S256x256.Idx → EReal) (x9 : S1x256.Idx → EReal) (x10 : S256x256.Idx → EReal)
    (x11 : S1x256.Idx → EReal) (e : Fin 256) : EReal :=
  c07 * outK (featB x0 x1) (maskB x4) (wB x8) (bB x9) 0 e + c03 * outK (featB x2 x3) (maskB x5) (wB x10) (bB x11) 0 e

end GraphFuse.Ker

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibDotRows.lean ====
/-
  A reusable general lemma: a matrix product that contracts the COLUMNS of both operands, read at an entry.

  The product of an `n` × `K` matrix `l` with the transpose of an `M` × `K` matrix `r` (`l @ r.T`, a linear layer
  whose weight matrix is stored one row per output feature) pairs row `p` of `l` with row `c` of `r`. Its dimension
  numbers index the sum by the contraction shape's positions; when that shape has the one axis of extent `K` and the
  two operand indices at output entry (p, c) and contraction position `k` are (p, k) and (c, k) — four coordinate
  facts a program's literal dimension numbers decide — the sum is `∑ k : Fin K, l (p, k) · r (c, k)`. On the extended
  reals this reads a vector unit's matrix product into a zero accumulator. Stated at any extents.
-/
import Idealize.ShloMosaic.Lib.ValueIdx
import Idealize.ShloMosaic.PureOps.Ideal.Laws

noncomputable section

open scoped BigOperators

namespace Idealize.ShloMosaic.DotRows

open Idealize.ShloMosaic Idealize.ShloMosaic.ValueIdx

/-- The contraction's sum, re-indexed by the one contracted coordinate. -/
theorem sum_contr_eq {n K M : Nat} (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (l : (⟨2, ![n, K]⟩ : Shape).Idx → EReal) (r : (⟨2, ![M, K]⟩ : Shape).Idx → EReal) (p : Fin n) (c : Fin M) :
    ∑ q : D.contr.Idx, l (D.lhsIdx (ix2 p c) q) * r (D.rhsIdx (ix2 p c) q) = ∑ k : Fin K, l (ix2 p k) * r (ix2 c k) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 c k := funext fun a => Fin.ext (by
    match a with
    | ⟨0, _⟩ => exact r0 _ _
    | ⟨1, _⟩ => exact (r1 _ _).trans hk)
  rw [el, er]

/-- A vector unit's matrix product into the zero accumulator, at entry (p, c): `∑ k, lhs (p, k) · rhs (c, k)`. -/
theorem matmul_zero_apply {n K M : Nat} {φ₁ φ₂ : FTy}
    (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (prec : Option ContractPrecision) (lhs : FVec Ideal (⟨2, ![n, K]⟩ : Shape) φ₁) (rhs : FVec Ideal (⟨2, ![M, K]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 c k) : EReal) :=
  (Ideal.matmul_constant_zero_apply D prec lhs rhs (ix2 p c)).trans (sum_contr_eq D hr hs l0 l1 r0 r1 lhs rhs p c)

end Idealize.ShloMosaic.DotRows

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibAxis0Sum.lean ====
/-
  The sum of a matrix along its first axis, read at an index — general in the extents.

  Over the extended reals the sum of an `n × m` matrix over its first axis reads, at `q`, the sum over `k` of the
  entries `(k, q)`: a column's total.  (The sum along the second axis, a row's total, is the twin of this.)
-/
import Idealize.ShloMosaic.Lib.ValueIdx
import Idealize.ShloMosaic.PureOps.Ideal.Laws

noncomputable section

open scoped BigOperators

namespace Cert.LibAxis0Sum

open Idealize.ShloMosaic Idealize.ShloMosaic.ValueIdx

/-- Over the extended reals the sum of an `n × m` matrix along its first axis reads, at `q`, `∑ₖ src (k, q)`. -/
theorem colSum_apply {n m : ℕ} {φ : FTy} (src : FVec Ideal ⟨2, ![n, m]⟩ φ) (acc : BitVec φ.bits)
    (h : (⟨2, ![n, m]⟩ : Shape).Reduces [0] ⟨1, ![m]⟩) (hφ : FKind.Formats φ) (hacc : acc = FKind.add.neutral φ hφ)
    (q : Fin m) :
    multiReduction .add [0] ⟨1, ![m]⟩ src acc h hφ hacc (ix1 q) = ∑ k : Fin n, src (ix2 k q) := by
  refine (Ideal.multiReduction_add_single src acc h hφ hacc (ix1 q)).trans ?_
  refine Finset.sum_congr rfl fun k _ => congrArg src ?_
  funext c
  apply Fin.ext
  match c with
  | ⟨0, _⟩ => rfl
  | ⟨1, _⟩ => rfl

end Cert.LibAxis0Sum

end
-- ==== Proof.LibConcatCols.lean ====
/-
  Two matrices with the same number of rows laid side by side (a concatenation along axis 1), read at an
  entry: the entry in row `p` and column `c` of `[x₁ | x₂]` is `x₁ (p, c)` when `c` is a column of the first
  matrix, and `x₂ (p, c - n₁)` when it lies past the first matrix's `n₁` columns. General in the extents.
-/
import Idealize.ShloMosaic.Lib.Pipeline.Value
import Idealize.ShloMosaic.Lib.ValueIdx

namespace Idealize.ShloMosaic.ValueIdx

open Idealize.ShloMosaic

variable {α : Type}

/-- Row `p`, column `c` of `[x₁ | x₂]`, for a column `c` of the first matrix (`c = k < n₁`), is `x₁ (p, k)`. -/
theorem concatenate_cols_left {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₁) (hc : c.val = k.val) :
    concatenate (⟨2, ![a, N]⟩ : Shape) 1 [⟨(⟨2, ![a, n₁]⟩ : Shape), x₁⟩, ⟨(⟨2, ![a, n₂]⟩ : Shape), x₂⟩] h (ix2 p c) = x₁ (ix2 p k) :=
  concatenate_pair_apply_left 1 x₁ x₂ h _ rfl _ (fun b => by
    match b with
    | ⟨0, _⟩ => rfl
    | ⟨1, _⟩ => exact hc.symm)

/-- Row `p`, column `c` of `[x₁ | x₂]`, for a column past the first matrix (`c = n₁ + k`), is `x₂ (p, k)`. -/
theorem concatenate_cols_right {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₂) (hc : k.val + n₁ = c.val) :
    concatenate (⟨2, ![a, N]⟩ : Shape) 1 [⟨(⟨2, ![a, n₁]⟩ : Shape), x₁⟩, ⟨(⟨2, ![a, n₂]⟩ : Shape), x₂⟩] h (ix2 p c) = x₂ (ix2 p k) :=
  concatenate_pair_apply_right 1 x₁ x₂ h _ rfl rfl _
    (fun b hb => by
      match b with
      | ⟨0, _⟩ => rfl
      | ⟨1, _⟩ => exact absurd rfl hb)
    hc

end Idealize.ShloMosaic.ValueIdx
-- ==== Proof.KerOps.lean ====
/-
  The vector operations of the kernel body read at an index, on the extended reals: the rectified similarity of
  all nodes with one block of 256 nodes (a product of the normalised features with a slice of themselves), a block's
  share of the masked row sums, a block of the mask row, and the padded feature matrix and mask row themselves.
-/
import proofs.«179044_j54949811585484_2_alg».proof.Proof.Gen.KernelIdeal.Skeleton
import proofs.«179044_j54949811585484_2_alg».proof.Proof.KerDefs
import proofs.«179044_j54949811585484_2_alg».proof.Proof.LibColumns
import proofs.«179044_j54949811585484_2_alg».proof.Proof.LibDotRows
import proofs.«179044_j54949811585484_2_alg».proof.Proof.LibPlainDot
import proofs.«179044_j54949811585484_2_alg».proof.Proof.LibAxis0Sum
import proofs.«179044_j54949811585484_2_alg».proof.Proof.LibConcatCols
import Idealize.ShloMosaic.Lib.Pipeline.Value
import Mathlib.Algebra.BigOperators.Fin
import Mathlib.Logic.Equiv.Fin.Basic
import Idealize.ShloMosaic.Lib.ValueIdx
import Idealize.ShloMosaic.Lib.ValueLayout
import Idealize.ShloMosaic.PureOps.Ideal.Laws

noncomputable section

open scoped BigOperators

namespace GraphFuse.Ker

open Cert.KernelIdeal Cert.KernelIdeal.Gen Idealize.ShloMosaic Idealize.ShloMosaic.ValueIdx GraphFuse

/-! ## The two matrix products' index maps -/

section dots

local notation "DE" => dot_S2304x256_S256x256_S2304x256_1_1_0_0_n_n
local notation "DH" => dot_S1x2304_S2304x256_S1x256_1_0_0_1_n_n
local notation "DW" => dot_S1x256_S256x256_S1x256_1_0_0_1_n_n

theorem de_l0 (i : S2304x256.Idx) (q : (DE).contr.Idx) : ((DE).lhsIdx i q 0).val = (i 0).val := by
  unfold DotDims.lhsIdx
  rw [dif_neg (show ¬(0 : Fin S2304x256.rank) ∈ (DE).lhsBatch by decide), dif_pos (show (0 : Fin S2304x256.rank) ∈ (DE).lhsNonContracting by decide)]
  rfl
theorem de_l1 (i : S2304x256.Idx) (q : (DE).contr.Idx) : ((DE).lhsIdx i q 1).val = (q ⟨0, by decide⟩).val :=
  (DE).lhsIdx_val_of_single rfl i q
theorem de_r0 (i : S2304x256.Idx) (q : (DE).contr.Idx) : ((DE).rhsIdx i q 0).val = (i 1).val := by
  unfold DotDims.rhsIdx
  rw [dif_neg (show ¬(0 : Fin S256x256.rank) ∈ (DE).rhsBatch by decide), dif_pos (show (0 : Fin S256x256.rank) ∈ (DE).rhsNonContracting by decide)]
  rfl
theorem de_r1 (i : S2304x256.Idx) (q : (DE).contr.Idx) : ((DE).rhsIdx i q 1).val = (q ⟨0, by decide⟩).val :=
  (DE).rhsIdx_val_of_single rfl i q

theorem dh_l0 (i : S1x256.Idx) (q : (DH).contr.Idx) : ((DH).lhsIdx i q 0).val = (i 0).val := by
  unfold DotDims.lhsIdx
  rw [dif_neg (show ¬(0 : Fin S1x2304.rank) ∈ (DH).lhsBatch by decide), dif_pos (show (0 : Fin S1x2304.rank) ∈ (DH).lhsNonContracting by decide)]
  rfl
theorem dh_l1 (i : S1x256.Idx) (q : (DH).contr.Idx) : ((DH).lhsIdx i q 1).val = (q ⟨0, by decide⟩).val :=
  (DH).lhsIdx_val_of_single rfl i q
theorem dh_r0 (i : S1x256.Idx) (q : (DH).contr.Idx) : ((DH).rhsIdx i q 0).val = (q ⟨0, by decide⟩).val :=
  (DH).rhsIdx_val_of_single rfl i q
theorem dh_r1 (i : S1x256.Idx) (q : (DH).contr.Idx) : ((DH).rhsIdx i q 1).val = (i 1).val := by
  unfold DotDims.rhsIdx
  rw [dif_neg (show ¬(1 : Fin S2304x256.rank) ∈ (DH).rhsBatch by decide), dif_pos (show (1 : Fin S2304x256.rank) ∈ (DH).rhsNonContracting by decide)]
  rfl

theorem dw_l0 (i : S1x256.Idx) (q : (DW).contr.Idx) : ((DW).lhsIdx i q 0).val = (i 0).val := by
  unfold DotDims.lhsIdx
  rw [dif_neg (show ¬(0 : Fin S1x256.rank) ∈ (DW).lhsBatch by decide), dif_pos (show (0 : Fin S1x256.rank) ∈ (DW).lhsNonContracting by decide)]
  rfl
theorem dw_l1 (i : S1x256.Idx) (q : (DW).contr.Idx) : ((DW).lhsIdx i q 1).val = (q ⟨0, by decide⟩).val :=
  (DW).lhsIdx_val_of_single rfl i q
theorem dw_r0 (i : S1x256.Idx) (q : (DW).contr.Idx) : ((DW).rhsIdx i q 0).val = (q ⟨0, by decide⟩).val :=
  (DW).rhsIdx_val_of_single rfl i q
theorem dw_r1 (i : S1x256.Idx) (q : (DW).contr.Idx) : ((DW).rhsIdx i q 1).val = (i 1).val := by
  unfold DotDims.rhsIdx
  rw [dif_neg (show ¬(1 : Fin S256x256.rank) ∈ (DW).rhsBatch by decide), dif_pos (show (1 : Fin S256x256.rank) ∈ (DW).rhsNonContracting by decide)]
  rfl

/-- The rectified inner product of rows n and m of a matrix of 256 columns. -/
def Rk (X : S2304x256.Idx → EReal) (n m : Fin 2304) : EReal := relu (∑ d : Fin 256, X (ix2 n d) * X (ix2 m d))

/-- All nodes against the block of 256 nodes from `o` on: a product with a slice of the matrix itself, rectified. -/
theorem reluChunk_apply (X : FVec Ideal S2304x256 .bf16) (o : ℕ) (h : S2304x256.Slices ![o, 0] S256x256)
    (n : Fin 2304) (c : Fin 256) (k : Fin 2304) (hk : k.val = o + c.val) :
    maximumf (matmul DE none X (extractStridedSlice S256x256 ![o, 0] X h) (constant S2304x256 .f32 0x00000000#32))
        (broadcast S2304x256 (Scalar.ofBits .f32 0x00000000#32)) (ix2 n c) = Rk X n k := by
  rw [maximumf_apply, broadcast_apply]
  show max (FloatOps.matmul DE none X (extractStridedSlice S256x256 ![o, 0] X h) (constant S2304x256 .f32 0x00000000#32) (ix2 n c))
    (Ideal.ofBits .f32 0x00000000#32) = _
  rw [DotRows.matmul_zero_apply DE rfl rfl de_l0 de_l1 de_r0 de_r1 none X _ n c, Ideal.ofBits_zero_f32]
  unfold Rk relu
  congr 1
  refine Finset.sum_congr rfl fun d _ => ?_
  rw [slice2_axis0_apply o X h c d k hk]

/-- The same product not yet rectified. -/
theorem edgeChunk_apply (X : FVec Ideal S2304x256 .bf16) (o : ℕ) (h : S2304x256.Slices ![o, 0] S256x256)
    (n : Fin 2304) (c : Fin 256) (k : Fin 2304) (hk : k.val = o + c.val) :
    matmul DE none X (extractStridedSlice S256x256 ![o, 0] X h) (constant S2304x256 .f32 0x00000000#32) (ix2 n c)
      = ∑ d : Fin 256, X (ix2 n d) * X (ix2 k d) := by
  show FloatOps.matmul DE none X (extractStridedSlice S256x256 ![o, 0] X h) (constant S2304x256 .f32 0x00000000#32) (ix2 n c) = _
  rw [DotRows.matmul_zero_apply DE rfl rfl de_l0 de_l1 de_r0 de_r1 none X _ n c]
  refine Finset.sum_congr rfl fun d _ => ?_
  rw [slice2_axis0_apply o X h c d k hk]

end dots

/-- One block's share of the masked row sums, as a column. -/
theorem chunkSum_apply (R : FVec Ideal S2304x256 .f32) (mc : FVec Ideal S1x256 .f32) (n : Fin 2304) :
    shapeCast S2304x1 (multiReduction .add [1] S2304 (mulf R (broadcastTo S2304x256 mc broadcasts_S1x256_S2304x256))
        0x00000000#32 reduces_S2304x256_S2304 (.inl rfl) rfl) shapeCasts_S2304_S2304x1 (ix2 n (0 : Fin 1))
      = ∑ c : Fin 256, R (ix2 n c) * mc (ix2 (0 : Fin 1) c) := by
  refine (Cert.LibColumns.shapeCast_a_a1_apply _ shapeCasts_S2304_S2304x1 n (0 : Fin 1)).trans ?_
  refine (Cert.LibColumns.rowSum_apply _ _ _ _ _ n).trans ?_
  refine Finset.sum_congr rfl fun c _ => ?_
  rw [mulf_apply, broadcastTo_1b_ab_apply]

/-- Row 0 of a block of rectified similarities times the block of the mask row. -/
theorem piece_apply (R : FVec Ideal S2304x256 .f32) (mc : FVec Ideal S1x256 .f32) (c : Fin 256) :
    mulf (extractStridedSlice S1x256 ![0, 0] R slices_S2304x256_o0_0_S1x256) mc (ix2 (0 : Fin 1) c)
      = R (ix2 (0 : Fin 2304) c) * mc (ix2 (0 : Fin 1) c) := by
  rw [mulf_apply, slice2_axis0_apply 0 R slices_S2304x256_o0_0_S1x256 (0 : Fin 1) c (0 : Fin 2304) rfl]

/-! ## The padded features and mask of one graph, from the loaded blocks -/

theorem pay4_apply (v2 : Vec Ideal S1x1x256 .f32) (v4 : Vec Ideal S1x2048x256 .f32) (n : Fin 2304) (d : Fin 256) :
    k0_pay4 (F := Ideal) v2 v4 (ix2 n d) = featB v2 v4 n d := by
  unfold k0_pay4 featB
  by_cases h0 : n.val = 0
  · rw [dif_pos h0]
    refine (concatenate_apply_piece (t := S2304x256) (0 : Fin 2) [⟨S1x256, shapeCast S1x256 v2 shapeCasts_S1x1x256_S1x256⟩, ⟨S2048x256, shapeCast S2048x256 v4 shapeCasts_S1x2048x256_S2048x256⟩, ⟨S255x256, k0_pay2 (F := Ideal)⟩] concatenates_S1x256_S2048x256_S255x256_S2304x256_d0 (ix2 n d) 0 (by show (0 : ℕ) < 3; omega)
      S1x256 _ rfl rfl 0 rfl (ix2 (0 : Fin 1) d) (fun b hb => ?_) ?_).trans ?_
    · match b with
      | ⟨0, _⟩ => exact absurd rfl hb
      | ⟨1, _⟩ => rfl
    · show 0 + 0 = n.val
      omega
    · exact shapeCast_1ab_ab_apply v2 _ (0 : Fin 1) d
  · rw [dif_neg h0]
    by_cases h : n.val < 2049
    · rw [dif_pos h]
      refine (concatenate_apply_piece (t := S2304x256) (0 : Fin 2) [⟨S1x256, shapeCast S1x256 v2 shapeCasts_S1x1x256_S1x256⟩, ⟨S2048x256, shapeCast S2048x256 v4 shapeCasts_S1x2048x256_S2048x256⟩, ⟨S255x256, k0_pay2 (F := Ideal)⟩] concatenates_S1x256_S2048x256_S255x256_S2304x256_d0 (ix2 n d) 1 (by show (1 : ℕ) < 3; omega)
        S2048x256 _ rfl rfl 1 rfl (ix2 (⟨n.val - 1, by omega⟩ : Fin 2048) d) (fun b hb => ?_) ?_).trans ?_
      · match b with
        | ⟨0, _⟩ => exact absurd rfl hb
        | ⟨1, _⟩ => rfl
      · show 1 + (n.val - 1) = n.val
        omega
      · exact shapeCast_1ab_ab_apply v4 _ (⟨n.val - 1, by omega⟩ : Fin 2048) d
    · rw [dif_neg h]
      refine (concatenate_apply_piece (t := S2304x256) (0 : Fin 2) [⟨S1x256, shapeCast S1x256 v2 shapeCasts_S1x1x256_S1x256⟩, ⟨S2048x256, shapeCast S2048x256 v4 shapeCasts_S1x2048x256_S2048x256⟩, ⟨S255x256, k0_pay2 (F := Ideal)⟩] concatenates_S1x256_S2048x256_S255x256_S2304x256_d0 (ix2 n d) 2 (by show (2 : ℕ) < 3; omega)
        S255x256 _ rfl rfl 2049 rfl (ix2 (⟨n.val - 2049, by have := n.isLt; omega⟩ : Fin 255) d) (fun b hb => ?_) ?_).trans ?_
      · match b with
        | ⟨0, _⟩ => exact absurd rfl hb
        | ⟨1, _⟩ => rfl
      · show 2049 + (n.val - 2049) = n.val
        omega
      · unfold k0_pay2
        exact Ideal.ofBits_zero_f32

theorem pay5_apply (v7 : Vec Ideal S1x1x2049 .f32) (m : Fin 2304) :
    k0_pay5 (F := Ideal) v7 (ix2 (0 : Fin 1) m) = maskB v7 m := by
  unfold k0_pay5 maskB
  by_cases h : m.val < 2049
  · rw [dif_pos h, concatenate_cols_left _ _ concatenates_S1x2049_S1x255_S1x2304_d1 (0 : Fin 1) m (⟨m.val, h⟩ : Fin 2049) rfl]
    exact shapeCast_1ab_ab_apply v7 _ (0 : Fin 1) _
  · rw [dif_neg h, concatenate_cols_right _ _ concatenates_S1x2049_S1x255_S1x2304_d1 (0 : Fin 1) m
      (⟨m.val - 2049, by have := m.isLt; omega⟩ : Fin 255) (by show m.val - 2049 + 2049 = m.val; omega)]
    unfold k0_pay3
    exact Ideal.ofBits_zero_f32

theorem pay7_apply (v7 : Vec Ideal S1x1x2049 .f32) (n : Fin 2304) :
    k0_pay7 (F := Ideal) v7 (ix2 n (0 : Fin 1)) = maskB v7 n := by
  unfold k0_pay7
  dsimp only
  rw [transpose_ix2_apply _ transposes_S1x2304_p1_0_S2304x1 n (0 : Fin 1), pay5_apply]

/-- The normalised, masked features, as the matrix unit receives them. -/
theorem pay8_apply (v2 : Vec Ideal S1x1x256 .f32) (v4 : Vec Ideal S1x2048x256 .f32) (v7 : Vec Ideal S1x1x2049 .f32)
    (n : Fin 2304) (d : Fin 256) :
    k0_pay8 (F := Ideal) v2 v4 v7 (ix2 n d) = xn (featB v2 v4) (maskB v7) n d := by
  unfold k0_pay8 xn colNorm eps12
  dsimp only
  rw [truncf_apply, mulf_apply, divf_apply, Cert.LibColumns.broadcastTo_a1_ab_apply, broadcastTo_1b_ab_apply, maximumf_apply,
    broadcast_apply, pay7_apply, pay4_apply]
  show Ideal.div _ (max (Ideal.sqrt (shapeCast S1x256 _ shapeCasts_S256_S1x256 (ix2 (0 : Fin 1) d))) _) * _ = _
  refine congrArg (fun s => Ideal.div (featB v2 v4 n d) (max (Ideal.sqrt s) _) * maskB v7 n) ?_
  refine (shapeCast_a_1a_apply _ shapeCasts_S256_S1x256 (0 : Fin 1) d).trans ?_
  refine (Cert.LibAxis0Sum.colSum_apply _ _ _ _ _ d).trans ?_
  refine Finset.sum_congr rfl fun k _ => ?_
  rw [mulf_apply, pay4_apply]

/-! ## Blocks of 256 nodes -/

/-- Node c of block j. -/
def nodeAt (j : Fin 9) (c : Fin 256) : Fin 2304 := ⟨256 * j.val + c.val, by have := j.isLt; have := c.isLt; omega⟩

/-- Block j's share of row n's masked sum of rectified similarities. -/
def blk (X : S2304x256.Idx → EReal) (M : S1x2304.Idx → EReal) (j : Fin 9) (n : Fin 2304) : EReal :=
  ∑ c : Fin 256, Rk X n (nodeAt j c) * M (ix2 (0 : Fin 1) (nodeAt j c))

/-- Block j's part of row 0 of the masked, rectified similarities. -/
def pc (X : S2304x256.Idx → EReal) (M : S1x2304.Idx → EReal) (j : Fin 9) (c : Fin 256) : EReal :=
  Rk X (0 : Fin 2304) (nodeAt j c) * M (ix2 (0 : Fin 1) (nodeAt j c))

theorem chunkSum_blk (X : FVec Ideal S2304x256 .bf16) (M : FVec Ideal S1x2304 .f32) (R : FVec Ideal S2304x256 .f32)
    (mc : FVec Ideal S1x256 .f32) (j : Fin 9) (hR : ∀ n c, R (ix2 n c) = Rk X n (nodeAt j c))
    (hm : ∀ c, mc (ix2 (0 : Fin 1) c) = M (ix2 (0 : Fin 1) (nodeAt j c))) (n : Fin 2304) :
    shapeCast S2304x1 (multiReduction .add [1] S2304 (mulf R (broadcastTo S2304x256 mc broadcasts_S1x256_S2304x256))
        0x00000000#32 reduces_S2304x256_S2304 (.inl rfl) rfl) shapeCasts_S2304_S2304x1 (ix2 n (0 : Fin 1)) = blk X M j n := by
  rw [chunkSum_apply]
  unfold blk
  refine Finset.sum_congr rfl fun c _ => ?_
  rw [hR, hm]

theorem piece_pc (X : FVec Ideal S2304x256 .bf16) (M : FVec Ideal S1x2304 .f32) (R : FVec Ideal S2304x256 .f32)
    (mc : FVec Ideal S1x256 .f32) (j : Fin 9) (hR : ∀ n c, R (ix2 n c) = Rk X n (nodeAt j c))
    (hm : ∀ c, mc (ix2 (0 : Fin 1) c) = M (ix2 (0 : Fin 1) (nodeAt j c))) (c : Fin 256) :
    mulf (extractStridedSlice S1x256 ![0, 0] R slices_S2304x256_o0_0_S1x256) mc (ix2 (0 : Fin 1) c) = pc X M j c := by
  rw [piece_apply, hR, hm]
  rfl

/-! ## The text graph's blocks -/

theorem pay14_apply (v9 : FVec Ideal S1x2304 .f32) (c : Fin 256) :
    k0_pay14 (F := Ideal) v9 (ix2 (0 : Fin 1) c) = v9 (ix2 (0 : Fin 1) (nodeAt 1 c)) := by
  unfold k0_pay14
  exact slice2_axis1_apply 256 v9 slices_S1x2304_o0_256_S1x256 (0 : Fin 1) c (nodeAt 1 c) (by show 256 * 1 + c.val = 256 + c.val; omega)

theorem pay15_apply (v24 : FVec Ideal S2304x256 .bf16) (n : Fin 2304) (c : Fin 256) :
    k0_pay15 (F := Ideal) v24 (ix2 n c) = Rk v24 n (nodeAt 1 c) := by
  unfold k0_pay15
  exact reluChunk_apply v24 256 slices_S2304x256_o256_0_S256x256 n c (nodeAt 1 c) (by show 256 * 1 + c.val = 256 + c.val; omega)

theorem pay17_apply (v9 : FVec Ideal S1x2304 .f32) (c : Fin 256) :
    k0_pay17 (F := Ideal) v9 (ix2 (0 : Fin 1) c) = v9 (ix2 (0 : Fin 1) (nodeAt 2 c)) := by
  unfold k0_pay17
  exact slice2_axis1_apply 512 v9 slices_S1x2304_o0_512_S1x256 (0 : Fin 1) c (nodeAt 2 c) (by show 256 * 2 + c.val = 512 + c.val; omega)

theorem pay18_apply (v24 : FVec Ideal S2304x256 .bf16) (n : Fin 2304) (c : Fin 256) :
    k0_pay18 (F := Ideal) v24 (ix2 n c) = Rk v24 n (nodeAt 2 c) := by
  unfold k0_pay18
  exact reluChunk_apply v24 512 slices_S2304x256_o512_0_S256x256 n c (nodeAt 2 c) (by show 256 * 2 + c.val = 512 + c.val; omega)

theorem pay20_apply (v9 : FVec Ideal S1x2304 .f32) (c : Fin 256) :
    k0_pay20 (F := Ideal) v9 (ix2 (0 : Fin 1) c) = v9 (ix2 (0 : Fin 1) (nodeAt 3 c)) := by
  unfold k0_pay20
  exact slice2_axis1_apply 768 v9 slices_S1x2304_o0_768_S1x256 (0 : Fin 1) c (nodeAt 3 c) (by show 256 * 3 + c.val = 768 + c.val; omega)

theorem pay21_apply (v24 : FVec Ideal S2304x256 .bf16) (n : Fin 2304) (c : Fin 256) :
    k0_pay21 (F := Ideal) v24 (ix2 n c) = Rk v24 n (nodeAt 3 c) := by
  unfold k0_pay21
  exact reluChunk_apply v24 768 slices_S2304x256_o768_0_S256x256 n c (nodeAt 3 c) (by show 256 * 3 + c.val = 768 + c.val; omega)

theorem pay24_apply (v9 : FVec Ideal S1x2304 .f32) (c : Fin 256) :
    k0_pay24 (F := Ideal) v9 (ix2 (0 : Fin 1) c) = v9 (ix2 (0 : Fin 1) (nodeAt 4 c)) := by
  unfold k0_pay24
  exact slice2_axis1_apply 1024 v9 slices_S1x2304_o0_1024_S1x256 (0 : Fin 1) c (nodeAt 4 c) (by show 256 * 4 + c.val = 1024 + c.val; omega)

theorem pay25_apply (v24 : FVec Ideal S2304x256 .bf16) (n : Fin 2304) (c : Fin 256) :
    k0_pay25 (F := Ideal) v24 (ix2 n c) = Rk v24 n (nodeAt 4 c) := by
  unfold k0_pay25
  exact reluChunk_apply v24 1024 slices_S2304x256_o1024_0_S256x256 n c (nodeAt 4 c) (by show 256 * 4 + c.val = 1024 + c.val; omega)

theorem pay27_apply (v9 : FVec Ideal S1x2304 .f32) (c : Fin 256) :
    k0_pay27 (F := Ideal) v9 (ix2 (0 : Fin 1) c) = v9 (ix2 (0 : Fin 1) (nodeAt 5 c)) := by
  unfold k0_pay27
  exact slice2_axis1_apply 1280 v9 slices_S1x2304_o0_1280_S1x256 (0 : Fin 1) c (nodeAt 5 c) (by show 256 * 5 + c.val = 1280 + c.val; omega)

theorem pay28_apply (v24 : FVec Ideal S2304x256 .bf16) (n : Fin 2304) (c : Fin 256) :
    k0_pay28 (F := Ideal) v24 (ix2 n c) = Rk v24 n (nodeAt 5 c) := by
  unfold k0_pay28
  exact reluChunk_apply v24 1280 slices_S2304x256_o1280_0_S256x256 n c (nodeAt 5 c) (by show 256 * 5 + c.val = 1280 + c.val; omega)

theorem pay30_apply (v9 : FVec Ideal S1x2304 .f32) (c : Fin 256) :
    k0_pay30 (F := Ideal) v9 (ix2 (0 : Fin 1) c) = v9 (ix2 (0 : Fin 1) (nodeAt 6 c)) := by
  unfold k0_pay30
  exact slice2_axis1_apply 1536 v9 slices_S1x2304_o0_1536_S1x256 (0 : Fin 1) c (nodeAt 6 c) (by show 256 * 6 + c.val = 1536 + c.val; omega)

theorem pay31_apply (v24 : FVec Ideal S2304x256 .bf16) (n : Fin 2304) (c : Fin 256) :
    k0_pay31 (F := Ideal) v24 (ix2 n c) = Rk v24 n (nodeAt 6 c) := by
  unfold k0_pay31
  exact reluChunk_apply v24 1536 slices_S2304x256_o1536_0_S256x256 n c (nodeAt 6 c) (by show 256 * 6 + c.val = 1536 + c.val; omega)

theorem pay33_apply (v9 : FVec Ideal S1x2304 .f32) (c : Fin 256) :
    k0_pay33 (F := Ideal) v9 (ix2 (0 : Fin 1) c) = v9 (ix2 (0 : Fin 1) (nodeAt 7 c)) := by
  unfold k0_pay33
  exact slice2_axis1_apply 1792 v9 slices_S1x2304_o0_1792_S1x256 (0 : Fin 1) c (nodeAt 7 c) (by show 256 * 7 + c.val = 1792 + c.val; omega)

theorem pay34_apply (v24 : FVec Ideal S2304x256 .bf16) (n : Fin 2304) (c : Fin 256) :
    k0_pay34 (F := Ideal) v24 (ix2 n c) = Rk v24 n (nodeAt 7 c) := by
  unfold k0_pay34
  exact reluChunk_apply v24 1792 slices_S2304x256_o1792_0_S256x256 n c (nodeAt 7 c) (by show 256 * 7 + c.val = 1792 + c.val; omega)

theorem pay37_apply (v9 : FVec Ideal S1x2304 .f32) (c : Fin 256) :
    k0_pay37 (F := Ideal) v9 (ix2 (0 : Fin 1) c) = v9 (ix2 (0 : Fin 1) (nodeAt 8 c)) := by
  unfold k0_pay37
  exact slice2_axis1_apply 2048 v9 slices_S1x2304_o0_2048_S1x256 (0 : Fin 1) c (nodeAt 8 c) (by show 256 * 8 + c.val = 2048 + c.val; omega)

theorem pay38_apply (v24 : FVec Ideal S2304x256 .bf16) (n : Fin 2304) (c : Fin 256) :
    k0_pay38 (F := Ideal) v24 (ix2 n c) = Rk v24 n (nodeAt 8 c) := by
  unfold k0_pay38
  exact reluChunk_apply v24 2048 slices_S2304x256_o2048_0_S256x256 n c (nodeAt 8 c) (by show 256 * 8 + c.val = 2048 + c.val; omega)

theorem pay9_apply (v7 : Vec Ideal S1x1x2049 .f32) (c : Fin 256) :
    k0_pay9 (F := Ideal) v7 (ix2 (0 : Fin 1) c) = k0_pay5 (F := Ideal) v7 (ix2 (0 : Fin 1) (nodeAt 0 c)) := by
  unfold k0_pay9
  exact slice2_axis1_apply 0 (k0_pay5 (F := Ideal) v7) slices_S1x2304_o0_0_S1x256 (0 : Fin 1) c (nodeAt 0 c) (by show 256 * 0 + c.val = 0 + c.val; omega)

theorem pay10_apply (v2 : Vec Ideal S1x1x256 .f32) (v4 : Vec Ideal S1x2048x256 .f32) (v7 : Vec Ideal S1x1x2049 .f32) (n : Fin 2304) (c : Fin 256) :
    k0_pay10 (F := Ideal) v2 v4 v7 (ix2 n c) = Rk (k0_pay8 (F := Ideal) v2 v4 v7) n (nodeAt 0 c) := by
  unfold k0_pay10
  exact reluChunk_apply (k0_pay8 (F := Ideal) v2 v4 v7) 0 slices_S2304x256_o0_0_S256x256 n c (nodeAt 0 c) (by show 256 * 0 + c.val = 0 + c.val; omega)

theorem pay16_apply (v9 : FVec Ideal S1x2304 .f32) (v24 : FVec Ideal S2304x256 .bf16) (c : Fin 256) :
    k0_pay16 (F := Ideal) v9 v24 (ix2 (0 : Fin 1) c) = pc v24 v9 1 c := by
  unfold k0_pay16
  exact piece_pc v24 v9 _ _ 1 (pay15_apply v24) (pay14_apply v9) c

theorem pay19_apply (v9 : FVec Ideal S1x2304 .f32) (v24 : FVec Ideal S2304x256 .bf16) (c : Fin 256) :
    k0_pay19 (F := Ideal) v9 v24 (ix2 (0 : Fin 1) c) = pc v24 v9 2 c := by
  unfold k0_pay19
  exact piece_pc v24 v9 _ _ 2 (pay18_apply v24) (pay17_apply v9) c

theorem pay23_apply (v9 : FVec Ideal S1x2304 .f32) (v24 : FVec Ideal S2304x256 .bf16) (c : Fin 256) :
    k0_pay23 (F := Ideal) v9 v24 (ix2 (0 : Fin 1) c) = pc v24 v9 3 c := by
  unfold k0_pay23
  exact piece_pc v24 v9 _ _ 3 (pay21_apply v24) (pay20_apply v9) c

theorem pay29_apply (v9 : FVec Ideal S1x2304 .f32) (v24 : FVec Ideal S2304x256 .bf16) (c : Fin 256) :
    k0_pay29 (F := Ideal) v9 v24 (ix2 (0 : Fin 1) c) = pc v24 v9 5 c := by
  unfold k0_pay29
  exact piece_pc v24 v9 _ _ 5 (pay28_apply v24) (pay27_apply v9) c

theorem pay32_apply (v9 : FVec Ideal S1x2304 .f32) (v24 : FVec Ideal S2304x256 .bf16) (c : Fin 256) :
    k0_pay32 (F := Ideal) v9 v24 (ix2 (0 : Fin 1) c) = pc v24 v9 6 c := by
  unfold k0_pay32
  exact piece_pc v24 v9 _ _ 6 (pay31_apply v24) (pay30_apply v9) c

theorem pay36_apply (v9 : FVec Ideal S1x2304 .f32) (v24 : FVec Ideal S2304x256 .bf16) (c : Fin 256) :
    k0_pay36 (F := Ideal) v9 v24 (ix2 (0 : Fin 1) c) = pc v24 v9 7 c := by
  unfold k0_pay36
  exact piece_pc v24 v9 _ _ 7 (pay34_apply v24) (pay33_apply v9) c

theorem pay26_apply (v83 : FVec Ideal S1x256 .f32) (v85 : FVec Ideal S2304x256 .f32) (c : Fin 256) :
    k0_pay26 (F := Ideal) v83 v85 (ix2 (0 : Fin 1) c) = v85 (ix2 (0 : Fin 2304) c) * v83 (ix2 (0 : Fin 1) c) := by
  unfold k0_pay26
  exact piece_apply v85 v83 c

theorem pay12_apply (v2 : Vec Ideal S1x1x256 .f32) (v4 : Vec Ideal S1x2048x256 .f32) (v7 : Vec Ideal S1x1x2049 .f32) (c : Fin 256) :
    k0_pay12 (F := Ideal) v2 v4 v7 (ix2 (0 : Fin 1) c) = pc (k0_pay8 (F := Ideal) v2 v4 v7) (k0_pay5 (F := Ideal) v7) 0 c := by
  unfold k0_pay12
  exact piece_pc (k0_pay8 (F := Ideal) v2 v4 v7) (k0_pay5 (F := Ideal) v7) _ _ 0 (pay10_apply v2 v4 v7) (pay9_apply v7) c

/-- The row sums after block 0. -/
theorem pay11_apply (v2 : Vec Ideal S1x1x256 .f32) (v4 : Vec Ideal S1x2048x256 .f32) (v7 : Vec Ideal S1x1x2049 .f32) (n : Fin 2304) :
    k0_pay11 (F := Ideal) v2 v4 v7 (ix2 n (0 : Fin 1)) = 0 + blk (k0_pay8 (F := Ideal) v2 v4 v7) (k0_pay5 (F := Ideal) v7) 0 n := by
  unfold k0_pay11
  dsimp only
  rw [addf_apply, broadcast_apply, chunkSum_blk (k0_pay8 (F := Ideal) v2 v4 v7) (k0_pay5 (F := Ideal) v7) _ _ 0 (pay10_apply v2 v4 v7) (pay9_apply v7) n]
  congr 1
  exact Ideal.ofBits_zero_f32

/-- … after blocks 1, 2, 3. -/
theorem pay22_apply (v9 : FVec Ideal S1x2304 .f32) (v24 : FVec Ideal S2304x256 .bf16) (v35 : FVec Ideal S2304x1 .f32) (n : Fin 2304) :
    k0_pay22 (F := Ideal) v9 v24 v35 (ix2 n (0 : Fin 1)) = v35 (ix2 n (0 : Fin 1)) + blk v24 v9 1 n + blk v24 v9 2 n + blk v24 v9 3 n := by
  unfold k0_pay22
  dsimp only
  rw [addf_apply, addf_apply, addf_apply,
    chunkSum_blk v24 v9 _ _ 1 (pay15_apply v24) (pay14_apply v9) n,
    chunkSum_blk v24 v9 _ _ 2 (pay18_apply v24) (pay17_apply v9) n,
    chunkSum_blk v24 v9 _ _ 3 (pay21_apply v24) (pay20_apply v9) n]

/-- … after blocks 4 to 7 (block 4's factors handed in). -/
theorem pay35_apply (v9 : FVec Ideal S1x2304 .f32) (v24 : FVec Ideal S2304x256 .bf16) (v78 : FVec Ideal S2304x1 .f32)
    (v83 : FVec Ideal S1x256 .f32) (v85 : FVec Ideal S2304x256 .f32)
    (h85 : ∀ n c, v85 (ix2 n c) = Rk v24 n (nodeAt 4 c)) (h83 : ∀ c, v83 (ix2 (0 : Fin 1) c) = v9 (ix2 (0 : Fin 1) (nodeAt 4 c))) (n : Fin 2304) :
    k0_pay35 (F := Ideal) v9 v24 v78 v83 v85 (ix2 n (0 : Fin 1))
      = v78 (ix2 n (0 : Fin 1)) + blk v24 v9 4 n + blk v24 v9 5 n + blk v24 v9 6 n + blk v24 v9 7 n := by
  unfold k0_pay35
  dsimp only
  rw [addf_apply, addf_apply, addf_apply, addf_apply,
    chunkSum_blk v24 v9 v85 v83 4 h85 h83 n,
    chunkSum_blk v24 v9 _ _ 5 (pay28_apply v24) (pay27_apply v9) n,
    chunkSum_blk v24 v9 _ _ 6 (pay31_apply v24) (pay30_apply v9) n,
    chunkSum_blk v24 v9 _ _ 7 (pay34_apply v24) (pay33_apply v9) n]

/-! ## Nine blocks make the row -/

theorem nodeAt_div (m : Fin 2304) : ∃ (j : Fin 9) (c : Fin 256), m = nodeAt j c :=
  ⟨⟨m.val / 256, by have := m.isLt; omega⟩, ⟨m.val % 256, Nat.mod_lt _ (by norm_num)⟩,
    Fin.ext (by show m.val = 256 * (m.val / 256) + m.val % 256; omega)⟩

/-- A row of 2304 entries joined from nine rows of 256: entry m is block m / 256's entry m % 256. -/
theorem cat9_apply (p0 p1 p2 p3 p4 p5 p6 p7 p8 : FVec Ideal S1x256 .f32) (f : Fin 2304 → EReal)
    (h0 : ∀ c, p0 (ix2 (0 : Fin 1) c) = f (nodeAt 0 c))
    (h1 : ∀ c, p1 (ix2 (0 : Fin 1) c) = f (nodeAt 1 c))
    (h2 : ∀ c, p2 (ix2 (0 : Fin 1) c) = f (nodeAt 2 c))
    (h3 : ∀ c, p3 (ix2 (0 : Fin 1) c) = f (nodeAt 3 c))
    (h4 : ∀ c, p4 (ix2 (0 : Fin 1) c) = f (nodeAt 4 c))
    (h5 : ∀ c, p5 (ix2 (0 : Fin 1) c) = f (nodeAt 5 c))
    (h6 : ∀ c, p6 (ix2 (0 : Fin 1) c) = f (nodeAt 6 c))
    (h7 : ∀ c, p7 (ix2 (0 : Fin 1) c) = f (nodeAt 7 c))
    (h8 : ∀ c, p8 (ix2 (0 : Fin 1) c) = f (nodeAt 8 c))
    (m : Fin 2304) :
    concatenate S1x2304 1 [⟨S1x256, p0⟩, ⟨S1x256, p1⟩, ⟨S1x256, p2⟩, ⟨S1x256, p3⟩, ⟨S1x256, p4⟩, ⟨S1x256, p5⟩, ⟨S1x256, p6⟩, ⟨S1x256, p7⟩, ⟨S1x256, p8⟩]
      concatenates_S1x256_S1x256_S1x256_S1x256_S1x256_S1x256_S1x256_S1x256_S1x256_S1x2304_d1 (ix2 (0 : Fin 1) m) = f m := by
  obtain ⟨j, c, rfl⟩ := nodeAt_div m
  have side : ∀ (b : Fin S1x256.rank), b.cast (rfl : S1x256.rank = S1x2304.rank) ≠ (1 : Fin 2) →
      ((ix2 (0 : Fin 1) c : S1x256.Idx) b).val = ((ix2 (0 : Fin 1) (nodeAt j c) : S1x2304.Idx) (b.cast rfl)).val := fun b hb => by
    match b with
    | ⟨0, _⟩ => rfl
    | ⟨1, _⟩ => exact absurd rfl hb
  match j with
  | ⟨0, hj⟩ =>
    exact (concatenate_apply_piece (t := S1x2304) (1 : Fin 2) [⟨S1x256, p0⟩, ⟨S1x256, p1⟩, ⟨S1x256, p2⟩, ⟨S1x256, p3⟩, ⟨S1x256, p4⟩, ⟨S1x256, p5⟩, ⟨S1x256, p6⟩, ⟨S1x256, p7⟩, ⟨S1x256, p8⟩] concatenates_S1x256_S1x256_S1x256_S1x256_S1x256_S1x256_S1x256_S1x256_S1x256_S1x2304_d1 (ix2 (0 : Fin 1) (nodeAt ⟨0, hj⟩ c)) 0 (by show (0 : ℕ) < 9; omega)
      S1x256 p0 rfl rfl 0 rfl (ix2 (0 : Fin 1) c) side (by show 0 + c.val = 256 * 0 + c.val; omega)).trans (h0 c)
  | ⟨1, hj⟩ =>
    exact (concatenate_apply_piece (t := S1x2304) (1 : Fin 2) [⟨S1x256, p0⟩, ⟨S1x256, p1⟩, ⟨S1x256, p2⟩, ⟨S1x256, p3⟩, ⟨S1x256, p4⟩, ⟨S1x256, p5⟩, ⟨S1x256, p6⟩, ⟨S1x256, p7⟩, ⟨S1x256, p8⟩] concatenates_S1x256_S1x256_S1x256_S1x256_S1x256_S1x256_S1x256_S1x256_S1x256_S1x2304_d1 (ix2 (0 : Fin 1) (nodeAt ⟨1, hj⟩ c)) 1 (by show (1 : ℕ) < 9; omega)
      S1x256 p1 rfl rfl 256 rfl (ix2 (0 : Fin 1) c) side (by show 256 + c.val = 256 * 1 + c.val; omega)).trans (h1 c)
  | ⟨2, hj⟩ =>
    exact (concatenate_apply_piece (t := S1x2304) (1 : Fin 2) [⟨S1x256, p0⟩, ⟨S1x256, p1⟩, ⟨S1x256, p2⟩, ⟨S1x256, p3⟩, ⟨S1x256, p4⟩, ⟨S1x256, p5⟩, ⟨S1x256, p6⟩, ⟨S1x256, p7⟩, ⟨S1x256, p8⟩] concatenates_S1x256_S1x256_S1x256_S1x256_S1x256_S1x256_S1x256_S1x256_S1x256_S1x2304_d1 (ix2 (0 : Fin 1) (nodeAt ⟨2, hj⟩ c)) 2 (by show (2 : ℕ) < 9; omega)
      S1x256 p2 rfl rfl 512 rfl (ix2 (0 : Fin 1) c) side (by show 512 + c.val = 256 * 2 + c.val; omega)).trans (h2 c)
  | ⟨3, hj⟩ =>
    exact (concatenate_apply_piece (t := S1x2304) (1 : Fin 2) [⟨S1x256, p0⟩, ⟨S1x256, p1⟩, ⟨S1x256, p2⟩, ⟨S1x256, p3⟩, ⟨S1x256, p4⟩, ⟨S1x256, p5⟩, ⟨S1x256, p6⟩, ⟨S1x256, p7⟩, ⟨S1x256, p8⟩] concatenates_S1x256_S1x256_S1x256_S1x256_S1x256_S1x256_S1x256_S1x256_S1x256_S1x2304_d1 (ix2 (0 : Fin 1) (nodeAt ⟨3, hj⟩ c)) 3 (by show (3 : ℕ) < 9; omega)
      S1x256 p3 rfl rfl 768 rfl (ix2 (0 : Fin 1) c) side (by show 768 + c.val = 256 * 3 + c.val; omega)).trans (h3 c)
  | ⟨4, hj⟩ =>
    exact (concatenate_apply_piece (t := S1x2304) (1 : Fin 2) [⟨S1x256, p0⟩, ⟨S1x256, p1⟩, ⟨S1x256, p2⟩, ⟨S1x256, p3⟩, ⟨S1x256, p4⟩, ⟨S1x256, p5⟩, ⟨S1x256, p6⟩, ⟨S1x256, p7⟩, ⟨S1x256, p8⟩] concatenates_S1x256_S1x256_S1x256_S1x256_S1x256_S1x256_S1x256_S1x256_S1x256_S1x2304_d1 (ix2 (0 : Fin 1) (nodeAt ⟨4, hj⟩ c)) 4 (by show (4 : ℕ) < 9; omega)
      S1x256 p4 rfl rfl 1024 rfl (ix2 (0 : Fin 1) c) side (by show 1024 + c.val = 256 * 4 + c.val; omega)).trans (h4 c)
  | ⟨5, hj⟩ =>
    exact (concatenate_apply_piece (t := S1x2304) (1 : Fin 2) [⟨S1x256, p0⟩, ⟨S1x256, p1⟩, ⟨S1x256, p2⟩, ⟨S1x256, p3⟩, ⟨S1x256, p4⟩, ⟨S1x256, p5⟩, ⟨S1x256, p6⟩, ⟨S1x256, p7⟩, ⟨S1x256, p8⟩] concatenates_S1x256_S1x256_S1x256_S1x256_S1x256_S1x256_S1x256_S1x256_S1x256_S1x2304_d1 (ix2 (0 : Fin 1) (nodeAt ⟨5, hj⟩ c)) 5 (by show (5 : ℕ) < 9; omega)
      S1x256 p5 rfl rfl 1280 rfl (ix2 (0 : Fin 1) c) side (by show 1280 + c.val = 256 * 5 + c.val; omega)).trans (h5 c)
  | ⟨6, hj⟩ =>
    exact (concatenate_apply_piece (t := S1x2304) (1 : Fin 2) [⟨S1x256, p0⟩, ⟨S1x256, p1⟩, ⟨S1x256, p2⟩, ⟨S1x256, p3⟩, ⟨S1x256, p4⟩, ⟨S1x256, p5⟩, ⟨S1x256, p6⟩, ⟨S1x256, p7⟩, ⟨S1x256, p8⟩] concatenates_S1x256_S1x256_S1x256_S1x256_S1x256_S1x256_S1x256_S1x256_S1x256_S1x2304_d1 (ix2 (0 : Fin 1) (nodeAt ⟨6, hj⟩ c)) 6 (by show (6 : ℕ) < 9; omega)
      S1x256 p6 rfl rfl 1536 rfl (ix2 (0 : Fin 1) c) side (by show 1536 + c.val = 256 * 6 + c.val; omega)).trans (h6 c)
  | ⟨7, hj⟩ =>
    exact (concatenate_apply_piece (t := S1x2304) (1 : Fin 2) [⟨S1x256, p0⟩, ⟨S1x256, p1⟩, ⟨S1x256, p2⟩, ⟨S1x256, p3⟩, ⟨S1x256, p4⟩, ⟨S1x256, p5⟩, ⟨S1x256, p6⟩, ⟨S1x256, p7⟩, ⟨S1x256, p8⟩] concatenates_S1x256_S1x256_S1x256_S1x256_S1x256_S1x256_S1x256_S1x256_S1x256_S1x2304_d1 (ix2 (0 : Fin 1) (nodeAt ⟨7, hj⟩ c)) 7 (by show (7 : ℕ) < 9; omega)
      S1x256 p7 rfl rfl 1792 rfl (ix2 (0 : Fin 1) c) side (by show 1792 + c.val = 256 * 7 + c.val; omega)).trans (h7 c)
  | ⟨8, hj⟩ =>
    exact (concatenate_apply_piece (t := S1x2304) (1 : Fin 2) [⟨S1x256, p0⟩, ⟨S1x256, p1⟩, ⟨S1x256, p2⟩, ⟨S1x256, p3⟩, ⟨S1x256, p4⟩, ⟨S1x256, p5⟩, ⟨S1x256, p6⟩, ⟨S1x256, p7⟩, ⟨S1x256, p8⟩] concatenates_S1x256_S1x256_S1x256_S1x256_S1x256_S1x256_S1x256_S1x256_S1x256_S1x2304_d1 (ix2 (0 : Fin 1) (nodeAt ⟨8, hj⟩ c)) 8 (by show (8 : ℕ) < 9; omega)
      S1x256 p8 rfl rfl 2048 rfl (ix2 (0 : Fin 1) c) side (by show 2048 + c.val = 256 * 8 + c.val; omega)).trans (h8 c)
  | ⟨k + 9, hk⟩ => exact absurd hk (by omega)

/-- Summing block by block is summing over all 2304 nodes. -/
theorem sum_blocks (f : Fin 2304 → EReal) : ∑ j : Fin 9, ∑ c : Fin 256, f (nodeAt j c) = ∑ m : Fin 2304, f m := by
  rw [← Fintype.sum_prod_type']
  exact Fintype.sum_equiv (finProdFinEquiv (m := 9) (n := 256)) _ (fun m : Fin (9 * 256) => f m)
    (fun p => congrArg f (Fin.ext (by show 256 * p.1.val + p.2.val = p.2.val + 256 * p.1.val; omega)))

/-- A sum over nine indices, written out. -/
theorem sum_fin9 (g : Fin 9 → EReal) : ∑ j, g j = g 0 + g 1 + g 2 + g 3 + g 4 + g 5 + g 6 + g 7 + g 8 := by
  simp only [Fin.sum_univ_succ, Fin.sum_univ_zero, add_zero, add_assoc]
  rfl

/-- The masked row sums accumulated block by block from zero. -/
def rs9 (X : S2304x256.Idx → EReal) (M : S1x2304.Idx → EReal) (n : Fin 2304) : EReal :=
  0 + blk X M 0 n + blk X M 1 n + blk X M 2 n + blk X M 3 n + blk X M 4 n + blk X M 5 n + blk X M 6 n + blk X M 7 n + blk X M 8 n

theorem rs9_eq (X : S2304x256.Idx → EReal) (M : S1x2304.Idx → EReal) (n : Fin 2304) :
    rs9 X M n = ∑ m : Fin 2304, Rk X n m * M (ix2 (0 : Fin 1) m) := by
  rw [← sum_blocks (fun m => Rk X n m * M (ix2 (0 : Fin 1) m))]
  unfold rs9 blk
  rw [zero_add]
  exact (sum_fin9 (fun j => ∑ c : Fin 256, Rk X n (nodeAt j c) * M (ix2 (0 : Fin 1) (nodeAt j c)))).symm

/-- The degree factor of a node, the entries of row 0 of the adjacency before normalisation, and row 0 normalised,
    a column's factor dropped where its mask is not positive. -/
def dg9 (X : S2304x256.Idx → EReal) (M : S1x2304.Idx → EReal) (n : Fin 2304) : EReal :=
  Ideal.rsqrt (rs9 X M n + M (ix2 (0 : Fin 1) n) + eps8)
def a0 (X : S2304x256.Idx → EReal) (M : S1x2304.Idx → EReal) (m : Fin 2304) : EReal :=
  Rk X (0 : Fin 2304) m * M (ix2 (0 : Fin 1) m) + (if m = (0 : Fin 2304) then 1 else 0) * M (ix2 (0 : Fin 1) m)
def adj9 (X : S2304x256.Idx → EReal) (M : S1x2304.Idx → EReal) (m : Fin 2304) : EReal :=
  dg9 X M (0 : Fin 2304) * a0 X M m * (if 0 < M (ix2 (0 : Fin 1) m) then dg9 X M m else 0)

theorem adj9_eq_adjK (F : Fin 2304 → Fin 256 → EReal) (Mk : Fin 2304 → EReal) (X : S2304x256.Idx → EReal)
    (M : S1x2304.Idx → EReal) (hX : ∀ n d, X (ix2 n d) = xn F Mk n d) (hM : ∀ m, M (ix2 (0 : Fin 1) m) = Mk m)
    (m : Fin 2304) : adj9 X M m = adjK F Mk (0 : Fin 2304) m := by
  have hR : ∀ n m, Rk X n m = relu (edge F Mk n m) := fun n m => by
    unfold Rk edge
    simp only [hX]
  have hdg : ∀ n, dg9 X M n = degK F Mk n := fun n => by
    unfold dg9 degK rowSumK
    rw [rs9_eq]
    simp only [hR, hM]
  unfold adj9 adjK a0
  rw [hdg, hdg, hR, hM]

/-- Blocks 1 to 8 of row 0 hold no diagonal entry. -/
theorem a0_nodeAt (X : S2304x256.Idx → EReal) (M : S1x2304.Idx → EReal) (j : Fin 9) (hj : j.val ≠ 0) (c : Fin 256) :
    pc X M j c = a0 X M (nodeAt j c) := by
  unfold pc a0
  have hne : ¬ nodeAt j c = (0 : Fin 2304) := fun h => by
    have := congrArg Fin.val h
    have : 256 * j.val + c.val = 0 := this
    omega
  rw [if_neg hne, zero_mul, add_zero]

/-! ## Row 0's diagonal entry: the one-hot of column 0 -/

theorem onehot_apply (c : Fin 256) :
    (sitofp .f32 (extui 32 (cmpi .eq (iota .tc S1x256 32 [1] iota_S1x256_d1_w32) (broadcast S1x256 0#32)) natLt_1_32)
      : FVec Ideal S1x256 .f32) (ix2 (0 : Fin 1) c) = if c.val = 0 then 1 else 0 := by
  rw [sitofp_apply, extui_apply]
  show ((((IntOp.cmpi .eq (iota .tc S1x256 32 [1] iota_S1x256_d1_w32 (ix2 (0 : Fin 1) c)) 0#32).setWidth 32).toInt : ℝ) : EReal) = _
  rw [iota_single_apply]
  show ((((IntOp.cmpi .eq (BitVec.ofNat 32 c.val) 0#32).setWidth 32).toInt : ℝ) : EReal) = _
  by_cases hc : c.val = 0
  · have e : IntOp.cmpi .eq (BitVec.ofNat 32 c.val) 0#32 = 1#1 := IntOp.cmpi_eq.mpr (by rw [hc])
    rw [e, if_pos hc]
    norm_num
  · have e : IntOp.cmpi .eq (BitVec.ofNat 32 c.val) 0#32 = 0#1 := eq_zero_of_ne_one fun h => hc (by
      have h2 := congrArg BitVec.toNat (IntOp.cmpi_eq.mp h)
      have := c.isLt
      simp at h2
      omega)
    rw [e, if_neg hc]
    norm_num

theorem pay13_apply (v28 v37 : FVec Ideal S1x256 .f32) (c : Fin 256) :
    k0_pay13 (F := Ideal) v28 v37 (ix2 (0 : Fin 1) c)
      = v37 (ix2 (0 : Fin 1) c) + (if c.val = 0 then 1 else 0) * v28 (ix2 (0 : Fin 1) c) := by
  unfold k0_pay13
  dsimp only
  rw [addf_apply, mulf_apply, onehot_apply]

/-- Block 0 of row 0, diagonal entry included. -/
theorem a0_block0 (X : S2304x256.Idx → EReal) (M : S1x2304.Idx → EReal) (c : Fin 256) :
    pc X M 0 c + (if c.val = 0 then 1 else 0) * M (ix2 (0 : Fin 1) (nodeAt 0 c)) = a0 X M (nodeAt 0 c) := by
  unfold pc a0
  congr 2
  refine if_congr ?_ rfl rfl
  constructor
  · intro h; exact Fin.ext (by show 256 * 0 + c.val = 0; omega)
  · intro h
    have := congrArg Fin.val h
    have : 256 * 0 + c.val = 0 := this
    omega

theorem pay6_apply (v11 : Vec Ideal S1x256 .f32) (e : Fin 256) :
    k0_pay6 (F := Ideal) v11 (ix2 (0 : Fin 1) e) = v11 (ix2 (0 : Fin 1) e) := by
  unfold k0_pay6
  rw [shapeCast_self]

/-! ## Row 0 of the normalised adjacency from the degree column and the joined row -/

/-- Entry (0, 0) of a column spread over a row of 2304 columns. -/
theorem colSpread00_apply (D : FVec Ideal S2304x1 .f32) (m : Fin 2304) :
    broadcastTo S1x2304 (extractStridedSlice S1x1 ![0, 0] D slices_S2304x1_o0_0_S1x1) broadcasts_S1x1_S1x2304 (ix2 (0 : Fin 1) m)
      = D (ix2 (0 : Fin 2304) (0 : Fin 1)) := by
  rw [broadcastTo_apply _ broadcasts_S1x1_S1x2304 (ix2 (0 : Fin 1) m) (ix2 (0 : Fin 1) (0 : Fin 1)) (fun ax => by
    match ax with
    | ⟨0, _⟩ => show (0 : ℕ) = if (1 : ℕ) = 1 then 0 else _; rw [if_pos rfl]
    | ⟨1, _⟩ => show (0 : ℕ) = if (1 : ℕ) = 1 then 0 else _; rw [if_pos rfl])]
  exact slice2_axis0_apply 0 D slices_S2304x1_o0_0_S1x1 (0 : Fin 1) (0 : Fin 1) (0 : Fin 2304) rfl

/-- The mask test: a row kept where the mask row is positive, zero elsewhere. -/
theorem keep_apply (M D : FVec Ideal S1x2304 .f32) (m : Fin 2304) :
    select (cmpf .ogt M (broadcast S1x2304 (Scalar.ofBits .f32 0x00000000#32))) D (broadcast S1x2304 (Scalar.ofBits .f32 0x00000000#32))
        (ix2 (0 : Fin 1) m) = if 0 < M (ix2 (0 : Fin 1) m) then D (ix2 (0 : Fin 1) m) else 0 := by
  rw [select_apply, cmpf_apply]
  simp only [broadcast_apply]
  show Scalar.select (Ideal.cmp .ogt (M (ix2 (0 : Fin 1) m)) (Ideal.ofBits .f32 0x00000000#32)) (D (ix2 (0 : Fin 1) m))
    (Ideal.ofBits .f32 0x00000000#32) = _
  rw [Ideal.ofBits_zero_f32]
  by_cases h : 0 < M (ix2 (0 : Fin 1) m)
  · have e : Ideal.cmp .ogt (M (ix2 (0 : Fin 1) m)) 0 = 1#1 := by
      show BitVec.ofBool (decide (0 < M (ix2 (0 : Fin 1) m))) = 1#1
      rw [decide_eq_true h]; rfl
    rw [e, select_one, if_pos h]
  · have e : Ideal.cmp .ogt (M (ix2 (0 : Fin 1) m)) 0 = 0#1 := by
      show BitVec.ofBool (decide (0 < M (ix2 (0 : Fin 1) m))) = 0#1
      rw [decide_eq_false h]; rfl
    rw [e, select_zero, if_neg h]

/-- Row 0 of the adjacency: degree 0 times the joined row times the column's degree where the column's mask is
    positive. -/
theorem adjRow_apply (M : FVec Ideal S1x2304 .f32) (D : FVec Ideal S2304x1 .f32) (A : FVec Ideal S1x2304 .f32) (m : Fin 2304) :
    truncf .bf16 (mulf (mulf (broadcastTo S1x2304 (extractStridedSlice S1x1 ![0, 0] D slices_S2304x1_o0_0_S1x1) broadcasts_S1x1_S1x2304) A)
        (select (cmpf .ogt M (broadcast S1x2304 (Scalar.ofBits .f32 0x00000000#32)))
          (transpose S1x2304 [1, 0] D transposes_S2304x1_p1_0_S1x2304) (broadcast S1x2304 (Scalar.ofBits .f32 0x00000000#32))))
        bitsLt_bf16_f32 (ix2 (0 : Fin 1) m)
      = D (ix2 (0 : Fin 2304) (0 : Fin 1)) * A (ix2 (0 : Fin 1) m)
        * (if 0 < M (ix2 (0 : Fin 1) m) then D (ix2 m (0 : Fin 1)) else 0) := by
  rw [truncf_apply, mulf_apply, mulf_apply, colSpread00_apply, keep_apply,
    transpose_ix2_apply _ transposes_S2304x1_p1_0_S1x2304 (0 : Fin 1) m]

end GraphFuse.Ker

end
-- ==== Proof.KerTail.lean ====
/-
  The last steps of the body, read at an index: the two small products that turn row 0 of the normalised adjacency
  into the layer's output at node 0 (aggregate the features, project by the weights, add the bias, tanh, mask),
  the blend of the two graphs' outputs, and the fused output blocks.
-/
import proofs.«179044_j54949811585484_2_alg».proof.Proof.KerOps

noncomputable section

open scoped BigOperators

namespace GraphFuse.Ker

open Cert.KernelIdeal Cert.KernelIdeal.Gen Idealize.ShloMosaic Idealize.ShloMosaic.ValueIdx GraphFuse

local notation "DH" => dot_S1x2304_S2304x256_S1x256_1_0_0_1_n_n
local notation "DW" => dot_S1x256_S256x256_S1x256_1_0_0_1_n_n

/-- Row 0 of the adjacency times the features, then times the weights: entry e. -/
theorem twoDots_apply (a : FVec Ideal S1x2304 .bf16) (f : FVec Ideal S2304x256 .bf16) (w : FVec Ideal S256x256 .bf16) (e : Fin 256) :
    matmul DW none (truncf .bf16 (matmul DH none a f (constant S1x256 .f32 0x00000000#32)) bitsLt_bf16_f32) w
        (constant S1x256 .f32 0x00000000#32) (ix2 (0 : Fin 1) e)
      = ∑ d : Fin 256, (∑ m : Fin 2304, a (ix2 (0 : Fin 1) m) * f (ix2 m d)) * w (ix2 d e) := by
  show FloatOps.matmul DW none _ w (constant S1x256 .f32 0x00000000#32) (ix2 (0 : Fin 1) e) = _
  rw [Cert.PlainDot.matmul_zero_apply DW rfl rfl dw_l0 dw_l1 dw_r0 dw_r1 none _ w (0 : Fin 1) e]
  refine Finset.sum_congr rfl fun d _ => ?_
  rw [truncf_apply]
  show FloatOps.matmul DH none a f (constant S1x256 .f32 0x00000000#32) (ix2 (0 : Fin 1) d) * _ = _
  rw [Cert.PlainDot.matmul_zero_apply DH rfl rfl dh_l0 dh_l1 dh_r0 dh_r1 none a f (0 : Fin 1) d]

/-- Entry (0, 0) of a row spread over the row. -/
theorem spread00_apply (v : FVec Ideal S1x2304 .f32) (e : Fin 256) :
    broadcastTo S1x256 (extractStridedSlice S1x1 ![0, 0] v slices_S1x2304_o0_0_S1x1) broadcasts_S1x1_S1x256 (ix2 (0 : Fin 1) e)
      = v (ix2 (0 : Fin 1) (0 : Fin 2304)) := by
  rw [broadcastTo_apply _ broadcasts_S1x1_S1x256 (ix2 (0 : Fin 1) e) (ix2 (0 : Fin 1) (0 : Fin 1)) (fun ax => by
    match ax with
    | ⟨0, _⟩ => rfl
    | ⟨1, _⟩ => rfl)]
  exact slice2_axis1_apply 0 v slices_S1x2304_o0_0_S1x1 (0 : Fin 1) (0 : Fin 1) (0 : Fin 2304) rfl

/-- The blend of the two graphs' outputs at node 0, the image graph's computed here from its adjacency row. -/
theorem pay70_apply (v165 : FVec Ideal S1x256 .f32) (v173 : FVec Ideal S1x2304 .f32) (v174 : Vec Ideal S256x256 .f32)
    (v176 : FVec Ideal S1x256 .f32) (v319 : FVec Ideal S1x2304 .bf16) (v320 : FVec Ideal S2304x256 .bf16) (e : Fin 256) :
    k0_pay70 (F := Ideal) v165 v173 v174 v176 v319 v320 (ix2 (0 : Fin 1) e)
      = c07 * v165 (ix2 (0 : Fin 1) e)
        + c03 * (Ideal.tanh (∑ d : Fin 256, (∑ m : Fin 2304, v319 (ix2 (0 : Fin 1) m) * v320 (ix2 m d)) * v174 (ix2 d e)
            + v176 (ix2 (0 : Fin 1) e)) * v173 (ix2 (0 : Fin 1) (0 : Fin 2304))) := by
  unfold k0_pay70
  rw [addf_apply, mulf_apply, mulf_apply, broadcast_apply, broadcast_apply, mulf_apply, spread00_apply]
  show _ * _ + _ * (Ideal.tanh (addf _ v176 (ix2 (0 : Fin 1) e)) * _) = _
  rw [addf_apply, twoDots_apply]
  rfl

/-- A fused output block: half the base block plus half the blended token, times the row's mask. -/
theorem pay72_apply (v165 : FVec Ideal S1x256 .f32) (v173 : FVec Ideal S1x2304 .f32) (v174 : Vec Ideal S256x256 .f32)
    (v176 : FVec Ideal S1x256 .f32) (v319 : FVec Ideal S1x2304 .bf16) (v320 : FVec Ideal S2304x256 .bf16)
    (v335 : Vec Ideal S1x1x2048 .f32) (v341 : Vec Ideal S1x2048x256 .f32) (r : Fin 2048) (e : Fin 256) :
    k0_pay72 (F := Ideal) v165 v173 v174 v176 v319 v320 v335 v341 (ix3 (0 : Fin 1) r e)
      = (half * v341 (ix3 (0 : Fin 1) r e) + half * k0_pay70 (F := Ideal) v165 v173 v174 v176 v319 v320 (ix2 (0 : Fin 1) e))
        * v335 (ix3 (0 : Fin 1) (0 : Fin 1) r) := by
  unfold k0_pay72
  dsimp only
  rw [shapeCast_ab_1ab_apply, mulf_apply, addf_apply, mulf_apply, broadcast_apply, shapeCast_1ab_ab_apply,
    broadcastTo_1b_ab_apply, mulf_apply, broadcast_apply, Cert.LibColumns.broadcastTo_a1_ab_apply,
    transpose_ix2_apply, shapeCast_1ab_ab_apply]
  rfl

theorem pay1_apply (v334 : FVec Ideal S1x256 .f32) (v340 : FVec Ideal S2048x1 .f32) (v357 : FVec Ideal S2048x256 .f32)
    (r : Fin 2048) (e : Fin 256) :
    k0_pay1 (F := Ideal) v334 v340 v357 (ix3 (0 : Fin 1) r e)
      = (v357 (ix2 r e) + half * v334 (ix2 (0 : Fin 1) e)) * v340 (ix2 r (0 : Fin 1)) := by
  unfold k0_pay1
  rw [shapeCast_ab_1ab_apply, mulf_apply, addf_apply, broadcastTo_1b_ab_apply, mulf_apply, broadcast_apply,
    Cert.LibColumns.broadcastTo_a1_ab_apply]
  rfl

theorem pay71_apply (v338 : Vec Ideal S1x1x2048 .f32) (r : Fin 2048) :
    k0_pay71 (F := Ideal) v338 (ix2 r (0 : Fin 1)) = v338 (ix3 (0 : Fin 1) (0 : Fin 1) r) := by
  unfold k0_pay71
  dsimp only
  rw [transpose_ix2_apply, shapeCast_1ab_ab_apply]

theorem pay73_apply (v354 : Vec Ideal S1x2048x256 .f32) (r : Fin 2048) (e : Fin 256) :
    k0_pay73 (F := Ideal) v354 (ix2 r e) = half * v354 (ix3 (0 : Fin 1) r e) := by
  unfold k0_pay73
  rw [mulf_apply, broadcast_apply, shapeCast_1ab_ab_apply]
  rfl

end GraphFuse.Ker

end
-- ==== Proof.KerG1.lean ====
/-
  The text graph's layer at node 0, as the body computes it from the loaded blocks: the degree column from the
  accumulated row sums, row 0 of the adjacency joined from its nine blocks, the column factors dropped where the mask
  is not positive, and the two small products, bias, tanh and mask that follow.
-/
import proofs.«179044_j54949811585484_2_alg».proof.Proof.KerTail

noncomputable section

open scoped BigOperators

namespace GraphFuse.Ker

open Cert.KernelIdeal Cert.KernelIdeal.Gen Idealize.ShloMosaic Idealize.ShloMosaic.ValueIdx GraphFuse

/-- The degree column: the reciprocal square root of the accumulated row sums plus the mask plus eps8. -/
theorem degCol1_apply (X : FVec Ideal S2304x256 .bf16) (M : FVec Ideal S1x2304 .f32) (v126 c8 v17 : FVec Ideal S2304x1 .f32)
    (h126 : ∀ n, v126 (ix2 n (0 : Fin 1)) = 0 + blk X M 0 n + blk X M 1 n + blk X M 2 n + blk X M 3 n + blk X M 4 n
      + blk X M 5 n + blk X M 6 n + blk X M 7 n)
    (h8 : ∀ n, c8 (ix2 n (0 : Fin 1)) = blk X M 8 n) (h17 : ∀ n, v17 (ix2 n (0 : Fin 1)) = M (ix2 (0 : Fin 1) n))
    (n : Fin 2304) :
    rsqrt (addf (addf (addf v126 c8) v17) (broadcast S2304x1 (Scalar.ofBits (F := Ideal) .f32 0x322BCC77#32))) (ix2 n (0 : Fin 1))
      = dg9 X M n := by
  show Ideal.rsqrt (addf (addf (addf v126 c8) v17) (broadcast S2304x1 (Scalar.ofBits (F := Ideal) .f32 0x322BCC77#32))
    (ix2 n (0 : Fin 1))) = _
  rw [addf_apply, addf_apply, addf_apply, broadcast_apply, h126, h8, h17]
  rfl

/-- The layer at node 0 over the body's intermediate values, each known at an index. -/
theorem pay39_apply (v6 : FVec Ideal S2304x256 .f32) (v9 : FVec Ideal S1x2304 .f32) (v10 : Vec Ideal S256x256 .f32)
    (v12 : FVec Ideal S1x256 .f32) (v17 : FVec Ideal S2304x1 .f32) (v44 v56 v68 v80 v92 v104 v116 : FVec Ideal S1x256 .f32)
    (v126 : FVec Ideal S2304x1 .f32) (v128 v131 : FVec Ideal S1x256 .f32) (v133 : FVec Ideal S2304x256 .f32)
    (X : FVec Ideal S2304x256 .bf16)
    (h17 : ∀ n, v17 (ix2 n (0 : Fin 1)) = v9 (ix2 (0 : Fin 1) n))
    (h44 : ∀ c, v44 (ix2 (0 : Fin 1) c) = a0 X v9 (nodeAt 0 c)) (h56 : ∀ c, v56 (ix2 (0 : Fin 1) c) = a0 X v9 (nodeAt 1 c))
    (h68 : ∀ c, v68 (ix2 (0 : Fin 1) c) = a0 X v9 (nodeAt 2 c)) (h80 : ∀ c, v80 (ix2 (0 : Fin 1) c) = a0 X v9 (nodeAt 3 c))
    (h92 : ∀ c, v92 (ix2 (0 : Fin 1) c) = a0 X v9 (nodeAt 4 c)) (h104 : ∀ c, v104 (ix2 (0 : Fin 1) c) = a0 X v9 (nodeAt 5 c))
    (h116 : ∀ c, v116 (ix2 (0 : Fin 1) c) = a0 X v9 (nodeAt 6 c)) (h128 : ∀ c, v128 (ix2 (0 : Fin 1) c) = a0 X v9 (nodeAt 7 c))
    (h126 : ∀ n, v126 (ix2 n (0 : Fin 1)) = 0 + blk X v9 0 n + blk X v9 1 n + blk X v9 2 n + blk X v9 3 n + blk X v9 4 n
      + blk X v9 5 n + blk X v9 6 n + blk X v9 7 n)
    (h131 : ∀ c, v131 (ix2 (0 : Fin 1) c) = v9 (ix2 (0 : Fin 1) (nodeAt 8 c)))
    (h133 : ∀ n c, v133 (ix2 n c) = Rk X n (nodeAt 8 c)) (e : Fin 256) :
    k0_pay39 (F := Ideal) v6 v9 v10 v12 v17 v44 v56 v68 v80 v92 v104 v116 v126 v128 v131 v133 (ix2 (0 : Fin 1) e)
      = Ideal.tanh (∑ d : Fin 256, (∑ m : Fin 2304, adj9 X v9 m * v6 (ix2 m d)) * v10 (ix2 d e) + v12 (ix2 (0 : Fin 1) e))
        * v9 (ix2 (0 : Fin 1) (0 : Fin 2304)) := by
  have hdeg := degCol1_apply X v9 v126 _ v17 h126 (chunkSum_blk X v9 v133 v131 8 h133 h131) h17
  have hA := cat9_apply v44 v56 v68 v80 v92 v104 v116 v128 _ (a0 X v9) h44 h56 h68 h80 h92 h104 h116 h128
    (fun c => (piece_pc X v9 v133 v131 8 h133 h131 c).trans (a0_nodeAt X v9 8 (by decide) c))
  unfold k0_pay39
  rw [mulf_apply, spread00_apply]
  show Ideal.tanh (addf _ v12 (ix2 (0 : Fin 1) e)) * _ = _
  rw [addf_apply, twoDots_apply]
  refine congrArg (fun s => Ideal.tanh (s + v12 (ix2 (0 : Fin 1) e)) * v9 (ix2 (0 : Fin 1) (0 : Fin 2304)))
    (Finset.sum_congr rfl fun d _ => ?_)
  refine congrArg₂ (· * ·) (Finset.sum_congr rfl fun m _ => ?_) rfl
  refine congrArg₂ (· * ·) ?_ rfl
  refine (adjRow_apply v9 _ _ m).trans ?_
  unfold adj9
  refine congrArg₂ (· * ·) (congrArg₂ (· * ·) (hdeg 0) (hA m)) ?_
  rw [hdeg m]

/-- The text graph's layer at node 0 from its loaded blocks. -/
theorem g1_apply (x0 : Vec Ideal S1x1x256 .f32) (x1 : Vec Ideal S1x2048x256 .f32) (x4 : Vec Ideal S1x1x2049 .f32)
    (x8 : Vec Ideal S256x256 .f32) (x9 : Vec Ideal S1x256 .f32) (e : Fin 256) :
    (k0_pay39 (F := Ideal) (k0_pay4 x0 x1) (k0_pay5 x4) x8 (k0_pay6 x9) (k0_pay7 x4) (k0_pay13 (k0_pay9 x4) (k0_pay12 x0 x1 x4)) (k0_pay16 (k0_pay5 x4) (k0_pay8 x0 x1 x4)) (k0_pay19 (k0_pay5 x4) (k0_pay8 x0 x1 x4)) (k0_pay23 (k0_pay5 x4) (k0_pay8 x0 x1 x4)) (k0_pay26 (k0_pay24 (k0_pay5 x4)) (k0_pay25 (k0_pay8 x0 x1 x4))) (k0_pay29 (k0_pay5 x4) (k0_pay8 x0 x1 x4)) (k0_pay32 (k0_pay5 x4) (k0_pay8 x0 x1 x4)) (k0_pay35 (k0_pay5 x4) (k0_pay8 x0 x1 x4) (k0_pay22 (k0_pay5 x4) (k0_pay8 x0 x1 x4) (k0_pay11 x0 x1 x4)) (k0_pay24 (k0_pay5 x4)) (k0_pay25 (k0_pay8 x0 x1 x4))) (k0_pay36 (k0_pay5 x4) (k0_pay8 x0 x1 x4)) (k0_pay37 (k0_pay5 x4)) (k0_pay38 (k0_pay8 x0 x1 x4))) (ix2 (0 : Fin 1) e)
      = outK (featB x0 x1) (maskB x4) (wB x8) (bB x9) (0 : Fin 2304) e := by
  have hX := pay8_apply x0 x1 x4
  have hM := pay5_apply x4
  refine (pay39_apply (k0_pay4 x0 x1) (k0_pay5 x4) x8 (k0_pay6 x9) (k0_pay7 x4) (k0_pay13 (k0_pay9 x4) (k0_pay12 x0 x1 x4))
    (k0_pay16 (k0_pay5 x4) (k0_pay8 x0 x1 x4)) (k0_pay19 (k0_pay5 x4) (k0_pay8 x0 x1 x4)) (k0_pay23 (k0_pay5 x4) (k0_pay8 x0 x1 x4))
    (k0_pay26 (k0_pay24 (k0_pay5 x4)) (k0_pay25 (k0_pay8 x0 x1 x4))) (k0_pay29 (k0_pay5 x4) (k0_pay8 x0 x1 x4))
    (k0_pay32 (k0_pay5 x4) (k0_pay8 x0 x1 x4))
    (k0_pay35 (k0_pay5 x4) (k0_pay8 x0 x1 x4) (k0_pay22 (k0_pay5 x4) (k0_pay8 x0 x1 x4) (k0_pay11 x0 x1 x4)) (k0_pay24 (k0_pay5 x4))
      (k0_pay25 (k0_pay8 x0 x1 x4)))
    (k0_pay36 (k0_pay5 x4) (k0_pay8 x0 x1 x4)) (k0_pay37 (k0_pay5 x4)) (k0_pay38 (k0_pay8 x0 x1 x4))
    (k0_pay8 (F := Ideal) x0 x1 x4)
    (fun n => (pay7_apply x4 n).trans (hM n).symm)
    (fun c => by
      rw [pay13_apply, pay12_apply, pay9_apply]
      exact a0_block0 (k0_pay8 (F := Ideal) x0 x1 x4) (k0_pay5 (F := Ideal) x4) c)
    (fun c => (pay16_apply _ _ c).trans (a0_nodeAt _ _ 1 (by decide) c))
    (fun c => (pay19_apply _ _ c).trans (a0_nodeAt _ _ 2 (by decide) c))
    (fun c => (pay23_apply _ _ c).trans (a0_nodeAt _ _ 3 (by decide) c))
    (fun c => by
      rw [pay26_apply, pay25_apply, pay24_apply]
      exact a0_nodeAt (k0_pay8 (F := Ideal) x0 x1 x4) (k0_pay5 (F := Ideal) x4) 4 (by decide) c)
    (fun c => (pay29_apply _ _ c).trans (a0_nodeAt _ _ 5 (by decide) c))
    (fun c => (pay32_apply _ _ c).trans (a0_nodeAt _ _ 6 (by decide) c))
    (fun c => (pay36_apply _ _ c).trans (a0_nodeAt _ _ 7 (by decide) c))
    (fun n => by
      rw [pay35_apply (k0_pay5 (F := Ideal) x4) (k0_pay8 (F := Ideal) x0 x1 x4) _ _ _ (pay25_apply _) (pay24_apply _) n,
        pay22_apply, pay11_apply])
    (fun c => pay37_apply _ c) (fun n c => pay38_apply _ n c) e).trans ?_
  unfold outK wB bB
  simp only [adj9_eq_adjK (featB x0 x1) (maskB x4) _ _ hX hM, pay4_apply, pay6_apply, hM]

end GraphFuse.Ker

end
-- ==== Proof.KerOps2.lean ====
/-
  The second graph's half of the kernel body, read at an index, on the extended reals.

  The body treats the second graph exactly as the first: the padded features and mask are joined from the
  loaded blocks, every feature column is divided by its norm and every row multiplied by its mask, and the
  rectified similarities of all nodes with one block of 256 nodes at a time are formed.  Block by block
  the masked row sums are accumulated (from zero, left to right), and row 0 of the masked similarities is
  kept, with the diagonal entry's share added in block 0 (a one-hot of column 0 times the mask).  At the end
  the degree column is the reciprocal square root of row sums + mask + eps8; row 0 of the adjacency is
  degree 0 times the joined row times the column's degree where the column's mask is positive, and 0
  elsewhere.  Read at column m that is the entry (0, m) of the normalised adjacency of the padded graph.
-/
import proofs.«179044_j54949811585484_2_alg».proof.Proof.KerOps
import proofs.«179044_j54949811585484_2_alg».proof.Proof.KerDefs

noncomputable section

open scoped BigOperators

namespace GraphFuse.Ker

open Cert.KernelIdeal Cert.KernelIdeal.Gen Idealize.ShloMosaic Idealize.ShloMosaic.ValueIdx GraphFuse

/-! ## The padded features and mask, the mask as a column, the normalised features -/

/-- The features joined from the token, the base rows and the zero rows. -/
theorem pay40_apply (v166 : Vec Ideal S1x1x256 .f32) (v168 : Vec Ideal S1x2048x256 .f32) (n : Fin 2304) (d : Fin 256) :
    k0_pay40 (F := Ideal) (k0_pay2 (F := Ideal)) v166 v168 (ix2 n d) = featB v166 v168 n d :=
  pay4_apply v166 v168 n d

/-- The mask row joined from the loaded row and the zero columns. -/
theorem pay41_apply (v171 : Vec Ideal S1x1x2049 .f32) (m : Fin 2304) :
    k0_pay41 (F := Ideal) (k0_pay3 (F := Ideal)) v171 (ix2 (0 : Fin 1) m) = maskB v171 m :=
  pay5_apply v171 m

/-- The mask row transposed to a column. -/
theorem pay43_apply (v173 : FVec Ideal S1x2304 .f32) (n : Fin 2304) :
    k0_pay43 (F := Ideal) v173 (ix2 n (0 : Fin 1)) = v173 (ix2 (0 : Fin 1) n) := by
  unfold k0_pay43
  exact transpose_ix2_apply _ transposes_S1x2304_p1_0_S2304x1 n (0 : Fin 1)

/-- The normalised, masked features of a matrix and a mask row given by coordinates. -/
theorem pay44_apply (v170 : FVec Ideal S2304x256 .f32) (v173 : FVec Ideal S1x2304 .f32)
    (Ft : Fin 2304 → Fin 256 → EReal) (Mk : Fin 2304 → EReal)
    (hF : ∀ n d, v170 (ix2 n d) = Ft n d) (hM : ∀ m, v173 (ix2 (0 : Fin 1) m) = Mk m)
    (n : Fin 2304) (d : Fin 256) :
    k0_pay44 (F := Ideal) v170 v173 (ix2 n d) = xn Ft Mk n d := by
  unfold k0_pay44 xn colNorm eps12
  dsimp only
  rw [truncf_apply, mulf_apply, divf_apply, Cert.LibColumns.broadcastTo_a1_ab_apply, broadcastTo_1b_ab_apply, maximumf_apply,
    broadcast_apply, pay43_apply, hF, hM]
  show Ideal.div _ (max (Ideal.sqrt (shapeCast S1x256 _ shapeCasts_S256_S1x256 (ix2 (0 : Fin 1) d))) _) * _ = _
  refine congrArg (fun s => Ideal.div (Ft n d) (max (Ideal.sqrt s) _) * Mk n) ?_
  refine (shapeCast_a_1a_apply _ shapeCasts_S256_S1x256 (0 : Fin 1) d).trans ?_
  refine (Cert.LibAxis0Sum.colSum_apply _ _ _ _ _ d).trans ?_
  refine Finset.sum_congr rfl fun k _ => ?_
  rw [mulf_apply, hF]

/-! ## Blocks of the mask row and of the rectified similarities -/

theorem pay45_apply (v173 : FVec Ideal S1x2304 .f32) (c : Fin 256) :
    k0_pay45 (F := Ideal) v173 (ix2 (0 : Fin 1) c) = v173 (ix2 (0 : Fin 1) (nodeAt 0 c)) := by
  unfold k0_pay45
  exact slice2_axis1_apply 0 v173 slices_S1x2304_o0_0_S1x256 (0 : Fin 1) c (nodeAt 0 c) (by show 256 * 0 + c.val = 0 + c.val; omega)

theorem pay48_apply (v173 : FVec Ideal S1x2304 .f32) (c : Fin 256) :
    k0_pay48 (F := Ideal) v173 (ix2 (0 : Fin 1) c) = v173 (ix2 (0 : Fin 1) (nodeAt 1 c)) := by
  unfold k0_pay48
  exact slice2_axis1_apply 256 v173 slices_S1x2304_o0_256_S1x256 (0 : Fin 1) c (nodeAt 1 c) (by show 256 * 1 + c.val = 256 + c.val; omega)

theorem pay53_apply (v173 : FVec Ideal S1x2304 .f32) (c : Fin 256) :
    k0_pay53 (F := Ideal) v173 (ix2 (0 : Fin 1) c) = v173 (ix2 (0 : Fin 1) (nodeAt 2 c)) := by
  unfold k0_pay53
  exact slice2_axis1_apply 512 v173 slices_S1x2304_o0_512_S1x256 (0 : Fin 1) c (nodeAt 2 c) (by show 256 * 2 + c.val = 512 + c.val; omega)

theorem pay56_apply (v173 : FVec Ideal S1x2304 .f32) (c : Fin 256) :
    k0_pay56 (F := Ideal) v173 (ix2 (0 : Fin 1) c) = v173 (ix2 (0 : Fin 1) (nodeAt 3 c)) := by
  unfold k0_pay56
  exact slice2_axis1_apply 768 v173 slices_S1x2304_o0_768_S1x256 (0 : Fin 1) c (nodeAt 3 c) (by show 256 * 3 + c.val = 768 + c.val; omega)

theorem pay59_apply (v173 : FVec Ideal S1x2304 .f32) (c : Fin 256) :
    k0_pay59 (F := Ideal) v173 (ix2 (0 : Fin 1) c) = v173 (ix2 (0 : Fin 1) (nodeAt 4 c)) := by
  unfold k0_pay59
  exact slice2_axis1_apply 1024 v173 slices_S1x2304_o0_1024_S1x256 (0 : Fin 1) c (nodeAt 4 c) (by show 256 * 4 + c.val = 1024 + c.val; omega)

theorem pay62_apply (v173 : FVec Ideal S1x2304 .f32) (c : Fin 256) :
    k0_pay62 (F := Ideal) v173 (ix2 (0 : Fin 1) c) = v173 (ix2 (0 : Fin 1) (nodeAt 5 c)) := by
  unfold k0_pay62
  exact slice2_axis1_apply 1280 v173 slices_S1x2304_o0_1280_S1x256 (0 : Fin 1) c (nodeAt 5 c) (by show 256 * 5 + c.val = 1280 + c.val; omega)

theorem pay67_apply (v173 : FVec Ideal S1x2304 .f32) (c : Fin 256) :
    k0_pay67 (F := Ideal) v173 (ix2 (0 : Fin 1) c) = v173 (ix2 (0 : Fin 1) (nodeAt 6 c)) := by
  unfold k0_pay67
  exact slice2_axis1_apply 1536 v173 slices_S1x2304_o0_1536_S1x256 (0 : Fin 1) c (nodeAt 6 c) (by show 256 * 6 + c.val = 1536 + c.val; omega)

theorem pay46_apply (v170 : FVec Ideal S2304x256 .f32) (v173 : FVec Ideal S1x2304 .f32) (n : Fin 2304) (c : Fin 256) :
    k0_pay46 (F := Ideal) v170 v173 (ix2 n c) = Rk (k0_pay44 (F := Ideal) v170 v173) n (nodeAt 0 c) := by
  unfold k0_pay46
  exact reluChunk_apply (k0_pay44 (F := Ideal) v170 v173) 0 slices_S2304x256_o0_0_S256x256 n c (nodeAt 0 c) (by show 256 * 0 + c.val = 0 + c.val; omega)

theorem pay49_apply (v170 : FVec Ideal S2304x256 .f32) (v173 : FVec Ideal S1x2304 .f32) (n : Fin 2304) (c : Fin 256) :
    k0_pay49 (F := Ideal) v170 v173 (ix2 n c) = Rk (k0_pay44 (F := Ideal) v170 v173) n (nodeAt 1 c) := by
  unfold k0_pay49
  exact reluChunk_apply (k0_pay44 (F := Ideal) v170 v173) 256 slices_S2304x256_o256_0_S256x256 n c (nodeAt 1 c) (by show 256 * 1 + c.val = 256 + c.val; omega)

/-- Block 2's similarities before the rectifier. -/
theorem pay52_apply (v170 : FVec Ideal S2304x256 .f32) (v173 : FVec Ideal S1x2304 .f32) (n : Fin 2304) (c : Fin 256) :
    k0_pay52 (F := Ideal) v170 v173 (ix2 n c)
      = ∑ d : Fin 256, k0_pay44 (F := Ideal) v170 v173 (ix2 n d) * k0_pay44 (F := Ideal) v170 v173 (ix2 (nodeAt 2 c) d) := by
  unfold k0_pay52
  exact edgeChunk_apply (k0_pay44 (F := Ideal) v170 v173) 512 slices_S2304x256_o512_0_S256x256 n c (nodeAt 2 c) (by show 256 * 2 + c.val = 512 + c.val; omega)

/-- The rectifier, entry by entry. -/
theorem pay54_apply (v222 : FVec Ideal S2304x256 .f32) (n : Fin 2304) (c : Fin 256) :
    k0_pay54 (F := Ideal) v222 (ix2 n c) = relu (v222 (ix2 n c)) := by
  unfold k0_pay54
  rw [maximumf_apply, broadcast_apply]
  show max _ (Ideal.ofBits .f32 0x00000000#32) = _
  rw [Ideal.ofBits_zero_f32]
  rfl

/-- A block of inner products, rectified, is the block of rectified similarities. -/
theorem pay54_Rk (X : FVec Ideal S2304x256 .bf16) (v222 : FVec Ideal S2304x256 .f32) (j : Fin 9)
    (h222 : ∀ n c, v222 (ix2 n c) = ∑ d : Fin 256, X (ix2 n d) * X (ix2 (nodeAt j c) d)) (n : Fin 2304) (c : Fin 256) :
    k0_pay54 (F := Ideal) v222 (ix2 n c) = Rk X n (nodeAt j c) := by
  rw [pay54_apply, h222]
  rfl

theorem pay57_apply (v188 : FVec Ideal S2304x256 .bf16) (n : Fin 2304) (c : Fin 256) :
    k0_pay57 (F := Ideal) v188 (ix2 n c) = Rk v188 n (nodeAt 3 c) := by
  unfold k0_pay57
  exact reluChunk_apply v188 768 slices_S2304x256_o768_0_S256x256 n c (nodeAt 3 c) (by show 256 * 3 + c.val = 768 + c.val; omega)

theorem pay60_apply (v188 : FVec Ideal S2304x256 .bf16) (n : Fin 2304) (c : Fin 256) :
    k0_pay60 (F := Ideal) v188 (ix2 n c) = Rk v188 n (nodeAt 4 c) := by
  unfold k0_pay60
  exact reluChunk_apply v188 1024 slices_S2304x256_o1024_0_S256x256 n c (nodeAt 4 c) (by show 256 * 4 + c.val = 1024 + c.val; omega)

theorem pay63_apply (v188 : FVec Ideal S2304x256 .bf16) (n : Fin 2304) (c : Fin 256) :
    k0_pay63 (F := Ideal) v188 (ix2 n c) = Rk v188 n (nodeAt 5 c) := by
  unfold k0_pay63
  exact reluChunk_apply v188 1280 slices_S2304x256_o1280_0_S256x256 n c (nodeAt 5 c) (by show 256 * 5 + c.val = 1280 + c.val; omega)

/-- Block 6's similarities before the rectifier. -/
theorem pay66_apply (v188 : FVec Ideal S2304x256 .bf16) (n : Fin 2304) (c : Fin 256) :
    k0_pay66 (F := Ideal) v188 (ix2 n c) = ∑ d : Fin 256, v188 (ix2 n d) * v188 (ix2 (nodeAt 6 c) d) := by
  unfold k0_pay66
  exact edgeChunk_apply v188 1536 slices_S2304x256_o1536_0_S256x256 n c (nodeAt 6 c) (by show 256 * 6 + c.val = 1536 + c.val; omega)

/-! ## Row 0 of the masked similarities, block by block -/

/-- Block 0 of row 0, the diagonal entry's share included. -/
theorem pay47_apply (v170 : FVec Ideal S2304x256 .f32) (v173 : FVec Ideal S1x2304 .f32) (c : Fin 256) :
    k0_pay47 (F := Ideal) v170 v173 (ix2 (0 : Fin 1) c) = a0 (k0_pay44 (F := Ideal) v170 v173) v173 (nodeAt 0 c) := by
  unfold k0_pay47
  dsimp only
  rw [addf_apply, piece_pc (k0_pay44 (F := Ideal) v170 v173) v173 _ _ 0 (pay46_apply v170 v173) (pay45_apply v173) c,
    mulf_apply, onehot_apply, pay45_apply]
  exact a0_block0 (k0_pay44 (F := Ideal) v170 v173) v173 c

theorem pay51_apply (v170 : FVec Ideal S2304x256 .f32) (v173 : FVec Ideal S1x2304 .f32) (c : Fin 256) :
    k0_pay51 (F := Ideal) v170 v173 (ix2 (0 : Fin 1) c) = pc (k0_pay44 (F := Ideal) v170 v173) v173 1 c := by
  unfold k0_pay51
  exact piece_pc (k0_pay44 (F := Ideal) v170 v173) v173 _ _ 1 (pay49_apply v170 v173) (pay48_apply v173) c

/-- Block 2 of row 0, from the block of inner products and the block of the mask handed in. -/
theorem pay55_apply (X : FVec Ideal S2304x256 .bf16) (M : FVec Ideal S1x2304 .f32) (v222 : FVec Ideal S2304x256 .f32)
    (v223 : FVec Ideal S1x256 .f32)
    (h222 : ∀ n c, v222 (ix2 n c) = ∑ d : Fin 256, X (ix2 n d) * X (ix2 (nodeAt 2 c) d))
    (h223 : ∀ c, v223 (ix2 (0 : Fin 1) c) = M (ix2 (0 : Fin 1) (nodeAt 2 c))) (c : Fin 256) :
    k0_pay55 (F := Ideal) v222 v223 (ix2 (0 : Fin 1) c) = pc X M 2 c := by
  unfold k0_pay55
  exact piece_pc X M (k0_pay54 (F := Ideal) v222) v223 2 (pay54_Rk X v222 2 h222) h223 c

theorem pay58_apply (v173 : FVec Ideal S1x2304 .f32) (v188 : FVec Ideal S2304x256 .bf16) (c : Fin 256) :
    k0_pay58 (F := Ideal) v173 v188 (ix2 (0 : Fin 1) c) = pc v188 v173 3 c := by
  unfold k0_pay58
  exact piece_pc v188 v173 _ _ 3 (pay57_apply v188) (pay56_apply v173) c

theorem pay61_apply (v173 : FVec Ideal S1x2304 .f32) (v188 : FVec Ideal S2304x256 .bf16) (c : Fin 256) :
    k0_pay61 (F := Ideal) v173 v188 (ix2 (0 : Fin 1) c) = pc v188 v173 4 c := by
  unfold k0_pay61
  exact piece_pc v188 v173 _ _ 4 (pay60_apply v188) (pay59_apply v173) c

theorem pay65_apply (v173 : FVec Ideal S1x2304 .f32) (v188 : FVec Ideal S2304x256 .bf16) (c : Fin 256) :
    k0_pay65 (F := Ideal) v173 v188 (ix2 (0 : Fin 1) c) = pc v188 v173 5 c := by
  unfold k0_pay65
  exact piece_pc v188 v173 _ _ 5 (pay63_apply v188) (pay62_apply v173) c

/-! ## The masked row sums, block by block -/

/-- The row sums after blocks 0 and 1. -/
theorem pay50_apply (v170 : FVec Ideal S2304x256 .f32) (v173 : FVec Ideal S1x2304 .f32) (n : Fin 2304) :
    k0_pay50 (F := Ideal) v170 v173 (ix2 n (0 : Fin 1))
      = 0 + blk (k0_pay44 (F := Ideal) v170 v173) v173 0 n + blk (k0_pay44 (F := Ideal) v170 v173) v173 1 n := by
  unfold k0_pay50
  dsimp only
  rw [addf_apply, addf_apply, broadcast_apply,
    chunkSum_blk (k0_pay44 (F := Ideal) v170 v173) v173 _ _ 0 (pay46_apply v170 v173) (pay45_apply v173) n,
    chunkSum_blk (k0_pay44 (F := Ideal) v170 v173) v173 _ _ 1 (pay49_apply v170 v173) (pay48_apply v173) n]
  congr 2
  exact Ideal.ofBits_zero_f32

/-- … after blocks 2 to 5 (block 2's factors handed in). -/
theorem pay64_apply (v173 : FVec Ideal S1x2304 .f32) (v188 : FVec Ideal S2304x256 .bf16) (v218 : FVec Ideal S2304x1 .f32)
    (v222 : FVec Ideal S2304x256 .f32) (v223 : FVec Ideal S1x256 .f32)
    (h222 : ∀ n c, v222 (ix2 n c) = ∑ d : Fin 256, v188 (ix2 n d) * v188 (ix2 (nodeAt 2 c) d))
    (h223 : ∀ c, v223 (ix2 (0 : Fin 1) c) = v173 (ix2 (0 : Fin 1) (nodeAt 2 c))) (n : Fin 2304) :
    k0_pay64 (F := Ideal) v173 v188 v218 v222 v223 (ix2 n (0 : Fin 1))
      = v218 (ix2 n (0 : Fin 1)) + blk v188 v173 2 n + blk v188 v173 3 n + blk v188 v173 4 n + blk v188 v173 5 n := by
  unfold k0_pay64
  dsimp only
  rw [addf_apply, addf_apply, addf_apply, addf_apply,
    chunkSum_blk v188 v173 (k0_pay54 (F := Ideal) v222) v223 2 (pay54_Rk v188 v222 2 h222) h223 n,
    chunkSum_blk v188 v173 _ _ 3 (pay57_apply v188) (pay56_apply v173) n,
    chunkSum_blk v188 v173 _ _ 4 (pay60_apply v188) (pay59_apply v173) n,
    chunkSum_blk v188 v173 _ _ 5 (pay63_apply v188) (pay62_apply v173) n]

/-! ## The last step: degrees, the joined row, and the mask on the columns -/

/-- The degree column: the reciprocal square root of the accumulated row sums plus the mask plus eps8. -/
theorem degCol_apply (X : FVec Ideal S2304x256 .bf16) (M : FVec Ideal S1x2304 .f32)
    (v266 c6 c7 c8 v181 : FVec Ideal S2304x1 .f32)
    (h266 : ∀ n, v266 (ix2 n (0 : Fin 1))
      = 0 + blk X M 0 n + blk X M 1 n + blk X M 2 n + blk X M 3 n + blk X M 4 n + blk X M 5 n)
    (h6 : ∀ n, c6 (ix2 n (0 : Fin 1)) = blk X M 6 n) (h7 : ∀ n, c7 (ix2 n (0 : Fin 1)) = blk X M 7 n)
    (h8 : ∀ n, c8 (ix2 n (0 : Fin 1)) = blk X M 8 n) (h181 : ∀ n, v181 (ix2 n (0 : Fin 1)) = M (ix2 (0 : Fin 1) n))
    (n : Fin 2304) :
    rsqrt (addf (addf (addf (addf (addf v266 c6) c7) c8) v181) (broadcast S2304x1 (Scalar.ofBits (F := Ideal) .f32 0x322BCC77#32)))
        (ix2 n (0 : Fin 1)) = dg9 X M n := by
  show Ideal.rsqrt (addf (addf (addf (addf (addf v266 c6) c7) c8) v181)
    (broadcast S2304x1 (Scalar.ofBits (F := Ideal) .f32 0x322BCC77#32)) (ix2 n (0 : Fin 1))) = _
  rw [addf_apply, addf_apply, addf_apply, addf_apply, addf_apply, broadcast_apply, h266, h6, h7, h8, h181]
  rfl

/-- A rectified block of inner products, entry by entry. -/
theorem reluOf_apply (X : FVec Ideal S2304x256 .bf16) (v : FVec Ideal S2304x256 .f32) (j : Fin 9)
    (hv : ∀ n c, v (ix2 n c) = ∑ d : Fin 256, X (ix2 n d) * X (ix2 (nodeAt j c) d)) (n : Fin 2304) (c : Fin 256) :
    maximumf v (broadcast S2304x256 (Scalar.ofBits (F := Ideal) .f32 0x00000000#32)) (ix2 n c) = Rk X n (nodeAt j c) :=
  pay54_Rk X v j hv n c

/-- Row 0 of the normalised adjacency, its columns masked, from the pieces kept along the way. -/
theorem pay68_apply (v173 : FVec Ideal S1x2304 .f32) (v181 : FVec Ideal S2304x1 .f32) (v188 : FVec Ideal S2304x256 .bf16)
    (v208 v220 v232 v244 v256 : FVec Ideal S1x256 .f32) (v266 : FVec Ideal S2304x1 .f32) (v268 : FVec Ideal S1x256 .f32)
    (v270 : FVec Ideal S2304x256 .f32) (v271 : FVec Ideal S1x256 .f32)
    (h181 : ∀ n, v181 (ix2 n (0 : Fin 1)) = v173 (ix2 (0 : Fin 1) n))
    (h208 : ∀ c, v208 (ix2 (0 : Fin 1) c) = a0 v188 v173 (nodeAt 0 c))
    (h220 : ∀ c, v220 (ix2 (0 : Fin 1) c) = a0 v188 v173 (nodeAt 1 c))
    (h232 : ∀ c, v232 (ix2 (0 : Fin 1) c) = a0 v188 v173 (nodeAt 2 c))
    (h244 : ∀ c, v244 (ix2 (0 : Fin 1) c) = a0 v188 v173 (nodeAt 3 c))
    (h256 : ∀ c, v256 (ix2 (0 : Fin 1) c) = a0 v188 v173 (nodeAt 4 c))
    (h268 : ∀ c, v268 (ix2 (0 : Fin 1) c) = a0 v188 v173 (nodeAt 5 c))
    (h266 : ∀ n, v266 (ix2 n (0 : Fin 1))
      = 0 + blk v188 v173 0 n + blk v188 v173 1 n + blk v188 v173 2 n + blk v188 v173 3 n + blk v188 v173 4 n + blk v188 v173 5 n)
    (h270 : ∀ n c, v270 (ix2 n c) = ∑ d : Fin 256, v188 (ix2 n d) * v188 (ix2 (nodeAt 6 c) d))
    (h271 : ∀ c, v271 (ix2 (0 : Fin 1) c) = v173 (ix2 (0 : Fin 1) (nodeAt 6 c)))
    (m : Fin 2304) :
    k0_pay68 (F := Ideal) v173 v181 v188 v208 v220 v232 v244 v256 v266 v268 v270 v271 (ix2 (0 : Fin 1) m) = adj9 v188 v173 m := by
  -- the blocks 6, 7, 8 of the rectified similarities and of the mask row
  have hR6 := reluOf_apply v188 v270 6 h270
  have hR7 : ∀ n c, _ = Rk v188 n (nodeAt 7 c) := fun n c =>
    reluChunk_apply v188 1792 slices_S2304x256_o1792_0_S256x256 n c (nodeAt 7 c) (by show 256 * 7 + c.val = 1792 + c.val; omega)
  have hR8 : ∀ n c, _ = Rk v188 n (nodeAt 8 c) := fun n c =>
    reluChunk_apply v188 2048 slices_S2304x256_o2048_0_S256x256 n c (nodeAt 8 c) (by show 256 * 8 + c.val = 2048 + c.val; omega)
  have hm7 : ∀ c, _ = v173 (ix2 (0 : Fin 1) (nodeAt 7 c)) := fun c =>
    slice2_axis1_apply 1792 v173 slices_S1x2304_o0_1792_S1x256 (0 : Fin 1) c (nodeAt 7 c) (by show 256 * 7 + c.val = 1792 + c.val; omega)
  have hm8 : ∀ c, _ = v173 (ix2 (0 : Fin 1) (nodeAt 8 c)) := fun c =>
    slice2_axis1_apply 2048 v173 slices_S1x2304_o0_2048_S1x256 (0 : Fin 1) c (nodeAt 8 c) (by show 256 * 8 + c.val = 2048 + c.val; omega)
  -- the degree column
  have hdeg := degCol_apply v188 v173 v266 _ _ _ v181 h266 (chunkSum_blk v188 v173 _ _ 6 hR6 h271)
    (chunkSum_blk v188 v173 _ _ 7 hR7 hm7) (chunkSum_blk v188 v173 _ _ 8 hR8 hm8) h181
  -- the pieces of row 0 in blocks 6, 7, 8
  have h280 := fun c => (piece_pc v188 v173 _ _ 6 hR6 h271 c).trans (a0_nodeAt v188 v173 6 (by decide) c)
  have h292 := fun c => (piece_pc v188 v173 _ _ 7 hR7 hm7 c).trans (a0_nodeAt v188 v173 7 (by decide) c)
  have h304 := fun c => (piece_pc v188 v173 _ _ 8 hR8 hm8 c).trans (a0_nodeAt v188 v173 8 (by decide) c)
  have hA := cat9_apply _ _ _ _ _ _ _ _ _ (a0 v188 v173) h208 h220 h232 h244 h256 h268 h280 h292 h304
  unfold k0_pay68 adj9
  dsimp only
  refine (adjRow_apply v173 _ _ m).trans ?_
  refine congrArg₂ (· * ·) (congrArg₂ (· * ·) (hdeg 0) (hA m)) ?_
  rw [hdeg m]

/-! ## The second graph's row, from the loaded blocks -/

section final

variable (x2 : Vec Ideal S1x1x256 .f32) (x3 : Vec Ideal S1x2048x256 .f32) (x5 : Vec Ideal S1x1x2049 .f32)

local notation "FB" => k0_pay40 (F := Ideal) (k0_pay2 (F := Ideal)) x2 x3
local notation "MB" => k0_pay41 (F := Ideal) (k0_pay3 (F := Ideal)) x5
local notation "XB" => k0_pay44 (F := Ideal) FB MB

/-- The row the body hands its last products, for the second graph: entry m is the entry (0, m) of the
    normalised adjacency of the padded graph. -/
theorem adj2_apply (m : Fin 2304) :
    (k0_pay68 (F := Ideal) MB (k0_pay43 MB) XB (k0_pay47 FB MB) (k0_pay51 FB MB) (k0_pay55 (k0_pay52 FB MB) (k0_pay53 MB))
        (k0_pay58 MB XB) (k0_pay61 MB XB) (k0_pay64 MB XB (k0_pay50 FB MB) (k0_pay52 FB MB) (k0_pay53 MB)) (k0_pay65 MB XB)
        (k0_pay66 XB) (k0_pay67 MB)) (ix2 (0 : Fin 1) m)
      = GraphFuse.adjK (featB x2 x3) (maskB x5) (0 : Fin 2304) m := by
  refine (pay68_apply MB (k0_pay43 MB) XB (k0_pay47 FB MB) (k0_pay51 FB MB) (k0_pay55 (k0_pay52 FB MB) (k0_pay53 MB))
    (k0_pay58 MB XB) (k0_pay61 MB XB) (k0_pay64 MB XB (k0_pay50 FB MB) (k0_pay52 FB MB) (k0_pay53 MB)) (k0_pay65 MB XB)
    (k0_pay66 XB) (k0_pay67 MB)
    (pay43_apply MB)
    (pay47_apply FB MB)
    (fun c => (pay51_apply FB MB c).trans (a0_nodeAt XB MB 1 (by decide) c))
    (fun c => (pay55_apply XB MB (k0_pay52 FB MB) (k0_pay53 MB) (pay52_apply FB MB) (pay53_apply MB) c).trans
      (a0_nodeAt XB MB 2 (by decide) c))
    (fun c => (pay58_apply MB XB c).trans (a0_nodeAt XB MB 3 (by decide) c))
    (fun c => (pay61_apply MB XB c).trans (a0_nodeAt XB MB 4 (by decide) c))
    (fun c => (pay65_apply MB XB c).trans (a0_nodeAt XB MB 5 (by decide) c))
    (fun n => by
      rw [pay64_apply MB XB (k0_pay50 FB MB) (k0_pay52 FB MB) (k0_pay53 MB) (pay52_apply FB MB) (pay53_apply MB) n,
        pay50_apply FB MB n])
    (pay66_apply XB) (pay67_apply MB) m).trans ?_
  exact adj9_eq_adjK (featB x2 x3) (maskB x5) XB MB
    (pay44_apply FB MB (featB x2 x3) (maskB x5) (pay40_apply x2 x3) (pay41_apply x5)) (pay41_apply x5) m

end final

end GraphFuse.Ker

end
-- ==== Proof.KerPay.lean ====
/-
  What the body leaves in its two output blocks, entry by entry: half the base features plus half the blended token
  of the grid point's two graphs, times the row's mask.
-/
import proofs.«179044_j54949811585484_2_alg».proof.Proof.Gen.KernelIdeal.Frame
import proofs.«179044_j54949811585484_2_alg».proof.Proof.KerG1
import proofs.«179044_j54949811585484_2_alg».proof.Proof.KerOps2

noncomputable section

open scoped BigOperators

namespace GraphFuse.Ker

open Cert.KernelIdeal Cert.KernelIdeal.Gen Idealize.ShloMosaic Idealize.ShloMosaic.ValueIdx GraphFuse

theorem zero3 : (![0, 0, 0] : Fin 3 → Nat) = fun _ => 0 := funext fun a => by fin_cases a <;> rfl
theorem zero2 : (![0, 0] : Fin 2 → Nat) = fun _ => 0 := funext fun a => by fin_cases a <;> rfl

theorem pay42_apply (v175 : Vec Ideal S1x256 .f32) (e : Fin 256) :
    k0_pay42 (F := Ideal) v175 (ix2 (0 : Fin 1) e) = v175 (ix2 (0 : Fin 1) e) := by
  unfold k0_pay42
  rw [shapeCast_self]

theorem pay69_apply (v170 : FVec Ideal S2304x256 .f32) (m : Fin 2304) (d : Fin 256) :
    k0_pay69 (F := Ideal) v170 (ix2 m d) = v170 (ix2 m d) := rfl

/-- The image graph's layer at node 0 from its loaded blocks, as it stands inside the blend. -/
theorem g2_apply (x2 : Vec Ideal S1x1x256 .f32) (x3 : Vec Ideal S1x2048x256 .f32) (x5 : Vec Ideal S1x1x2049 .f32)
    (x10 : Vec Ideal S256x256 .f32) (x11 : Vec Ideal S1x256 .f32) (e : Fin 256) :
    Ideal.tanh (∑ d : Fin 256, (∑ m : Fin 2304,
        (k0_pay68 (F := Ideal) (k0_pay41 (k0_pay3 (F := Ideal)) x5) (k0_pay43 (k0_pay41 (k0_pay3 (F := Ideal)) x5)) (k0_pay44 (k0_pay40 (k0_pay2 (F := Ideal)) x2 x3) (k0_pay41 (k0_pay3 (F := Ideal)) x5)) (k0_pay47 (k0_pay40 (k0_pay2 (F := Ideal)) x2 x3) (k0_pay41 (k0_pay3 (F := Ideal)) x5)) (k0_pay51 (k0_pay40 (k0_pay2 (F := Ideal)) x2 x3) (k0_pay41 (k0_pay3 (F := Ideal)) x5)) (k0_pay55 (k0_pay52 (k0_pay40 (k0_pay2 (F := Ideal)) x2 x3) (k0_pay41 (k0_pay3 (F := Ideal)) x5)) (k0_pay53 (k0_pay41 (k0_pay3 (F := Ideal)) x5))) (k0_pay58 (k0_pay41 (k0_pay3 (F := Ideal)) x5) (k0_pay44 (k0_pay40 (k0_pay2 (F := Ideal)) x2 x3) (k0_pay41 (k0_pay3 (F := Ideal)) x5))) (k0_pay61 (k0_pay41 (k0_pay3 (F := Ideal)) x5) (k0_pay44 (k0_pay40 (k0_pay2 (F := Ideal)) x2 x3) (k0_pay41 (k0_pay3 (F := Ideal)) x5))) (k0_pay64 (k0_pay41 (k0_pay3 (F := Ideal)) x5) (k0_pay44 (k0_pay40 (k0_pay2 (F := Ideal)) x2 x3) (k0_pay41 (k0_pay3 (F := Ideal)) x5)) (k0_pay50 (k0_pay40 (k0_pay2 (F := Ideal)) x2 x3) (k0_pay41 (k0_pay3 (F := Ideal)) x5)) (k0_pay52 (k0_pay40 (k0_pay2 (F := Ideal)) x2 x3) (k0_pay41 (k0_pay3 (F := Ideal)) x5)) (k0_pay53 (k0_pay41 (k0_pay3 (F := Ideal)) x5))) (k0_pay65 (k0_pay41 (k0_pay3 (F := Ideal)) x5) (k0_pay44 (k0_pay40 (k0_pay2 (F := Ideal)) x2 x3) (k0_pay41 (k0_pay3 (F := Ideal)) x5))) (k0_pay66 (k0_pay44 (k0_pay40 (k0_pay2 (F := Ideal)) x2 x3) (k0_pay41 (k0_pay3 (F := Ideal)) x5))) (k0_pay67 (k0_pay41 (k0_pay3 (F := Ideal)) x5))) (ix2 (0 : Fin 1) m)
          * k0_pay69 (F := Ideal) (k0_pay40 (F := Ideal) (k0_pay2 (F := Ideal)) x2 x3) (ix2 m d)) * x10 (ix2 d e)
        + k0_pay42 (F := Ideal) x11 (ix2 (0 : Fin 1) e))
      * k0_pay41 (F := Ideal) (k0_pay3 (F := Ideal)) x5 (ix2 (0 : Fin 1) (0 : Fin 2304))
      = outK (featB x2 x3) (maskB x5) (wB x10) (bB x11) (0 : Fin 2304) e := by
  unfold outK wB bB
  simp only [adj2_apply, pay69_apply, pay40_apply, pay42_apply, pay41_apply]

theorem out12_apply (x0 : Vec Ideal S1x1x256 .f32) (x1 : Vec Ideal S1x2048x256 .f32) (x2 : Vec Ideal S1x1x256 .f32)
    (x3 : Vec Ideal S1x2048x256 .f32) (x4 x5 : Vec Ideal S1x1x2049 .f32) (x6 x7 : Vec Ideal S1x1x2048 .f32)
    (x8 : Vec Ideal S256x256 .f32) (x9 : Vec Ideal S1x256 .f32) (x10 : Vec Ideal S256x256 .f32) (x11 : Vec Ideal S1x256 .f32)
    (r : Fin 2048) (e : Fin 256) :
    out0_12 (F := Ideal) x0 x1 x2 x3 x4 x5 x6 x7 x8 x9 x10 x11 (ix3 (0 : Fin 1) r e)
      = (half * x1 (ix3 (0 : Fin 1) r e) + half * gB x0 x1 x2 x3 x4 x5 x8 x9 x10 x11 e) * x6 (ix3 (0 : Fin 1) (0 : Fin 1) r) := by
  unfold out0_12
  rw [View.canon_unit_zero zero3]
  simp only [View.ld_unit_zero (S := S1x1x256) zero3, View.ld_unit_zero (S := S1x2048x256) zero3,
    View.ld_unit_zero (S := S1x1x2049) zero3, View.ld_unit_zero (S := S1x1x2048) zero3,
    View.ld_unit_zero (S := S256x256) zero2, View.ld_unit_zero (S := S1x256) zero2]
  rw [pay72_apply, pay70_apply, g1_apply, g2_apply]
  rfl

theorem out13_apply (x0 : Vec Ideal S1x1x256 .f32) (x1 : Vec Ideal S1x2048x256 .f32) (x2 : Vec Ideal S1x1x256 .f32)
    (x3 : Vec Ideal S1x2048x256 .f32) (x4 x5 : Vec Ideal S1x1x2049 .f32) (x6 x7 : Vec Ideal S1x1x2048 .f32)
    (x8 : Vec Ideal S256x256 .f32) (x9 : Vec Ideal S1x256 .f32) (x10 : Vec Ideal S256x256 .f32) (x11 : Vec Ideal S1x256 .f32)
    (r : Fin 2048) (e : Fin 256) :
    out0_13 (F := Ideal) x0 x1 x2 x3 x4 x5 x6 x7 x8 x9 x10 x11 (ix3 (0 : Fin 1) r e)
      = (half * x3 (ix3 (0 : Fin 1) r e) + half * gB x0 x1 x2 x3 x4 x5 x8 x9 x10 x11 e) * x7 (ix3 (0 : Fin 1) (0 : Fin 1) r) := by
  unfold out0_13
  rw [View.canon_unit_zero zero3]
  simp only [View.ld_unit_zero (S := S1x1x256) zero3, View.ld_unit_zero (S := S1x2048x256) zero3,
    View.ld_unit_zero (S := S1x1x2049) zero3, View.ld_unit_zero (S := S1x1x2048) zero3,
    View.ld_unit_zero (S := S256x256) zero2, View.ld_unit_zero (S := S1x256) zero2]
  rw [pay1_apply, pay73_apply, pay71_apply, pay70_apply, g1_apply, g2_apply]
  rfl

end GraphFuse.Ker

end
-- ==== Proof.KerFinal.lean ====
/-
  From what each grid point writes back to the two whole output arrays.

  The grid is the 16 batch entries. At point t every batched window's block is slab t of its array (block index
  (t, 0, 0)), and the weights' and the bias rows' blocks are their whole arrays (block index (0, 0)). The arrays the
  region finds are the arguments themselves, the two masks recast to [16, 1, 2049], the masks cut to their first 2048
  columns and recast to [16, 1, 2048], and row 0 of each bias array. So the padded graph read off the blocks of
  point t is the padded graph of batch entry t, its blended token is that entry's, and the block point t writes
  back is slab t of the fused output; the 16 slabs cover the array.
-/
import proofs.«179044_j54949811585484_2_alg».proof.Proof.Gen.KernelIdeal.Value
import proofs.«179044_j54949811585484_2_alg».proof.Proof.KerPay
import proofs.«179044_j54949811585484_2_alg».proof.Proof.KerDefs
import proofs.«179044_j54949811585484_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace GraphFuse.Ker

open Cert.KernelIdeal Cert.KernelIdeal.Gen Idealize.ShloMosaic Idealize.ShloMosaic.TcCoe Idealize.SL.Sem
open Idealize.ShloMosaic.ValueIdx GraphFuse
open Idealize.ShloMosaic.Pipeline (Dat)

variable (m : (ℓ : Loc nD τ sig) → Buf (Elt Ideal) ℓ) (ρ : Dev nD → PrngReg)

/-! ## The arguments, and a grid point as a batch entry -/

/-- The ten argument arrays as launched, on core c. -/
abbrev ar0 (c : Dev nD) : A3 16 1 256 := m ((c : Thread nD τ).loc main_arg0)
abbrev ar1 (c : Dev nD) : A3 16 1 256 := m ((c : Thread nD τ).loc main_arg1)
abbrev ar2 (c : Dev nD) : A3 16 2048 256 := m ((c : Thread nD τ).loc main_arg2)
abbrev ar3 (c : Dev nD) : A3 16 2048 256 := m ((c : Thread nD τ).loc main_arg3)
abbrev ar4 (c : Dev nD) : A2 16 2049 := m ((c : Thread nD τ).loc main_arg4)
abbrev ar5 (c : Dev nD) : A2 16 2049 := m ((c : Thread nD τ).loc main_arg5)
abbrev ar6 (c : Dev nD) : A2 256 256 := m ((c : Thread nD τ).loc main_arg6)
abbrev ar7 (c : Dev nD) : A2 2049 256 := m ((c : Thread nD τ).loc main_arg7)
abbrev ar8 (c : Dev nD) : A2 256 256 := m ((c : Thread nD τ).loc main_arg8)
abbrev ar9 (c : Dev nD) : A2 2049 256 := m ((c : Thread nD τ).loc main_arg9)

/-- The grid has 16 points: point t is batch entry t. -/
def bt (t : Fin cfg0.N) : Fin 16 := Fin.cast N_0 t

/-! ## The index maps, decided once over the grid -/

/-- At point t the batched windows are at block (t, 0, 0), the weights and the bias rows at block (0, 0). -/
theorem index_facts : ∀ t : Fin cfg0.N,
    win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] ∧ win0_8.index t = ![0, 0]
    ∧ win0_9.index t = ![0, 0] ∧ win0_10.index t = ![0, 0] ∧ win0_11.index t = ![0, 0]
    ∧ win0_12.index t = ![t.val, 0, 0] ∧ win0_13.index t = ![t.val, 0, 0] :=
  (by decide +kernel : ∀ t : Fin grid0.N, _)

/-! ## The arrays the host wrote before the region, read at an index -/

/-- The first mask recast to [16, 1, 2049]. -/
theorem V_v0_apply (c : Dev nD) (b : Fin 16) (n : Fin 2049) :
    (V m c main_v0 : S16x1x2049.Idx → EReal) (ix3 b (0 : Fin 1) n) = ar4 m c (ix2 b n) := by
  have e : (V m c main_v0 : S16x1x2049.Idx → EReal)
      = broadcastInDim S16x1x2049 ![0, 2] bcast_S16x2049_S16x1x2049_0_2 (ar4 m c) := by
    dsimp only [V, hostOps0]; after_results
  rw [e]
  exact broadcastInDim_apply _ _ _ _ _ (fun a => match a with
    | ⟨0, _⟩ => by show b.val = (if (16 : Nat) = 1 then 0 else b.val); rw [if_neg (by decide)]
    | ⟨1, _⟩ => by show n.val = (if (2049 : Nat) = 1 then 0 else n.val); rw [if_neg (by decide)])

/-- The second mask recast to [16, 1, 2049]. -/
theorem V_v1_apply (c : Dev nD) (b : Fin 16) (n : Fin 2049) :
    (V m c main_v1 : S16x1x2049.Idx → EReal) (ix3 b (0 : Fin 1) n) = ar5 m c (ix2 b n) := by
  have e : (V m c main_v1 : S16x1x2049.Idx → EReal)
      = broadcastInDim S16x1x2049 ![0, 2] bcast_S16x2049_S16x1x2049_0_2 (ar5 m c) := by
    dsimp only [V, hostOps0]; after_results
  rw [e]
  exact broadcastInDim_apply _ _ _ _ _ (fun a => match a with
    | ⟨0, _⟩ => by show b.val = (if (16 : Nat) = 1 then 0 else b.val); rw [if_neg (by decide)]
    | ⟨1, _⟩ => by show n.val = (if (2049 : Nat) = 1 then 0 else n.val); rw [if_neg (by decide)])

/-- A mask cut to its first 2048 columns and recast to [16, 1, 2048], read at an index. -/
theorem cut_recast_apply (M : A2 16 2049) (b : Fin 16) (r : Fin 2048) :
    broadcastInDim S16x1x2048 ![0, 2] bcast_S16x2048_S16x1x2048_0_2
        (extractStridedSlice S16x2048 ![0, 0] M slices_S16x2049_S16x2048_0_0) (ix3 b (0 : Fin 1) r)
      = M (ix2 b r.castSucc) := by
  refine (broadcastInDim_apply _ _ _ _ (ix2 b r) (fun a => match a with
    | ⟨0, _⟩ => by show b.val = (if (16 : Nat) = 1 then 0 else b.val); rw [if_neg (by decide)]
    | ⟨1, _⟩ => by show r.val = (if (2048 : Nat) = 1 then 0 else r.val); rw [if_neg (by decide)])).trans ?_
  exact extractStridedSlice_apply _ _ _ _ _ (fun a => match a with
    | ⟨0, _⟩ => by show b.val = 0 + b.val; omega
    | ⟨1, _⟩ => by show r.val = 0 + r.val; omega)

/-- The first mask's first 2048 columns as [16, 1, 2048]. -/
theorem V_v3_apply (c : Dev nD) (b : Fin 16) (r : Fin 2048) :
    (V m c main_v3 : S16x1x2048.Idx → EReal) (ix3 b (0 : Fin 1) r) = ar4 m c (ix2 b r.castSucc) := by
  have e : (V m c main_v3 : S16x1x2048.Idx → EReal)
      = broadcastInDim S16x1x2048 ![0, 2] bcast_S16x2048_S16x1x2048_0_2
          (extractStridedSlice S16x2048 ![0, 0] (ar4 m c) slices_S16x2049_S16x2048_0_0) := by
    dsimp only [V, hostOps0]; after_results
  rw [e]; exact cut_recast_apply (ar4 m c) b r

/-- The second mask's first 2048 columns as [16, 1, 2048]. -/
theorem V_v5_apply (c : Dev nD) (b : Fin 16) (r : Fin 2048) :
    (V m c main_v5 : S16x1x2048.Idx → EReal) (ix3 b (0 : Fin 1) r) = ar5 m c (ix2 b r.castSucc) := by
  have e : (V m c main_v5 : S16x1x2048.Idx → EReal)
      = broadcastInDim S16x1x2048 ![0, 2] bcast_S16x2048_S16x1x2048_0_2
          (extractStridedSlice S16x2048 ![0, 0] (ar5 m c) slices_S16x2049_S16x2048_0_0) := by
    dsimp only [V, hostOps0]; after_results
  rw [e]; exact cut_recast_apply (ar5 m c) b r

/-- Row 0 of a bias array as [1, 256], read at an index. -/
theorem row0_apply (B : A2 2049 256) (e : Fin 256) :
    extractStridedSlice S1x256 ![0, 0] B slices_S2049x256_S1x256_0_0 (ix2 (0 : Fin 1) e) = B (ix2 (0 : Fin 2049) e) :=
  extractStridedSlice_apply _ _ _ _ _ (fun a => match a with
    | ⟨0, _⟩ => by show 0 = 0 + 0; omega
    | ⟨1, _⟩ => by show e.val = 0 + e.val; omega)

theorem V_v6_apply (c : Dev nD) (e : Fin 256) :
    (V m c main_v6 : S1x256.Idx → EReal) (ix2 (0 : Fin 1) e) = ar7 m c (ix2 (0 : Fin 2049) e) := by
  have h : (V m c main_v6 : S1x256.Idx → EReal)
      = extractStridedSlice S1x256 ![0, 0] (ar7 m c) slices_S2049x256_S1x256_0_0 := by
    dsimp only [V, hostOps0]; after_results
  rw [h]; exact row0_apply (ar7 m c) e

theorem V_v7_apply (c : Dev nD) (e : Fin 256) :
    (V m c main_v7 : S1x256.Idx → EReal) (ix2 (0 : Fin 1) e) = ar9 m c (ix2 (0 : Fin 2049) e) := by
  have h : (V m c main_v7 : S1x256.Idx → EReal)
      = extractStridedSlice S1x256 ![0, 0] (ar9 m c) slices_S2049x256_S1x256_0_0 := by
    dsimp only [V, hostOps0]; after_results
  rw [h]; exact row0_apply (ar9 m c) e

/-! ## The blocks at a point, read at an index -/

/-- Slab t of a [16, 1, 256] token array. -/
theorem iblk0_apply (c : Dev nD) (t : Fin cfg0.N) (d : Fin 256) :
    (iblk m c 0 t : Vec Ideal S1x1x256 .f32) (ix3 (0 : Fin 1) (0 : Fin 1) d) = ar0 m c (ix3 (bt t) (0 : Fin 1) d) := by
  obtain ⟨h, -⟩ := index_facts t
  unfold iblk
  rw [View.read_apply]
  show V m c main_arg0 (((cfg0.win 0).blk t).view.emb (ix3 (0 : Fin 1) (0 : Fin 1) d)) = _
  rw [V_main_arg0]
  refine congrArg (ar0 m c) (funext fun a => Fin.ext ?_)
  match a with
  | ⟨0, _⟩ => show win0_0.index t (0 : Fin 3) * 1 + 1 * 0 = t.val; rw [h]; show t.val * 1 + 1 * 0 = t.val; omega
  | ⟨1, _⟩ => show win0_0.index t (1 : Fin 3) * 1 + 1 * 0 = 0; rw [h]; rfl
  | ⟨2, _⟩ => show win0_0.index t (2 : Fin 3) * 256 + 1 * d.val = d.val; rw [h]; show 0 * 256 + 1 * d.val = d.val; omega

theorem iblk2_apply (c : Dev nD) (t : Fin cfg0.N) (d : Fin 256) :
    (iblk m c 2 t : Vec Ideal S1x1x256 .f32) (ix3 (0 : Fin 1) (0 : Fin 1) d) = ar1 m c (ix3 (bt t) (0 : Fin 1) d) := by
  obtain ⟨-, -, h, -⟩ := index_facts t
  unfold iblk
  rw [View.read_apply]
  show V m c main_arg1 (((cfg0.win 2).blk t).view.emb (ix3 (0 : Fin 1) (0 : Fin 1) d)) = _
  rw [V_main_arg1]
  refine congrArg (ar1 m c) (funext fun a => Fin.ext ?_)
  match a with
  | ⟨0, _⟩ => show win0_2.index t (0 : Fin 3) * 1 + 1 * 0 = t.val; rw [h]; show t.val * 1 + 1 * 0 = t.val; omega
  | ⟨1, _⟩ => show win0_2.index t (1 : Fin 3) * 1 + 1 * 0 = 0; rw [h]; rfl
  | ⟨2, _⟩ => show win0_2.index t (2 : Fin 3) * 256 + 1 * d.val = d.val; rw [h]; show 0 * 256 + 1 * d.val = d.val; omega

/-- Slab t of a [16, 2048, 256] feature array. -/
theorem iblk1_apply (c : Dev nD) (t : Fin cfg0.N) (r : Fin 2048) (d : Fin 256) :
    (iblk m c 1 t : Vec Ideal S1x2048x256 .f32) (ix3 (0 : Fin 1) r d) = ar2 m c (ix3 (bt t) r d) := by
  obtain ⟨-, h, -⟩ := index_facts t
  unfold iblk
  rw [View.read_apply]
  show V m c main_arg2 (((cfg0.win 1).blk t).view.emb (ix3 (0 : Fin 1) r d)) = _
  rw [V_main_arg2]
  refine congrArg (ar2 m c) (funext fun a => Fin.ext ?_)
  match a with
  | ⟨0, _⟩ => show win0_1.index t (0 : Fin 3) * 1 + 1 * 0 = t.val; rw [h]; show t.val * 1 + 1 * 0 = t.val; omega
  | ⟨1, _⟩ => show win0_1.index t (1 : Fin 3) * 2048 + 1 * r.val = r.val; rw [h]; show 0 * 2048 + 1 * r.val = r.val; omega
  | ⟨2, _⟩ => show win0_1.index t (2 : Fin 3) * 256 + 1 * d.val = d.val; rw [h]; show 0 * 256 + 1 * d.val = d.val; omega

theorem iblk3_apply (c : Dev nD) (t : Fin cfg0.N) (r : Fin 2048) (d : Fin 256) :
    (iblk m c 3 t : Vec Ideal S1x2048x256 .f32) (ix3 (0 : Fin 1) r d) = ar3 m c (ix3 (bt t) r d) := by
  obtain ⟨-, -, -, h, -⟩ := index_facts t
  unfold iblk
  rw [View.read_apply]
  show V m c main_arg3 (((cfg0.win 3).blk t).view.emb (ix3 (0 : Fin 1) r d)) = _
  rw [V_main_arg3]
  refine congrArg (ar3 m c) (funext fun a => Fin.ext ?_)
  match a with
  | ⟨0, _⟩ => show win0_3.index t (0 : Fin 3) * 1 + 1 * 0 = t.val; rw [h]; show t.val * 1 + 1 * 0 = t.val; omega
  | ⟨1, _⟩ => show win0_3.index t (1 : Fin 3) * 2048 + 1 * r.val = r.val; rw [h]; show 0 * 2048 + 1 * r.val = r.val; omega
  | ⟨2, _⟩ => show win0_3.index t (2 : Fin 3) * 256 + 1 * d.val = d.val; rw [h]; show 0 * 256 + 1 * d.val = d.val; omega

/-- Row t of a mask, all 2049 columns. -/
theorem iblk4_apply (c : Dev nD) (t : Fin cfg0.N) (n : Fin 2049) :
    (iblk m c 4 t : Vec Ideal S1x1x2049 .f32) (ix3 (0 : Fin 1) (0 : Fin 1) n) = ar4 m c (ix2 (bt t) n) := by
  obtain ⟨-, -, -, -, h, -⟩ := index_facts t
  unfold iblk
  rw [View.read_apply]
  show V m c main_v0 (((cfg0.win 4).blk t).view.emb (ix3 (0 : Fin 1) (0 : Fin 1) n)) = _
  have hi : ((cfg0.win 4).blk t).view.emb (ix3 (0 : Fin 1) (0 : Fin 1) n) = (ix3 (bt t) (0 : Fin 1) n : S16x1x2049.Idx) := by
    funext a; apply Fin.ext
    match a with
    | ⟨0, _⟩ => show win0_4.index t (0 : Fin 3) * 1 + 1 * 0 = t.val; rw [h]; show t.val * 1 + 1 * 0 = t.val; omega
    | ⟨1, _⟩ => show win0_4.index t (1 : Fin 3) * 1 + 1 * 0 = 0; rw [h]; rfl
    | ⟨2, _⟩ => show win0_4.index t (2 : Fin 3) * 2049 + 1 * n.val = n.val; rw [h]; show 0 * 2049 + 1 * n.val = n.val; omega
  exact (congrArg (V m c main_v0 : S16x1x2049.Idx → EReal) hi).trans (V_v0_apply m c (bt t) n)

theorem iblk5_apply (c : Dev nD) (t : Fin cfg0.N) (n : Fin 2049) :
    (iblk m c 5 t : Vec Ideal S1x1x2049 .f32) (ix3 (0 : Fin 1) (0 : Fin 1) n) = ar5 m c (ix2 (bt t) n) := by
  obtain ⟨-, -, -, -, -, h, -⟩ := index_facts t
  unfold iblk
  rw [View.read_apply]
  show V m c main_v1 (((cfg0.win 5).blk t).view.emb (ix3 (0 : Fin 1) (0 : Fin 1) n)) = _
  have hi : ((cfg0.win 5).blk t).view.emb (ix3 (0 : Fin 1) (0 : Fin 1) n) = (ix3 (bt t) (0 : Fin 1) n : S16x1x2049.Idx) := by
    funext a; apply Fin.ext
    match a with
    | ⟨0, _⟩ => show win0_5.index t (0 : Fin 3) * 1 + 1 * 0 = t.val; rw [h]; show t.val * 1 + 1 * 0 = t.val; omega
    | ⟨1, _⟩ => show win0_5.index t (1 : Fin 3) * 1 + 1 * 0 = 0; rw [h]; rfl
    | ⟨2, _⟩ => show win0_5.index t (2 : Fin 3) * 2049 + 1 * n.val = n.val; rw [h]; show 0 * 2049 + 1 * n.val = n.val; omega
  exact (congrArg (V m c main_v1 : S16x1x2049.Idx → EReal) hi).trans (V_v1_apply m c (bt t) n)

/-- Row t of a mask, its first 2048 columns: the masks of the 2048 base rows. -/
theorem iblk6_apply (c : Dev nD) (t : Fin cfg0.N) (r : Fin 2048) :
    (iblk m c 6 t : Vec Ideal S1x1x2048 .f32) (ix3 (0 : Fin 1) (0 : Fin 1) r) = ar4 m c (ix2 (bt t) r.castSucc) := by
  obtain ⟨-, -, -, -, -, -, h, -⟩ := index_facts t
  unfold iblk
  rw [View.read_apply]
  show V m c main_v3 (((cfg0.win 6).blk t).view.emb (ix3 (0 : Fin 1) (0 : Fin 1) r)) = _
  have hi : ((cfg0.win 6).blk t).view.emb (ix3 (0 : Fin 1) (0 : Fin 1) r) = (ix3 (bt t) (0 : Fin 1) r : S16x1x2048.Idx) := by
    funext a; apply Fin.ext
    match a with
    | ⟨0, _⟩ => show win0_6.index t (0 : Fin 3) * 1 + 1 * 0 = t.val; rw [h]; show t.val * 1 + 1 * 0 = t.val; omega
    | ⟨1, _⟩ => show win0_6.index t (1 : Fin 3) * 1 + 1 * 0 = 0; rw [h]; rfl
    | ⟨2, _⟩ => show win0_6.index t (2 : Fin 3) * 2048 + 1 * r.val = r.val; rw [h]; show 0 * 2048 + 1 * r.val = r.val; omega
  exact (congrArg (V m c main_v3 : S16x1x2048.Idx → EReal) hi).trans (V_v3_apply m c (bt t) r)

theorem iblk7_apply (c : Dev nD) (t : Fin cfg0.N) (r : Fin 2048) :
    (iblk m c 7 t : Vec Ideal S1x1x2048 .f32) (ix3 (0 : Fin 1) (0 : Fin 1) r) = ar5 m c (ix2 (bt t) r.castSucc) := by
  obtain ⟨-, -, -, -, -, -, -, h, -⟩ := index_facts t
  unfold iblk
  rw [View.read_apply]
  show V m c main_v5 (((cfg0.win 7).blk t).view.emb (ix3 (0 : Fin 1) (0 : Fin 1) r)) = _
  have hi : ((cfg0.win 7).blk t).view.emb (ix3 (0 : Fin 1) (0 : Fin 1) r) = (ix3 (bt t) (0 : Fin 1) r : S16x1x2048.Idx) := by
    funext a; apply Fin.ext
    match a with
    | ⟨0, _⟩ => show win0_7.index t (0 : Fin 3) * 1 + 1 * 0 = t.val; rw [h]; show t.val * 1 + 1 * 0 = t.val; omega
    | ⟨1, _⟩ => show win0_7.index t (1 : Fin 3) * 1 + 1 * 0 = 0; rw [h]; rfl
    | ⟨2, _⟩ => show win0_7.index t (2 : Fin 3) * 2048 + 1 * r.val = r.val; rw [h]; show 0 * 2048 + 1 * r.val = r.val; omega
  exact (congrArg (V m c main_v5 : S16x1x2048.Idx → EReal) hi).trans (V_v5_apply m c (bt t) r)

/-- A weight matrix whole. -/
theorem iblk8_apply (c : Dev nD) (t : Fin cfg0.N) (d e : Fin 256) :
    (iblk m c 8 t : Vec Ideal S256x256 .f32) (ix2 d e) = ar6 m c (ix2 d e) := by
  obtain ⟨-, -, -, -, -, -, -, -, h, -⟩ := index_facts t
  unfold iblk
  rw [View.read_apply]
  show V m c main_arg6 (((cfg0.win 8).blk t).view.emb (ix2 d e)) = _
  rw [V_main_arg6]
  refine congrArg (ar6 m c) (funext fun a => Fin.ext ?_)
  match a with
  | ⟨0, _⟩ => show win0_8.index t (0 : Fin 2) * 256 + 1 * d.val = d.val; rw [h]; show 0 * 256 + 1 * d.val = d.val; omega
  | ⟨1, _⟩ => show win0_8.index t (1 : Fin 2) * 256 + 1 * e.val = e.val; rw [h]; show 0 * 256 + 1 * e.val = e.val; omega

theorem iblk10_apply (c : Dev nD) (t : Fin cfg0.N) (d e : Fin 256) :
    (iblk m c 10 t : Vec Ideal S256x256 .f32) (ix2 d e) = ar8 m c (ix2 d e) := by
  obtain ⟨-, -, -, -, -, -, -, -, -, -, h, -⟩ := index_facts t
  unfold iblk
  rw [View.read_apply]
  show V m c main_arg8 (((cfg0.win 10).blk t).view.emb (ix2 d e)) = _
  rw [V_main_arg8]
  refine congrArg (ar8 m c) (funext fun a => Fin.ext ?_)
  match a with
  | ⟨0, _⟩ => show win0_10.index t (0 : Fin 2) * 256 + 1 * d.val = d.val; rw [h]; show 0 * 256 + 1 * d.val = d.val; omega
  | ⟨1, _⟩ => show win0_10.index t (1 : Fin 2) * 256 + 1 * e.val = e.val; rw [h]; show 0 * 256 + 1 * e.val = e.val; omega

/-- Row 0 of a bias array. -/
theorem iblk9_apply (c : Dev nD) (t : Fin cfg0.N) (e : Fin 256) :
    (iblk m c 9 t : Vec Ideal S1x256 .f32) (ix2 (0 : Fin 1) e) = ar7 m c (ix2 (0 : Fin 2049) e) := by
  obtain ⟨-, -, -, -, -, -, -, -, -, h, -⟩ := index_facts t
  unfold iblk
  rw [View.read_apply]
  show V m c main_v6 (((cfg0.win 9).blk t).view.emb (ix2 (0 : Fin 1) e)) = _
  have hi : ((cfg0.win 9).blk t).view.emb (ix2 (0 : Fin 1) e) = (ix2 (0 : Fin 1) e : S1x256.Idx) := by
    funext a; apply Fin.ext
    match a with
    | ⟨0, _⟩ => show win0_9.index t (0 : Fin 2) * 1 + 1 * 0 = 0; rw [h]; rfl
    | ⟨1, _⟩ => show win0_9.index t (1 : Fin 2) * 256 + 1 * e.val = e.val; rw [h]; show 0 * 256 + 1 * e.val = e.val; omega
  exact (congrArg (V m c main_v6 : S1x256.Idx → EReal) hi).trans (V_v6_apply m c e)

theorem iblk11_apply (c : Dev nD) (t : Fin cfg0.N) (e : Fin 256) :
    (iblk m c 11 t : Vec Ideal S1x256 .f32) (ix2 (0 : Fin 1) e) = ar9 m c (ix2 (0 : Fin 2049) e) := by
  obtain ⟨-, -, -, -, -, -, -, -, -, -, -, h, -⟩ := index_facts t
  unfold iblk
  rw [View.read_apply]
  show V m c main_v7 (((cfg0.win 11).blk t).view.emb (ix2 (0 : Fin 1) e)) = _
  have hi : ((cfg0.win 11).blk t).view.emb (ix2 (0 : Fin 1) e) = (ix2 (0 : Fin 1) e : S1x256.Idx) := by
    funext a; apply Fin.ext
    match a with
    | ⟨0, _⟩ => show win0_11.index t (0 : Fin 2) * 1 + 1 * 0 = 0; rw [h]; rfl
    | ⟨1, _⟩ => show win0_11.index t (1 : Fin 2) * 256 + 1 * e.val = e.val; rw [h]; show 0 * 256 + 1 * e.val = e.val; omega
  exact (congrArg (V m c main_v7 : S1x256.Idx → EReal) hi).trans (V_v7_apply m c e)

/-! ## The padded graph of point t is the padded graph of batch entry t -/

theorem featB_text (c : Dev nD) (t : Fin cfg0.N) :
    featB (iblk m c 0 t) (iblk m c 1 t) = featPad (ar0 m c) (ar2 m c) (bt t) := by
  funext n d
  unfold featB featPad featOf
  by_cases h0 : n.val = 0
  · have h1 : n.val < 2049 := by omega
    rw [dif_pos h0, dif_pos h1, dif_pos h0]
    exact iblk0_apply m c t d
  · by_cases h1 : n.val < 2049
    · rw [dif_neg h0, dif_pos h1, dif_pos h1, dif_neg h0]
      exact iblk1_apply m c t _ d
    · rw [dif_neg h0, dif_neg h1, dif_neg h1]

theorem featB_img (c : Dev nD) (t : Fin cfg0.N) :
    featB (iblk m c 2 t) (iblk m c 3 t) = featPad (ar1 m c) (ar3 m c) (bt t) := by
  funext n d
  unfold featB featPad featOf
  by_cases h0 : n.val = 0
  · have h1 : n.val < 2049 := by omega
    rw [dif_pos h0, dif_pos h1, dif_pos h0]
    exact iblk2_apply m c t d
  · by_cases h1 : n.val < 2049
    · rw [dif_neg h0, dif_pos h1, dif_pos h1, dif_neg h0]
      exact iblk3_apply m c t _ d
    · rw [dif_neg h0, dif_neg h1, dif_neg h1]

theorem maskB_text (c : Dev nD) (t : Fin cfg0.N) : maskB (iblk m c 4 t) = maskPad (ar4 m c) (bt t) := by
  funext n
  unfold maskB maskPad
  by_cases h1 : n.val < 2049
  · rw [dif_pos h1, dif_pos h1]; exact iblk4_apply m c t _
  · rw [dif_neg h1, dif_neg h1]

theorem maskB_img (c : Dev nD) (t : Fin cfg0.N) : maskB (iblk m c 5 t) = maskPad (ar5 m c) (bt t) := by
  funext n
  unfold maskB maskPad
  by_cases h1 : n.val < 2049
  · rw [dif_pos h1, dif_pos h1]; exact iblk5_apply m c t _
  · rw [dif_neg h1, dif_neg h1]

theorem wB_text (c : Dev nD) (t : Fin cfg0.N) : wB (iblk m c 8 t) = wOf (ar6 m c) :=
  funext fun d => funext fun e => iblk8_apply m c t d e
theorem wB_img (c : Dev nD) (t : Fin cfg0.N) : wB (iblk m c 10 t) = wOf (ar8 m c) :=
  funext fun d => funext fun e => iblk10_apply m c t d e
theorem bB_text (c : Dev nD) (t : Fin cfg0.N) : bB (iblk m c 9 t) = biasOf (ar7 m c) :=
  funext fun e => iblk9_apply m c t e
theorem bB_img (c : Dev nD) (t : Fin cfg0.N) : bB (iblk m c 11 t) = biasOf (ar9 m c) :=
  funext fun e => iblk11_apply m c t e

/-- So the blended token read off the blocks of point t is batch entry t's. -/
theorem gB_eq (c : Dev nD) (t : Fin cfg0.N) (e : Fin 256) :
    gB (iblk m c 0 t) (iblk m c 1 t) (iblk m c 2 t) (iblk m c 3 t) (iblk m c 4 t) (iblk m c 5 t) (iblk m c 8 t)
        (iblk m c 9 t) (iblk m c 10 t) (iblk m c 11 t) e
      = gK (ar0 m c) (ar1 m c) (ar2 m c) (ar3 m c) (ar4 m c) (ar5 m c) (ar6 m c) (ar7 m c) (ar8 m c) (ar9 m c) (bt t) e := by
  unfold gB gK
  rw [featB_text, featB_img, maskB_text, maskB_img, wB_text, wB_img, bB_text, bB_img]

/-! ## The 16 slabs cover an output array -/

/-- An index of a [16, 2048, 256] output array is in point t's block iff each coordinate is in the block's range. -/
theorem mem_blk12 (t : Fin cfg0.N) (i : S16x2048x256.Idx) :
    i ∈ ((cfg0.win 12).blk t).view.set ↔ ∀ a : Fin 3, win0_12.index t a * S1x2048x256.size a ≤ (i a).val
      ∧ (i a).val < win0_12.index t a * S1x2048x256.size a + S1x2048x256.size a := by
  show i ∈ ((View.whole main_v8_0).slice (win0_12.rect t)).set ↔ _
  rw [View.set_slice_whole, Rect.mem_set_unit]
  exact Iff.rfl

theorem mem_blk13 (t : Fin cfg0.N) (i : S16x2048x256.Idx) :
    i ∈ ((cfg0.win 13).blk t).view.set ↔ ∀ a : Fin 3, win0_13.index t a * S1x2048x256.size a ≤ (i a).val
      ∧ (i a).val < win0_13.index t a * S1x2048x256.size a + S1x2048x256.size a := by
  show i ∈ ((View.whole main_v8_1).slice (win0_13.rect t)).set ↔ _
  rw [View.set_slice_whole, Rect.mem_set_unit]
  exact Iff.rfl

/-- The point whose block holds index i is its batch coordinate. -/
def ptOf (i : S16x2048x256.Idx) : Fin cfg0.N := Fin.cast N_0.symm (i 0)

theorem cover12 (i : S16x2048x256.Idx) :
    ∃ t : Fin cfg0.N, (cfg0.win 12).flush t = true ∧ i ∈ ((cfg0.win 12).blk t).view.set := by
  obtain ⟨-, -, -, -, -, -, -, -, -, -, -, -, h, -⟩ := index_facts (ptOf i)
  refine ⟨ptOf i, flush0_12 _, ?_⟩
  rw [mem_blk12]
  have hi1 : (i 1).val < 2048 := (i 1).isLt
  have hi2 : (i 2).val < 256 := (i 2).isLt
  intro a
  match a with
  | ⟨0, _⟩ => show win0_12.index (ptOf i) (0 : Fin 3) * 1 ≤ (i 0).val ∧ (i 0).val < win0_12.index (ptOf i) (0 : Fin 3) * 1 + 1
              rw [h]; show (i 0).val * 1 ≤ (i 0).val ∧ (i 0).val < (i 0).val * 1 + 1; omega
  | ⟨1, _⟩ => show win0_12.index (ptOf i) (1 : Fin 3) * 2048 ≤ (i 1).val ∧ (i 1).val < win0_12.index (ptOf i) (1 : Fin 3) * 2048 + 2048
              rw [h]; show 0 * 2048 ≤ (i 1).val ∧ (i 1).val < 0 * 2048 + 2048; omega
  | ⟨2, _⟩ => show win0_12.index (ptOf i) (2 : Fin 3) * 256 ≤ (i 2).val ∧ (i 2).val < win0_12.index (ptOf i) (2 : Fin 3) * 256 + 256
              rw [h]; show 0 * 256 ≤ (i 2).val ∧ (i 2).val < 0 * 256 + 256; omega

theorem cover13 (i : S16x2048x256.Idx) :
    ∃ t : Fin cfg0.N, (cfg0.win 13).flush t = true ∧ i ∈ ((cfg0.win 13).blk t).view.set := by
  obtain ⟨-, -, -, -, -, -, -, -, -, -, -, -, -, h⟩ := index_facts (ptOf i)
  refine ⟨ptOf i, flush0_13 _, ?_⟩
  rw [mem_blk13]
  have hi1 : (i 1).val < 2048 := (i 1).isLt
  have hi2 : (i 2).val < 256 := (i 2).isLt
  intro a
  match a with
  | ⟨0, _⟩ => show win0_13.index (ptOf i) (0 : Fin 3) * 1 ≤ (i 0).val ∧ (i 0).val < win0_13.index (ptOf i) (0 : Fin 3) * 1 + 1
              rw [h]; show (i 0).val * 1 ≤ (i 0).val ∧ (i 0).val < (i 0).val * 1 + 1; omega
  | ⟨1, _⟩ => show win0_13.index (ptOf i) (1 : Fin 3) * 2048 ≤ (i 1).val ∧ (i 1).val < win0_13.index (ptOf i) (1 : Fin 3) * 2048 + 2048
              rw [h]; show 0 * 2048 ≤ (i 1).val ∧ (i 1).val < 0 * 2048 + 2048; omega
  | ⟨2, _⟩ => show win0_13.index (ptOf i) (2 : Fin 3) * 256 ≤ (i 2).val ∧ (i 2).val < win0_13.index (ptOf i) (2 : Fin 3) * 256 + 256
              rw [h]; show 0 * 256 ≤ (i 2).val ∧ (i 2).val < 0 * 256 + 256; omega

/-! ## The two output arrays -/

/-- The fused outputs entry by entry: half the base features plus half the batch entry's blended token, times the
    base row's mask. -/
def G12 (c : Dev nD) : S16x2048x256.Idx → EReal := fun i =>
  fuse (ar2 m c) (ar4 m c) (gK (ar0 m c) (ar1 m c) (ar2 m c) (ar3 m c) (ar4 m c) (ar5 m c) (ar6 m c) (ar7 m c) (ar8 m c) (ar9 m c)) (i 0) (i 1) (i 2)
def G13 (c : Dev nD) : S16x2048x256.Idx → EReal := fun i =>
  fuse (ar3 m c) (ar5 m c) (gK (ar0 m c) (ar1 m c) (ar2 m c) (ar3 m c) (ar4 m c) (ar5 m c) (ar6 m c) (ar7 m c) (ar8 m c) (ar9 m c)) (i 0) (i 1) (i 2)

theorem G12_apply (c : Dev nD) (b : Fin 16) (r : Fin 2048) (e : Fin 256) :
    G12 m c (ix3 b r e) = (half * ar2 m c (ix3 b r e) + half * gK (ar0 m c) (ar1 m c) (ar2 m c) (ar3 m c) (ar4 m c) (ar5 m c) (ar6 m c) (ar7 m c) (ar8 m c) (ar9 m c) b e) * ar4 m c (ix2 b r.castSucc) := rfl
theorem G13_apply (c : Dev nD) (b : Fin 16) (r : Fin 2048) (e : Fin 256) :
    G13 m c (ix3 b r e) = (half * ar3 m c (ix3 b r e) + half * gK (ar0 m c) (ar1 m c) (ar2 m c) (ar3 m c) (ar4 m c) (ar5 m c) (ar6 m c) (ar7 m c) (ar8 m c) (ar9 m c) b e) * ar5 m c (ix2 b r.castSucc) := rfl

/-- Point t writes slab t of the first fused output. -/
theorem pay12_at (c : Dev nD) (t : Fin cfg0.N) (r : Fin 2048) (e : Fin 256) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 (0 : Fin 1) r e)
      = G12 m c (ix3 (bt t) r e) := by
  refine (out12_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r e).trans ?_
  rw [iblk1_apply, gB_eq, iblk6_apply, G12_apply]

theorem flushed12_eq (c : Dev nD) (t : Fin cfg0.N) :
    (dats m 0 c).flushed 12 t = ((cfg0.win 12).blk t).view.read (Elt Ideal) (G12 m c) := by
  have h : win0_12.index t = ![t.val, 0, 0] := by
    obtain ⟨-, -, -, -, -, -, -, -, -, -, -, -, h12, h13⟩ := index_facts t; exact h12
  rw [Value.flushed12]
  funext y
  obtain ⟨r, e, rfl⟩ : ∃ (r : Fin 2048) (e : Fin 256), y = ix3 (0 : Fin 1) r e :=
    ⟨y 1, y 2, funext fun a => match a with
      | ⟨0, _⟩ => Fin.ext (by show (y 0).val = 0; have h0 : (y 0).val < 1 := (y 0).isLt; omega)
      | ⟨1, _⟩ => rfl
      | ⟨2, _⟩ => rfl⟩
  rw [View.read_apply]
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 (0 : Fin 1) r e)
    = G12 m c (((cfg0.win 12).blk t).view.emb (ix3 (0 : Fin 1) r e))
  have hi : ((cfg0.win 12).blk t).view.emb (ix3 (0 : Fin 1) r e) = (ix3 (bt t) r e : S16x2048x256.Idx) := by
    funext a; apply Fin.ext
    match a with
    | ⟨0, _⟩ => show win0_12.index t (0 : Fin 3) * 1 + 1 * 0 = t.val; rw [h]; show t.val * 1 + 1 * 0 = t.val; omega
    | ⟨1, _⟩ => show win0_12.index t (1 : Fin 3) * 2048 + 1 * r.val = r.val; rw [h]; show 0 * 2048 + 1 * r.val = r.val; omega
    | ⟨2, _⟩ => show win0_12.index t (2 : Fin 3) * 256 + 1 * e.val = e.val; rw [h]; show 0 * 256 + 1 * e.val = e.val; omega
  rw [hi]
  exact pay12_at m c t r e

/-- The first output array after the run. -/
theorem final12 (c : Dev nD) : (dats m 0 c).arrAt 12 cfg0.N = G12 m c :=
  (dats m 0 c).arrAt_eq_of_cover 12 (G12 m c) (fun t _ => flushed12_eq m c t) (fun i => cover12 i)

/-- Point t writes slab t of the second fused output. -/
theorem pay13_at (c : Dev nD) (t : Fin cfg0.N) (r : Fin 2048) (e : Fin 256) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 (0 : Fin 1) r e)
      = G13 m c (ix3 (bt t) r e) := by
  refine (out13_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r e).trans ?_
  rw [iblk3_apply, gB_eq, iblk7_apply, G13_apply]

theorem flushed13_eq (c : Dev nD) (t : Fin cfg0.N) :
    (dats m 0 c).flushed 13 t = ((cfg0.win 13).blk t).view.read (Elt Ideal) (G13 m c) := by
  have h : win0_13.index t = ![t.val, 0, 0] := by
    obtain ⟨-, -, -, -, -, -, -, -, -, -, -, -, h12, h13⟩ := index_facts t; exact h13
  rw [Value.flushed13]
  funext y
  obtain ⟨r, e, rfl⟩ : ∃ (r : Fin 2048) (e : Fin 256), y = ix3 (0 : Fin 1) r e :=
    ⟨y 1, y 2, funext fun a => match a with
      | ⟨0, _⟩ => Fin.ext (by show (y 0).val = 0; have h0 : (y 0).val < 1 := (y 0).isLt; omega)
      | ⟨1, _⟩ => rfl
      | ⟨2, _⟩ => rfl⟩
  rw [View.read_apply]
  show out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 (0 : Fin 1) r e)
    = G13 m c (((cfg0.win 13).blk t).view.emb (ix3 (0 : Fin 1) r e))
  have hi : ((cfg0.win 13).blk t).view.emb (ix3 (0 : Fin 1) r e) = (ix3 (bt t) r e : S16x2048x256.Idx) := by
    funext a; apply Fin.ext
    match a with
    | ⟨0, _⟩ => show win0_13.index t (0 : Fin 3) * 1 + 1 * 0 = t.val; rw [h]; show t.val * 1 + 1 * 0 = t.val; omega
    | ⟨1, _⟩ => show win0_13.index t (1 : Fin 3) * 2048 + 1 * r.val = r.val; rw [h]; show 0 * 2048 + 1 * r.val = r.val; omega
    | ⟨2, _⟩ => show win0_13.index t (2 : Fin 3) * 256 + 1 * e.val = e.val; rw [h]; show 0 * 256 + 1 * e.val = e.val; omega
  rw [hi]
  exact pay13_at m c t r e

/-- The second output array after the run. -/
theorem final13 (c : Dev nD) : (dats m 0 c).arrAt 13 cfg0.N = G13 m c :=
  (dats m 0 c).arrAt_eq_of_cover 13 (G13 m c) (fun t _ => flushed13_eq m c t) (fun i => cover13 i)

/-! ## The run -/

/-- The kernel's run: the two result arrays at the fused outputs, the ten arguments unchanged. -/
theorem run : θ_run defs (onTc (τ := τ) (main (F := Ideal))) ⟨m, fun _ => 0, ρ⟩ fun r => ∀ c : Dev nD,
      r.2.mem ((c : Thread nD τ).loc main_v8_0) = G12 m c
      ∧ r.2.mem ((c : Thread nD τ).loc main_v8_1) = G13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final12 m c), (h c).2.1.trans (final13 m c), (h c).2.2⟩)
    (Cert.KernelIdeal.Value.run_blocks m ρ)

end GraphFuse.Ker

end
-- ==== Proof.RefRead.lean ====
/-
  The reference program read entry by entry: each of its two outputs, at batch entry b, row r and
  feature e, is the fused value of the specification, with the blended token computed by the first
  reading of the graph layer (projected first, then aggregated; degrees by a power -1/2).

  The lemmas follow the program from the inside out, first for the text graph and then, by the same
  steps, for the image graph: the node features (the token prepended to the base features); a feature
  column's squared norm and its bounded norm; the normalised, masked features; the edge similarity;
  the identity matrix's entry; the rectified similarity plus the identity; the column-masked adjacency
  entry; a row sum; a degree; the doubly normalised adjacency; the projected features; the aggregated
  layer at a node and feature; the layer at node 0. Then the blend of the two layers at node 0, the
  token tiled over the rows, and the two fused outputs.
-/
import proofs.«179044_j54949811585484_2_alg».proof.Proof.Gen.ReferenceIdeal.Read
import proofs.«179044_j54949811585484_2_alg».proof.Proof.Spec
import Idealize.ShloMosaic.Lib.ValueIdx
import Idealize.ShloMosaic.Lib.ValueIdxRank6
import Idealize.ShloMosaic.Lib.Pipeline.Value
import Idealize.ShloMosaic.Lib.ValueLayout
import Idealize.ShloMosaic.PureOps.Ideal.Laws

noncomputable section

open scoped BigOperators

namespace GraphFuse.Ref

open Cert.ReferenceIdeal Cert.ReferenceIdeal.Gen Cert.ReferenceIdeal.Read Idealize.ShloMosaic Idealize.ShloMosaic.ValueIdx
  Idealize.ShloMosaic.StableHlo

/-- Two index functions of rank 2 (rank 3) with the same coordinates are equal. -/
local macro "idx2" : tactic =>
  `(tactic| exact funext fun a => Fin.ext (by match a with | ⟨0, _⟩ => rfl | ⟨1, _⟩ => rfl))
local macro "idx3" : tactic =>
  `(tactic| exact funext fun a => Fin.ext (by match a with | ⟨0, _⟩ => rfl | ⟨1, _⟩ => rfl | ⟨2, _⟩ => rfl))

/-- An entry of the identity matrix as the program builds it: the row number (plus the zero word) is
    compared with the column number as 32-bit words, and the one-bit answer is converted to a float.
    Both numbers are below 2049, so the words are equal exactly when the numbers are. -/
theorem eye_entry (n m : Fin 2049) :
    FloatOps.uitofp (F := Ideal) .f32 (IntOp.cmpi .eq (IntOp.addi (BitVec.ofNat 32 n.val) 0#32) (BitVec.ofNat 32 m.val))
      = if n = m then (1 : EReal) else 0 := by
  show (((IntOp.cmpi .eq (IntOp.addi (BitVec.ofNat 32 n.val) 0#32) (BitVec.ofNat 32 m.val)).toNat : ℝ) : EReal) = _
  have hadd : IntOp.addi (BitVec.ofNat 32 n.val) 0#32 = BitVec.ofNat 32 n.val := by simp [IntOp.addi]
  rw [hadd]
  by_cases h : n = m
  · subst h; simp [IntOp.cmpi]
  · have hne : BitVec.ofNat 32 n.val ≠ BitVec.ofNat 32 m.val := by
      intro he
      apply h
      have h1 := congrArg BitVec.toNat he
      simp only [BitVec.toNat_ofNat] at h1
      have hn := n.isLt
      have hm := m.isLt
      exact Fin.ext (by omega)
    simp [IntOp.cmpi, h, hne]

variable (x0 x1 : (⟨S16x1x256, .f32⟩ : BufTy).Contents (Elt Ideal))
  (x2 x3 : (⟨S16x2048x256, .f32⟩ : BufTy).Contents (Elt Ideal))
  (x4 x5 : (⟨S16x2049, .f32⟩ : BufTy).Contents (Elt Ideal))
  (x6 : (⟨S256x256, .f32⟩ : BufTy).Contents (Elt Ideal)) (x7 : (⟨S2049x256, .f32⟩ : BufTy).Contents (Elt Ideal))
  (x8 : (⟨S256x256, .f32⟩ : BufTy).Contents (Elt Ideal)) (x9 : (⟨S2049x256, .f32⟩ : BufTy).Contents (Elt Ideal))

/-! ## The text graph -/

/-- Node 0 of the concatenation is the token, node n ≥ 1 is row n − 1 of the base features. -/
theorem feat_text (b : Fin 16) (n : Fin 2049) (d : Fin 256) :
    val_main_v0 (F := Ideal) x0 x2 (ix3 b n d) = featOf x0 x2 b n d := by
  unfold val_main_v0 featOf
  by_cases h : n.val = 0
  · rw [dif_pos h]
    exact concatenate_pair_apply_left (1 : Fin 3) x0 x2 concatenates_S16x1x256_S16x2048x256_S16x2049x256_d1 (ix3 b n d) rfl
      (ix3 b (0 : Fin 1) d) (fun a => match a with
        | ⟨0, _⟩ => rfl
        | ⟨1, _⟩ => h.symm
        | ⟨2, _⟩ => rfl)
  · rw [dif_neg h]
    exact concatenate_pair_apply_right (1 : Fin 3) x0 x2 concatenates_S16x1x256_S16x2048x256_S16x2049x256_d1 (ix3 b n d) rfl rfl
      (ix3 b (⟨n.val - 1, by omega⟩ : Fin 2048) d) (fun a ha => match a, ha with
        | ⟨0, _⟩, _ => rfl
        | ⟨1, _⟩, ha => absurd rfl ha
        | ⟨2, _⟩, _ => rfl)
      (by show n.val - 1 + 1 = n.val; omega)

/-- The squared norm of feature column d over the nodes: the sum starts from the zero word. -/
theorem colSq_text (b : Fin 16) (d : Fin 256) :
    val_main_v3 (F := Ideal) x0 x2 (ix2 b d) = ∑ k : Fin 2049, featOf x0 x2 b k d * featOf x0 x2 b k d := by
  rw [val_main_v3_apply, val_main_cst_apply, Ideal.ofBits_def, Ideal.ofBits_zero_f32, zero_add]
  refine Finset.sum_congr rfl fun k _ => ?_
  have e : idx_main_v3 (ix2 b d) k = ix3 b k d := by idx3
  rw [e, val_main_v2_apply, Ideal.mulf_def, feat_text]

/-- The norm of feature column d, bounded below. -/
theorem colNorm_text (b : Fin 16) (d : Fin 256) :
    val_main_v7 (F := Ideal) x0 x2 (ix3 b (0 : Fin 1) d) = colNorm (featOf x0 x2 b) d := by
  have e4 : idx_main_v4 (ix3 b (0 : Fin 1) d) = ix2 b d := by idx2
  rw [val_main_v7_apply, val_main_v5_apply, val_main_v4_apply, e4, colSq_text, val_main_v6_apply, val_main_cst_0_apply]
  rfl

/-- The normalised, masked features: the column's norm is read at every node, the node's mask at every feature. -/
theorem xn_text (b : Fin 16) (n : Fin 2049) (d : Fin 256) :
    val_main_v12 (F := Ideal) x0 x2 x4 (ix3 b n d) = xn (featOf x0 x2 b) (maskOf x4 b) n d := by
  have e8 : idx_main_v8 (ix3 b n d) = ix3 b (0 : Fin 1) d := by idx3
  have e11 : idx_main_v11 (ix3 b n d) = ix3 b n (0 : Fin 1) := by idx3
  have e10 : idx_main_v10 (ix3 b n (0 : Fin 1)) = ix2 b n := by idx2
  rw [val_main_v12_apply, val_main_v9_apply, val_main_v8_apply, e8, colNorm_text, feat_text, val_main_v11_apply, e11,
    val_main_v10_apply, e10]
  rfl

/-- The edge similarity of nodes n and m: the contraction runs over the features. -/
theorem edge_text (b : Fin 16) (n m : Fin 2049) :
    val_main_v13 (F := Ideal) x0 x2 x4 (ix3 b n m) = edge (featOf x0 x2 b) (maskOf x4 b) n m := by
  rw [val_main_v13_apply]
  unfold edge
  refine Finset.sum_congr rfl fun k _ => ?_
  have el : lidx_main_v13 (ix3 b n m) k = ix3 b n k := by idx3
  have er : ridx_main_v13 (ix3 b n m) k = ix3 b m k := by idx3
  rw [el, er]
  simp only [xn_text]

/-- The identity matrix at (n, m). -/
theorem eye_text (n m : Fin 2049) : val_main_v32 (F := Ideal) (ix2 n m) = if n = m then (1 : EReal) else 0 := by
  rw [val_main_v32_apply, val_main_v31_apply, val_main_v30_apply, val_main_v27_apply, val_main_v28_apply, val_main_v29_apply,
    val_main_c_apply]
  exact eye_entry n m

/-- The rectified similarity plus the identity: the program's clip is the maximum of 0 and x. -/
theorem adjPre_text (b : Fin 16) (n m : Fin 2049) :
    val_main_v35 (F := Ideal) x0 x2 x4 (ix3 b n m)
      = relu (edge (featOf x0 x2 b) (maskOf x4 b) n m) + (if n = m then 1 else 0) := by
  have e34 : idx_main_v34 (ix3 b n m) = ix3 (0 : Fin 1) n m := by idx3
  have e33 : idx_main_v33 (ix3 (0 : Fin 1) n m) = ix2 n m := by idx2
  rw [val_main_v35_apply, val_main_v26_apply, val_main_call0_v1_apply, val_main_call0_v0_apply, val_main_cst_3_apply, edge_text,
    val_main_v34_apply, e34, val_main_v33_apply, e33, eye_text, Ideal.ofBits_def, Ideal.ofBits_zero_f32, Ideal.maximumf_def,
    Ideal.addf_def, max_comm]
  rfl

/-- An entry of the column-masked adjacency: column m carries node m's mask. -/
theorem adjEntry_text (b : Fin 16) (n m : Fin 2049) :
    val_main_v38 (F := Ideal) x0 x2 x4 (ix3 b n m) = adjEntry (featOf x0 x2 b) (maskOf x4 b) n m := by
  have e37 : idx_main_v37 (ix3 b n m) = ix3 b (0 : Fin 1) m := by idx3
  have e36 : idx_main_v36 (ix3 b (0 : Fin 1) m) = ix2 b m := by idx2
  rw [val_main_v38_apply, adjPre_text, val_main_v37_apply, e37, val_main_v36_apply, e36]
  rfl

/-- The sum of row n of the adjacency. -/
theorem rowSum_text (b : Fin 16) (n : Fin 2049) :
    val_main_v39 (F := Ideal) x0 x2 x4 (ix2 b n) = rowSum (featOf x0 x2 b) (maskOf x4 b) n := by
  rw [val_main_v39_apply, val_main_cst_4_apply, Ideal.ofBits_def, Ideal.ofBits_zero_f32, zero_add]
  unfold rowSum
  refine Finset.sum_congr rfl fun k _ => ?_
  have e : idx_main_v39 (ix2 b n) k = ix3 b n k := by idx3
  rw [e, adjEntry_text]

/-- The degree of node n: its row sum, shifted by the small constant, to the power −1/2. -/
theorem deg_text (b : Fin 16) (n : Fin 2049) :
    val_main_v43 (F := Ideal) x0 x2 x4 (ix2 b n) = deg (featOf x0 x2 b) (maskOf x4 b) n := by
  rw [val_main_v43_apply, val_main_v41_apply, rowSum_text, val_main_v40_apply, val_main_cst_5_apply, val_main_v42_apply,
    val_main_cst_6_apply]
  rfl

/-- The doubly normalised adjacency: row n carries node n's degree, column m node m's. -/
theorem adjNorm_text (b : Fin 16) (n m : Fin 2049) :
    val_main_v49 (F := Ideal) x0 x2 x4 (ix3 b n m) = adjNorm (featOf x0 x2 b) (maskOf x4 b) n m := by
  have e45 : idx_main_v45 (ix3 b n m) = ix3 b n (0 : Fin 1) := by idx3
  have e44 : idx_main_v44 (ix3 b n (0 : Fin 1)) = ix2 b n := by idx2
  have e48 : idx_main_v48 (ix3 b n m) = ix3 b (0 : Fin 1) m := by idx3
  have e47 : idx_main_v47 (ix3 b (0 : Fin 1) m) = ix2 b m := by idx2
  rw [val_main_v49_apply, val_main_v46_apply, val_main_v45_apply, e45, val_main_v44_apply, e44, adjEntry_text,
    val_main_v48_apply, e48, val_main_v47_apply, e47]
  simp only [deg_text]
  rfl

/-- The projected features of node m: the contraction runs over the input features. -/
theorem preSup_text (b : Fin 16) (m : Fin 2049) (e : Fin 256) :
    val_main_v50 (F := Ideal) x0 x2 x6 (ix3 b m e) = preSup (featOf x0 x2 b) (wOf x6) m e := by
  rw [val_main_v50_apply]
  unfold preSup
  refine Finset.sum_congr rfl fun k _ => ?_
  have el : lidx_main_v50 (ix3 b m e) k = ix3 b m k := by idx3
  have er : ridx_main_v50 (ix3 b m e) k = ix2 k e := by idx2
  rw [el, er, feat_text]
  rfl

/-- The aggregation at node n and feature e: the contraction runs over the nodes. -/
theorem agg_text (b : Fin 16) (n : Fin 2049) (e : Fin 256) :
    val_main_v51 (F := Ideal) x0 x2 x4 x6 (ix3 b n e)
      = ∑ m : Fin 2049, adjNorm (featOf x0 x2 b) (maskOf x4 b) n m * preSup (featOf x0 x2 b) (wOf x6) m e := by
  rw [val_main_v51_apply]
  refine Finset.sum_congr rfl fun k _ => ?_
  have el : lidx_main_v51 (ix3 b n e) k = ix3 b n k := by idx3
  have er : ridx_main_v51 (ix3 b n e) k = ix3 b k e := by idx3
  rw [el, er, adjNorm_text, preSup_text]

/-- The layer at node 0: the bias is row 0 of the bias array, the mask node 0's. -/
theorem layer_text (b : Fin 16) (e : Fin 256) :
    val_main_v58 (F := Ideal) x0 x2 x4 x6 x7 (ix3 b (0 : Fin 2049) e)
      = outRef (featOf x0 x2 b) (maskOf x4 b) (wOf x6) (biasOf x7) 0 e := by
  have e53 : idx_main_v53 (ix3 b (0 : Fin 2049) e) = ix3 (0 : Fin 1) (0 : Fin 2049) e := by idx3
  have e52 : idx_main_v52 (ix3 (0 : Fin 1) (0 : Fin 2049) e) = ix2 (0 : Fin 2049) e := by idx2
  have e57 : idx_main_v57 (ix3 b (0 : Fin 2049) e) = ix3 b (0 : Fin 2049) (0 : Fin 1) := by idx3
  have e56 : idx_main_v56 (ix3 b (0 : Fin 2049) (0 : Fin 1)) = ix2 b (0 : Fin 2049) := by idx2
  rw [val_main_v58_apply, val_main_v55_apply, val_main_v54_apply, agg_text, val_main_v53_apply, e53, val_main_v52_apply, e52,
    val_main_v57_apply, e57, val_main_v56_apply, e56]
  rfl

/-! ## The image graph, by the same steps -/

/-- Node 0 of the concatenation is the token, node n ≥ 1 is row n − 1 of the base features. -/
theorem feat_img (b : Fin 16) (n : Fin 2049) (d : Fin 256) :
    val_main_v1 (F := Ideal) x1 x3 (ix3 b n d) = featOf x1 x3 b n d := by
  unfold val_main_v1 featOf
  by_cases h : n.val = 0
  · rw [dif_pos h]
    exact concatenate_pair_apply_left (1 : Fin 3) x1 x3 concatenates_S16x1x256_S16x2048x256_S16x2049x256_d1 (ix3 b n d) rfl
      (ix3 b (0 : Fin 1) d) (fun a => match a with
        | ⟨0, _⟩ => rfl
        | ⟨1, _⟩ => h.symm
        | ⟨2, _⟩ => rfl)
  · rw [dif_neg h]
    exact concatenate_pair_apply_right (1 : Fin 3) x1 x3 concatenates_S16x1x256_S16x2048x256_S16x2049x256_d1 (ix3 b n d) rfl rfl
      (ix3 b (⟨n.val - 1, by omega⟩ : Fin 2048) d) (fun a ha => match a, ha with
        | ⟨0, _⟩, _ => rfl
        | ⟨1, _⟩, ha => absurd rfl ha
        | ⟨2, _⟩, _ => rfl)
      (by show n.val - 1 + 1 = n.val; omega)

/-- The squared norm of feature column d over the nodes: the sum starts from the zero word. -/
theorem colSq_img (b : Fin 16) (d : Fin 256) :
    val_main_v15 (F := Ideal) x1 x3 (ix2 b d) = ∑ k : Fin 2049, featOf x1 x3 b k d * featOf x1 x3 b k d := by
  rw [val_main_v15_apply, val_main_cst_1_apply, Ideal.ofBits_def, Ideal.ofBits_zero_f32, zero_add]
  refine Finset.sum_congr rfl fun k _ => ?_
  have e : idx_main_v15 (ix2 b d) k = ix3 b k d := by idx3
  rw [e, val_main_v14_apply, Ideal.mulf_def, feat_img]

/-- The norm of feature column d, bounded below. -/
theorem colNorm_img (b : Fin 16) (d : Fin 256) :
    val_main_v19 (F := Ideal) x1 x3 (ix3 b (0 : Fin 1) d) = colNorm (featOf x1 x3 b) d := by
  have e4 : idx_main_v16 (ix3 b (0 : Fin 1) d) = ix2 b d := by idx2
  rw [val_main_v19_apply, val_main_v17_apply, val_main_v16_apply, e4, colSq_img, val_main_v18_apply, val_main_cst_2_apply]
  rfl

/-- The normalised, masked features: the column's norm is read at every node, the node's mask at every feature. -/
theorem xn_img (b : Fin 16) (n : Fin 2049) (d : Fin 256) :
    val_main_v24 (F := Ideal) x1 x3 x5 (ix3 b n d) = xn (featOf x1 x3 b) (maskOf x5 b) n d := by
  have e8 : idx_main_v20 (ix3 b n d) = ix3 b (0 : Fin 1) d := by idx3
  have e11 : idx_main_v23 (ix3 b n d) = ix3 b n (0 : Fin 1) := by idx3
  have e10 : idx_main_v22 (ix3 b n (0 : Fin 1)) = ix2 b n := by idx2
  rw [val_main_v24_apply, val_main_v21_apply, val_main_v20_apply, e8, colNorm_img, feat_img, val_main_v23_apply, e11,
    val_main_v22_apply, e10]
  rfl

/-- The edge similarity of nodes n and m: the contraction runs over the features. -/
theorem edge_img (b : Fin 16) (n m : Fin 2049) :
    val_main_v25 (F := Ideal) x1 x3 x5 (ix3 b n m) = edge (featOf x1 x3 b) (maskOf x5 b) n m := by
  rw [val_main_v25_apply]
  unfold edge
  refine Finset.sum_congr rfl fun k _ => ?_
  have el : lidx_main_v25 (ix3 b n m) k = ix3 b n k := by idx3
  have er : ridx_main_v25 (ix3 b n m) k = ix3 b m k := by idx3
  rw [el, er]
  simp only [xn_img]

/-- The identity matrix at (n, m). -/
theorem eye_img (n m : Fin 2049) : val_main_v66 (F := Ideal) (ix2 n m) = if n = m then (1 : EReal) else 0 := by
  rw [val_main_v66_apply, val_main_v65_apply, val_main_v64_apply, val_main_v61_apply, val_main_v62_apply, val_main_v63_apply,
    val_main_c_8_apply]
  exact eye_entry n m

/-- The rectified similarity plus the identity: the program's clip is the maximum of 0 and x. -/
theorem adjPre_img (b : Fin 16) (n m : Fin 2049) :
    val_main_v69 (F := Ideal) x1 x3 x5 (ix3 b n m)
      = relu (edge (featOf x1 x3 b) (maskOf x5 b) n m) + (if n = m then 1 else 0) := by
  have e34 : idx_main_v68 (ix3 b n m) = ix3 (0 : Fin 1) n m := by idx3
  have e33 : idx_main_v67 (ix3 (0 : Fin 1) n m) = ix2 n m := by idx2
  rw [val_main_v69_apply, val_main_v60_apply, val_main_call1_v1_apply, val_main_call1_v0_apply, val_main_cst_7_apply, edge_img,
    val_main_v68_apply, e34, val_main_v67_apply, e33, eye_img, Ideal.ofBits_def, Ideal.ofBits_zero_f32, Ideal.maximumf_def,
    Ideal.addf_def, max_comm]
  rfl

/-- An entry of the column-masked adjacency: column m carries node m's mask. -/
theorem adjEntry_img (b : Fin 16) (n m : Fin 2049) :
    val_main_v72 (F := Ideal) x1 x3 x5 (ix3 b n m) = adjEntry (featOf x1 x3 b) (maskOf x5 b) n m := by
  have e37 : idx_main_v71 (ix3 b n m) = ix3 b (0 : Fin 1) m := by idx3
  have e36 : idx_main_v70 (ix3 b (0 : Fin 1) m) = ix2 b m := by idx2
  rw [val_main_v72_apply, adjPre_img, val_main_v71_apply, e37, val_main_v70_apply, e36]
  rfl

/-- The sum of row n of the adjacency. -/
theorem rowSum_img (b : Fin 16) (n : Fin 2049) :
    val_main_v73 (F := Ideal) x1 x3 x5 (ix2 b n) = rowSum (featOf x1 x3 b) (maskOf x5 b) n := by
  rw [val_main_v73_apply, val_main_cst_9_apply, Ideal.ofBits_def, Ideal.ofBits_zero_f32, zero_add]
  unfold rowSum
  refine Finset.sum_congr rfl fun k _ => ?_
  have e : idx_main_v73 (ix2 b n) k = ix3 b n k := by idx3
  rw [e, adjEntry_img]

/-- The degree of node n: its row sum, shifted by the small constant, to the power −1/2. -/
theorem deg_img (b : Fin 16) (n : Fin 2049) :
    val_main_v77 (F := Ideal) x1 x3 x5 (ix2 b n) = deg (featOf x1 x3 b) (maskOf x5 b) n := by
  rw [val_main_v77_apply, val_main_v75_apply, rowSum_img, val_main_v74_apply, val_main_cst_10_apply, val_main_v76_apply,
    val_main_cst_11_apply]
  rfl

/-- The doubly normalised adjacency: row n carries node n's degree, column m node m's. -/
theorem adjNorm_img (b : Fin 16) (n m : Fin 2049) :
    val_main_v83 (F := Ideal) x1 x3 x5 (ix3 b n m) = adjNorm (featOf x1 x3 b) (maskOf x5 b) n m := by
  have e45 : idx_main_v79 (ix3 b n m) = ix3 b n (0 : Fin 1) := by idx3
  have e44 : idx_main_v78 (ix3 b n (0 : Fin 1)) = ix2 b n := by idx2
  have e48 : idx_main_v82 (ix3 b n m) = ix3 b (0 : Fin 1) m := by idx3
  have e47 : idx_main_v81 (ix3 b (0 : Fin 1) m) = ix2 b m := by idx2
  rw [val_main_v83_apply, val_main_v80_apply, val_main_v79_apply, e45, val_main_v78_apply, e44, adjEntry_img,
    val_main_v82_apply, e48, val_main_v81_apply, e47]
  simp only [deg_img]
  rfl

/-- The projected features of node m: the contraction runs over the input features. -/
theorem preSup_img (b : Fin 16) (m : Fin 2049) (e : Fin 256) :
    val_main_v84 (F := Ideal) x1 x3 x8 (ix3 b m e) = preSup (featOf x1 x3 b) (wOf x8) m e := by
  rw [val_main_v84_apply]
  unfold preSup
  refine Finset.sum_congr rfl fun k _ => ?_
  have el : lidx_main_v84 (ix3 b m e) k = ix3 b m k := by idx3
  have er : ridx_main_v84 (ix3 b m e) k = ix2 k e := by idx2
  rw [el, er, feat_img]
  rfl

/-- The aggregation at node n and feature e: the contraction runs over the nodes. -/
theorem agg_img (b : Fin 16) (n : Fin 2049) (e : Fin 256) :
    val_main_v85 (F := Ideal) x1 x3 x5 x8 (ix3 b n e)
      = ∑ m : Fin 2049, adjNorm (featOf x1 x3 b) (maskOf x5 b) n m * preSup (featOf x1 x3 b) (wOf x8) m e := by
  rw [val_main_v85_apply]
  refine Finset.sum_congr rfl fun k _ => ?_
  have el : lidx_main_v85 (ix3 b n e) k = ix3 b n k := by idx3
  have er : ridx_main_v85 (ix3 b n e) k = ix3 b k e := by idx3
  rw [el, er, adjNorm_img, preSup_img]

/-- The layer at node 0: the bias is row 0 of the bias array, the mask node 0's. -/
theorem layer_img (b : Fin 16) (e : Fin 256) :
    val_main_v92 (F := Ideal) x1 x3 x5 x8 x9 (ix3 b (0 : Fin 2049) e)
      = outRef (featOf x1 x3 b) (maskOf x5 b) (wOf x8) (biasOf x9) 0 e := by
  have e53 : idx_main_v87 (ix3 b (0 : Fin 2049) e) = ix3 (0 : Fin 1) (0 : Fin 2049) e := by idx3
  have e52 : idx_main_v86 (ix3 (0 : Fin 1) (0 : Fin 2049) e) = ix2 (0 : Fin 2049) e := by idx2
  have e57 : idx_main_v91 (ix3 b (0 : Fin 2049) e) = ix3 b (0 : Fin 2049) (0 : Fin 1) := by idx3
  have e56 : idx_main_v90 (ix3 b (0 : Fin 2049) (0 : Fin 1)) = ix2 b (0 : Fin 2049) := by idx2
  rw [val_main_v92_apply, val_main_v89_apply, val_main_v88_apply, agg_img, val_main_v87_apply, e53, val_main_v86_apply, e52,
    val_main_v91_apply, e57, val_main_v90_apply, e56]
  rfl

/-! ## The blended token, tiled over the rows, and the fused outputs -/

/-- The blend of the two layers at node 0: each layer is transposed (feature before node) first. -/
theorem blend_apply (b : Fin 16) (e : Fin 256) :
    val_main_v98 (F := Ideal) x0 x1 x2 x3 x4 x5 x6 x7 x8 x9 (ix3 b e (0 : Fin 2049))
      = gRef x0 x1 x2 x3 x4 x5 x6 x7 x8 x9 b e := by
  have e59 : idx_main_v59 (ix3 b e (0 : Fin 2049)) = ix3 b (0 : Fin 2049) e := by idx3
  have e93 : idx_main_v93 (ix3 b e (0 : Fin 2049)) = ix3 b (0 : Fin 2049) e := by idx3
  rw [val_main_v98_apply, val_main_v95_apply, val_main_v94_apply, val_main_cst_12_apply, val_main_v59_apply, e59, layer_text,
    val_main_v97_apply, val_main_v96_apply, val_main_cst_13_apply, val_main_v93_apply, e93, layer_img]
  rfl

/-- The token as a [16, 1, 256] array: node 0 is sliced out of the blend and the unit axis moved. -/
theorem tokenRow_apply (b : Fin 16) (e : Fin 256) :
    val_main_v101 (F := Ideal) x0 x1 x2 x3 x4 x5 x6 x7 x8 x9 (ix3 b (0 : Fin 1) e)
      = gRef x0 x1 x2 x3 x4 x5 x6 x7 x8 x9 b e := by
  have e101 : idx_main_v101 (ix3 b (0 : Fin 1) e) = ix2 b e := by idx2
  have e100 : idx_main_v100 (ix2 b e) = ix3 b e (0 : Fin 1) := funext fun a => Fin.ext (by
    have hb : b.val < 16 := b.isLt
    have he : e.val < 256 := e.isLt
    match a with
    | ⟨0, _⟩ => show (b.val * 256 + e.val) / 256 = b.val; omega
    | ⟨1, _⟩ => show (b.val * 256 + e.val) / 1 % 256 = e.val; omega
    | ⟨2, _⟩ => rfl)
  have e99 : idx_main_v99 (ix3 b e (0 : Fin 1)) = ix3 b e (0 : Fin 2049) := by idx3
  rw [val_main_v101_apply, e101, val_main_v100_apply, e100, val_main_v99_apply, e99, blend_apply]

/-- The first rank-6 reshape only inserts unit axes: entry (0, b, 0, 0, 0, e) is entry (b, 0, e) of its operand
    (the two have the same row-major position). -/
theorem tileIn_apply (b : Fin 16) (e : Fin 256) :
    val_main_v102 (F := Ideal) x0 x1 x2 x3 x4 x5 x6 x7 x8 x9
        (ix6 (0 : Fin 1) b (0 : Fin 1) (0 : Fin 1) (0 : Fin 1) e)
      = val_main_v101 (F := Ideal) x0 x1 x2 x3 x4 x5 x6 x7 x8 x9 (ix3 b (0 : Fin 1) e) := by
  unfold val_main_v102
  generalize val_main_v101 (F := Ideal) x0 x1 x2 x3 x4 x5 x6 x7 x8 x9 = y
  refine shapeCast_apply y shapeCasts_S16x1x256_S1x16x1x1x1x256 (ix6 (0 : Fin 1) b (0 : Fin 1) (0 : Fin 1) (0 : Fin 1) e)
    (ix3 b (0 : Fin 1) e) ?_
  rewrite [Shape.rowMajor_val_three, Shape.rowMajor_val_six]
  show (b.val * 1 + 0) * 256 + e.val = ((((0 * 16 + b.val) * 1 + 0) * 1 + 0) * 1 + 0) * 256 + e.val
  omega

/-- The second rank-6 reshape only drops unit axes: entry (b, r, e) is entry (0, b, r, 0, 0, e) of its operand. -/
theorem tileOut_apply (b : Fin 16) (r : Fin 2048) (e : Fin 256) :
    val_main_v104 (F := Ideal) x0 x1 x2 x3 x4 x5 x6 x7 x8 x9 (ix3 b r e)
      = val_main_v103 (F := Ideal) x0 x1 x2 x3 x4 x5 x6 x7 x8 x9 (ix6 (0 : Fin 1) b r (0 : Fin 1) (0 : Fin 1) e) := by
  unfold val_main_v104
  generalize val_main_v103 (F := Ideal) x0 x1 x2 x3 x4 x5 x6 x7 x8 x9 = y
  refine shapeCast_apply y shapeCasts_S1x16x2048x1x1x256_S16x2048x256 (ix3 b r e)
    (ix6 (0 : Fin 1) b r (0 : Fin 1) (0 : Fin 1) e) ?_
  rewrite [Shape.rowMajor_val_six, Shape.rowMajor_val_three]
  show ((((0 * 16 + b.val) * 2048 + r.val) * 1 + 0) * 1 + 0) * 256 + e.val = (b.val * 2048 + r.val) * 256 + e.val
  omega

/-- The tiled token: every row r of batch entry b carries the blended token of b. -/
theorem token_apply (b : Fin 16) (r : Fin 2048) (e : Fin 256) :
    val_main_v104 (F := Ideal) x0 x1 x2 x3 x4 x5 x6 x7 x8 x9 (ix3 b r e) = gRef x0 x1 x2 x3 x4 x5 x6 x7 x8 x9 b e := by
  have e103 : idx_main_v103 (ix6 (0 : Fin 1) b r (0 : Fin 1) (0 : Fin 1) e)
      = ix6 (0 : Fin 1) b (0 : Fin 1) (0 : Fin 1) (0 : Fin 1) e :=
    funext fun a => Fin.ext (by
      match a with
      | ⟨0, _⟩ => rfl
      | ⟨1, _⟩ => rfl
      | ⟨2, _⟩ => rfl
      | ⟨3, _⟩ => rfl
      | ⟨4, _⟩ => rfl
      | ⟨5, _⟩ => rfl)
  rw [tileOut_apply, val_main_v103_apply, e103, tileIn_apply, tokenRow_apply]

/-- The fused text output: half the base text features plus half the token, under the text mask of row r. -/
theorem text_apply (b : Fin 16) (r : Fin 2048) (e : Fin 256) :
    val_main_v115 (F := Ideal) x0 x1 x2 x3 x4 x5 x6 x7 x8 x9 (ix3 b r e)
      = fuse x2 x4 (gRef x0 x1 x2 x3 x4 x5 x6 x7 x8 x9) b r e := by
  have e114 : idx_main_v114 (ix3 b r e) = ix3 b r (0 : Fin 1) := by idx3
  have e106 : idx_main_v106 (ix3 b r (0 : Fin 1)) = ix2 b r := by idx2
  have e105 : idx_main_v105 (ix2 b r) = ix2 b r.castSucc := by idx2
  rw [val_main_v115_apply, val_main_v113_apply, val_main_v110_apply, val_main_v109_apply, val_main_cst_14_apply,
    val_main_v112_apply, val_main_v111_apply, val_main_cst_15_apply, token_apply, val_main_v114_apply, e114,
    val_main_v106_apply, e106, val_main_v105_apply, e105]
  rfl

/-- The fused image output: half the base image features plus half the token, under the image mask of row r. -/
theorem img_apply (b : Fin 16) (r : Fin 2048) (e : Fin 256) :
    val_main_v122 (F := Ideal) x0 x1 x2 x3 x4 x5 x6 x7 x8 x9 (ix3 b r e)
      = fuse x3 x5 (gRef x0 x1 x2 x3 x4 x5 x6 x7 x8 x9) b r e := by
  have e121 : idx_main_v121 (ix3 b r e) = ix3 b r (0 : Fin 1) := by idx3
  have e108 : idx_main_v108 (ix3 b r (0 : Fin 1)) = ix2 b r := by idx2
  have e107 : idx_main_v107 (ix2 b r) = ix2 b r.castSucc := by idx2
  rw [val_main_v122_apply, val_main_v120_apply, val_main_v117_apply, val_main_v116_apply, val_main_cst_16_apply,
    val_main_v119_apply, val_main_v118_apply, val_main_cst_17_apply, token_apply, val_main_v121_apply, e121,
    val_main_v108_apply, e108, val_main_v107_apply, e107]
  rfl

end GraphFuse.Ref

end
-- ==== Proof.Bridge.lean ====
/-
  The two readings of the layer agree on graphs of real numbers with a nonnegative mask, and the
  second reading does not see nodes that are appended with zero features and zero mask.

  Padding.  On the extended reals `x * 0 = 0 * x = 0` for every `x`, so a node whose mask and
  features vanish contributes nothing to any sum over the nodes: the column norms, the edges between
  the old nodes, their row sums and degrees, the row of the adjacency and its product with the
  features are those of the graph without the appended nodes.

  The law.  With real features, a real nonnegative mask and real weights every intermediate quantity
  is a real number: a column norm is at least the positive constant `eps12`, a row sum is a sum of
  nonnegative reals, and a row sum plus `eps8` is a positive real `x`, where the reciprocal square
  root `(√x)⁻¹` and the power `x ^ (-1/2)` are the same number.  The identity's share of a row sum,
  `∑ m, δ n m * M m`, is `M n`.  Where a column's mask is not positive it is zero, and the entry of
  the adjacency in that column vanishes in both readings.  Finally, in the reals,
  `∑ d, (∑ m, a m * f m d) * w d e = ∑ m, a m * ∑ d, f m d * w d e`.
-/
import proofs.«179044_j54949811585484_2_alg».proof.Proof.Spec
import Mathlib.Algebra.BigOperators.Fin
import Mathlib.Analysis.SpecialFunctions.Pow.Real

noncomputable section

open scoped BigOperators

namespace GraphFuse

open Idealize.ShloMosaic

/-! ## Appending nodes with zero features and zero mask -/

section pad

variable {N N' : ℕ}

/-- Features and mask extended by zero from `N` nodes to `N'`. -/
def padF (feat : Fin N → Fin 256 → EReal) : Fin N' → Fin 256 → EReal :=
  fun n d => if h : n.val < N then feat ⟨n.val, h⟩ d else 0
def padM (M : Fin N → EReal) : Fin N' → EReal :=
  fun n => if h : n.val < N then M ⟨n.val, h⟩ else 0

/-- A sum over `N'` indices whose terms vanish from `N` on is the sum over the first `N`. -/
theorem sum_pad (h : N ≤ N') (g : Fin N' → EReal) (hg : ∀ n : Fin N', N ≤ n.val → g n = 0) :
    ∑ n, g n = ∑ n : Fin N, g (Fin.castLE h n) := by
  obtain ⟨k, rfl⟩ := Nat.exists_eq_add_of_le h
  exact Fin.sum_trunc g (fun j => hg _ (by simp))

variable (h : N ≤ N') (feat : Fin N → Fin 256 → EReal) (M : Fin N → EReal)

theorem padF_cast (n : Fin N) (d : Fin 256) : padF (N' := N') feat (Fin.castLE h n) d = feat n d := by
  simp [padF]

theorem padF_out (n : Fin N') (hn : N ≤ n.val) (d : Fin 256) : padF feat n d = 0 := by
  unfold padF; rw [dif_neg (Nat.not_lt.mpr hn)]

theorem padM_cast (n : Fin N) : padM (N' := N') M (Fin.castLE h n) = M n := by
  simp [padM]

theorem padM_out (n : Fin N') (hn : N ≤ n.val) : padM M n = 0 := by
  unfold padM; rw [dif_neg (Nat.not_lt.mpr hn)]

include h in
theorem colNorm_pad (d : Fin 256) : colNorm (padF (N' := N') feat) d = colNorm feat d := by
  unfold colNorm
  rw [sum_pad h]
  · simp only [padF_cast]
  · intro n hn; rw [padF_out feat n hn, mul_zero]

theorem xn_pad_cast (n : Fin N) (d : Fin 256) :
    xn (padF (N' := N') feat) (padM M) (Fin.castLE h n) d = xn feat M n d := by
  unfold xn; rw [padF_cast, padM_cast, colNorm_pad h feat]

theorem edge_pad_cast (n m : Fin N) :
    edge (padF (N' := N') feat) (padM M) (Fin.castLE h n) (Fin.castLE h m) = edge feat M n m := by
  unfold edge; simp only [xn_pad_cast]

theorem rowSumK_pad (n : Fin N) :
    rowSumK (padF (N' := N') feat) (padM M) (Fin.castLE h n) = rowSumK feat M n := by
  unfold rowSumK
  rw [sum_pad h, padM_cast]
  · simp only [edge_pad_cast, padM_cast]
  · intro m hm; rw [padM_out M m hm, mul_zero]

theorem degK_pad (n : Fin N) :
    degK (padF (N' := N') feat) (padM M) (Fin.castLE h n) = degK feat M n := by
  unfold degK; rw [rowSumK_pad]

theorem adjK_pad_cast (z m : Fin N) :
    adjK (padF (N' := N') feat) (padM M) (Fin.castLE h z) (Fin.castLE h m) = adjK feat M z m := by
  unfold adjK
  simp only [degK_pad, edge_pad_cast, padM_cast, Fin.castLE_inj]

theorem adjK_pad_out (z m : Fin N') (hm : N ≤ m.val) :
    adjK (padF (N' := N') feat) (padM M) z m = 0 := by
  unfold adjK
  rw [padM_out M m hm]
  simp only [mul_zero, add_zero, zero_mul]

theorem agg_pad (z : Fin N) (d : Fin 256) :
    ∑ m, adjK (padF (N' := N') feat) (padM M) (Fin.castLE h z) m * padF feat m d
      = ∑ m, adjK feat M z m * feat m d := by
  rw [sum_pad h]
  · simp only [adjK_pad_cast, padF_cast]
  · intro m hm; rw [adjK_pad_out feat M _ m hm, zero_mul]

/-- The second reading at an old node is unchanged by the appended nodes. -/
theorem outK_pad (W : Fin 256 → Fin 256 → EReal) (b0 : Fin 256 → EReal) (z : Fin N) (e : Fin 256) :
    outK (padF (N' := N') feat) (padM M) W b0 (Fin.castLE h z) e = outK feat M W b0 z e := by
  unfold outK
  simp only [agg_pad, padM_cast]

end pad

/-! ## Real numbers inside the extended reals -/

/-- The extended real `x` is a real number. -/
def IsR (x : EReal) : Prop := ∃ r : ℝ, x = (r : EReal)

theorem IsR.add {x y : EReal} : IsR x → IsR y → IsR (x + y) := by
  rintro ⟨a, rfl⟩ ⟨b, rfl⟩; exact ⟨a + b, (EReal.coe_add a b).symm⟩

theorem IsR.mul {x y : EReal} : IsR x → IsR y → IsR (x * y) := by
  rintro ⟨a, rfl⟩ ⟨b, rfl⟩; exact ⟨a * b, (EReal.coe_mul a b).symm⟩

theorem IsR.sum {ι : Type} [Fintype ι] (g : ι → EReal) (hg : ∀ i, IsR (g i)) : IsR (∑ i, g i) :=
  Finset.sum_induction g IsR (fun _ _ => IsR.add) ⟨0, rfl⟩ (fun i _ => hg i)

/-- The coercion commutes with finite sums. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A positive extended real other than `⊤` is a positive real. -/
theorem pos_real_of {x : EReal} (h0 : 0 < x) (ht : x ≠ ⊤) : ∃ c : ℝ, 0 < c ∧ x = (c : EReal) := by
  lift x to ℝ using ⟨ht, (EReal.bot_lt_zero.trans h0).ne'⟩
  exact ⟨x, EReal.coe_pos.mp h0, rfl⟩

theorem eps12_pos_real : ∃ c : ℝ, 0 < c ∧ eps12 = (c : EReal) :=
  pos_real_of (by simp [eps12, Ideal.ofBits, Ideal.ieee, -EReal.coe_mul])
    (by simp [eps12, Ideal.ofBits, Ideal.ieee, -EReal.coe_mul])

theorem eps8_pos_real : ∃ c : ℝ, 0 < c ∧ eps8 = (c : EReal) :=
  pos_real_of (by simp [eps8, Ideal.ofBits, Ideal.ieee, -EReal.coe_mul])
    (by simp [eps8, Ideal.ofBits, Ideal.ieee, -EReal.coe_mul])

theorem mhalf_eq : mhalf = ((-(1 / 2) : ℝ) : EReal) := by
  simp [mhalf, Ideal.ofBits, Ideal.ieee, -EReal.coe_mul, -EReal.coe_neg]; norm_num

theorem sqrt_real {r : ℝ} (hr : 0 ≤ r) : Ideal.sqrt (r : EReal) = ((Real.sqrt r : ℝ) : EReal) := by
  rw [Ideal.sqrt_coe, if_neg (not_lt.mpr hr)]

theorem div_real (a : ℝ) {c : ℝ} (hc : c ≠ 0) :
    Ideal.div (a : EReal) (c : EReal) = ((a / c : ℝ) : EReal) := by
  rw [Ideal.div_coe hc, ← EReal.coe_mul, mul_one_div]

/-- At a positive real the reciprocal square root is the power `-1/2`. -/
theorem rsqrt_eq_pow {x : ℝ} (hx : 0 < x) : Ideal.rsqrt (x : EReal) = Ideal.pow (x : EReal) mhalf := by
  rw [mhalf_eq, Ideal.rsqrt_coe, if_neg (not_lt.mpr hx.le), if_neg hx.ne', Ideal.pow_coe_coe]
  congr 1
  show (Real.sqrt x)⁻¹ = x ^ (-(1 / 2) : ℝ)
  rw [Real.rpow_neg hx.le, Real.sqrt_eq_rpow]

theorem relu_real {x : EReal} (hx : IsR x) : IsR (relu x) := by
  obtain ⟨a, rfl⟩ := hx
  unfold relu
  rcases le_total (a : EReal) 0 with h | h
  · rw [max_eq_right h]; exact ⟨0, rfl⟩
  · rw [max_eq_left h]; exact ⟨a, rfl⟩

theorem relu_nonneg (x : EReal) : 0 ≤ relu x := le_max_right _ _

theorem delta_real {ι : Type} [DecidableEq ι] (n m : ι) : IsR (if n = m then 1 else 0) := by
  split_ifs
  · exact ⟨1, rfl⟩
  · exact ⟨0, rfl⟩

theorem delta_nonneg {ι : Type} [DecidableEq ι] (n m : ι) : (0 : EReal) ≤ if n = m then 1 else 0 := by
  split_ifs
  · exact zero_le_one
  · exact le_rfl

/-- In the reals, aggregating the features and then projecting is projecting and then aggregating. -/
theorem agg_swap {N : ℕ} (a : Fin N → EReal) (feat : Fin N → Fin 256 → EReal)
    (W : Fin 256 → Fin 256 → EReal) (ha : ∀ m, IsR (a m)) (hf : ∀ m d, IsR (feat m d))
    (hW : ∀ d e, IsR (W d e)) (e : Fin 256) :
    ∑ d, (∑ m, a m * feat m d) * W d e = ∑ m, a m * ∑ d, feat m d * W d e := by
  choose a' ha' using ha
  choose f hf' using hf
  choose w hw using hW
  obtain rfl : a = fun m => (a' m : EReal) := funext ha'
  obtain rfl : feat = fun m d => (f m d : EReal) := funext fun m => funext (hf' m)
  obtain rfl : W = fun d e => (w d e : EReal) := funext fun d => funext (hw d)
  simp only [← EReal.coe_mul, ← coe_sum]
  congr 1
  simp only [Finset.sum_mul, Finset.mul_sum]
  rw [Finset.sum_comm]
  exact Finset.sum_congr rfl fun m _ => Finset.sum_congr rfl fun d _ => mul_assoc _ _ _

/-! ## The law on a graph of real numbers with a nonnegative mask -/

section law

variable {N : ℕ} (feat : Fin N → Fin 256 → EReal) (M : Fin N → EReal)
  (hf : ∀ n d, IsR (feat n d)) (hM : ∀ n, IsR (M n)) (hM0 : ∀ n, 0 ≤ M n)

include hf in
/-- A column norm is a positive real. -/
theorem colNorm_pos_real (d : Fin 256) : ∃ c : ℝ, 0 < c ∧ colNorm feat d = (c : EReal) := by
  obtain ⟨c12, h12, e12⟩ := eps12_pos_real
  choose f hf' using hf
  have hs : ∑ k, feat k d * feat k d = ((∑ k, f k d * f k d : ℝ) : EReal) := by
    rw [coe_sum]; exact Finset.sum_congr rfl fun k _ => by rw [hf', EReal.coe_mul]
  unfold colNorm
  rw [hs, sqrt_real (Finset.sum_nonneg fun k _ => mul_self_nonneg _), e12]
  exact ⟨max (Real.sqrt _) c12, lt_max_of_lt_right h12, (EReal.coe_strictMono.monotone.map_max).symm⟩

include hf hM in
theorem xn_real (n : Fin N) (d : Fin 256) : IsR (xn feat M n d) := by
  obtain ⟨c, hc, ec⟩ := colNorm_pos_real feat hf d
  obtain ⟨a, ea⟩ := hf n d
  unfold xn
  rw [ec, ea, div_real a hc.ne']
  exact IsR.mul ⟨_, rfl⟩ (hM n)

include hf hM in
theorem edge_real (n m : Fin N) : IsR (edge feat M n m) :=
  IsR.sum _ fun d => (xn_real feat M hf hM n d).mul (xn_real feat M hf hM m d)

/-- An entry of the adjacency, the rectified edge and the identity's entry each times the mask. -/
theorem adjEntry_eq (n m : Fin N) :
    adjEntry feat M n m = relu (edge feat M n m) * M m + (if n = m then 1 else 0) * M m := by
  unfold adjEntry
  exact EReal.right_distrib_of_nonneg (relu_nonneg _) (delta_nonneg n m)

include hf hM in
theorem adjEntry_real (n m : Fin N) : IsR (adjEntry feat M n m) :=
  ((relu_real (edge_real feat M hf hM n m)).add (delta_real n m)).mul (hM m)

include hM0 in
theorem adjEntry_nonneg (n m : Fin N) : 0 ≤ adjEntry feat M n m :=
  mul_nonneg (add_nonneg (relu_nonneg _) (delta_nonneg n m)) (hM0 m)

/-- The identity's share of a row sum is the node's own mask. -/
theorem rowSumK_eq (n : Fin N) : rowSumK feat M n = rowSum feat M n := by
  unfold rowSumK rowSum
  simp only [adjEntry_eq]
  rw [Finset.sum_add_distrib]
  congr 1
  simp only [ite_mul, one_mul, zero_mul, Finset.sum_ite_eq, Finset.mem_univ, if_true]

include hf hM hM0 in
/-- A row sum plus `eps8` is a positive real. -/
theorem rowSum_eps_pos_real (n : Fin N) : ∃ x : ℝ, 0 < x ∧ rowSum feat M n + eps8 = (x : EReal) := by
  obtain ⟨c8, h8, e8⟩ := eps8_pos_real
  have h0 : 0 ≤ rowSum feat M n := Finset.sum_nonneg fun m _ => adjEntry_nonneg feat M hM0 n m
  obtain ⟨r, er⟩ : IsR (rowSum feat M n) := IsR.sum _ fun m => adjEntry_real feat M hf hM n m
  rw [er] at h0
  exact ⟨r + c8, add_pos_of_nonneg_of_pos (EReal.coe_nonneg.mp h0) h8, by rw [er, e8, EReal.coe_add]⟩

include hf hM hM0 in
theorem degK_eq (n : Fin N) : degK feat M n = deg feat M n := by
  obtain ⟨x, hx, ex⟩ := rowSum_eps_pos_real feat M hf hM hM0 n
  unfold degK deg
  rw [rowSumK_eq, ex]
  exact rsqrt_eq_pow hx

include hf hM hM0 in
theorem deg_real (n : Fin N) : IsR (deg feat M n) := by
  obtain ⟨x, hx, ex⟩ := rowSum_eps_pos_real feat M hf hM hM0 n
  unfold deg
  rw [ex, mhalf_eq, Ideal.pow_coe_coe]
  exact ⟨_, rfl⟩

include hf hM hM0 in
/-- Row `z` of the adjacency in the second reading is the doubly normalised adjacency. -/
theorem adjK_eq (z m : Fin N) : adjK feat M z m = adjNorm feat M z m := by
  unfold adjK adjNorm
  rw [degK_eq feat M hf hM hM0 z, adjEntry_eq, if_congr (eq_comm (a := m) (b := z)) rfl rfl]
  by_cases hm : 0 < M m
  · rw [if_pos hm, degK_eq feat M hf hM hM0 m]
  · have h0 : M m = 0 := le_antisymm (not_lt.mp hm) (hM0 m)
    rw [if_neg hm, h0]
    simp only [mul_zero, add_zero, zero_mul]

include hf hM hM0 in
theorem adjNorm_real (z m : Fin N) : IsR (adjNorm feat M z m) :=
  ((deg_real feat M hf hM hM0 z).mul (adjEntry_real feat M hf hM z m)).mul (deg_real feat M hf hM hM0 m)

include hf hM hM0 in
/-- The two readings agree. -/
theorem outK_eq_outRef (W : Fin 256 → Fin 256 → EReal) (b0 : Fin 256 → EReal)
    (hW : ∀ d e, IsR (W d e)) (z : Fin N) (e : Fin 256) :
    outK feat M W b0 z e = outRef feat M W b0 z e := by
  unfold outK outRef preSup
  simp only [adjK_eq feat M hf hM hM0]
  rw [agg_swap (fun m => adjNorm feat M z m) feat W (fun m => adjNorm_real feat M hf hM hM0 z m) hf hW e]

end law

/-! ## The graphs of one batch entry -/

theorem featOf_real {inp : A3 16 1 256} {base : A3 16 2048 256} (hi : IsReal inp) (hb : IsReal base)
    (b : Fin 16) (n : Fin 2049) (d : Fin 256) : IsR (featOf inp base b n d) := by
  unfold featOf
  split_ifs
  · exact hi _
  · exact hb _

/-- One graph: the second reading on the padded graph is the first reading on the graph. -/
theorem outK_pad_eq_outRef (inp : A3 16 1 256) (base : A3 16 2048 256) (mk : A2 16 2049) (W : A2 256 256)
    (bb : A2 2049 256) (hi : IsReal inp) (hb : IsReal base) (hm : IsReal mk) (hW : IsReal W)
    (hm0 : ∀ i, 0 ≤ mk i) (b : Fin 16) (e : Fin 256) :
    outK (featPad inp base b) (maskPad mk b) (wOf W) (biasOf bb) 0 e
      = outRef (featOf inp base b) (maskOf mk b) (wOf W) (biasOf bb) 0 e := by
  have hp : outK (featPad inp base b) (maskPad mk b) (wOf W) (biasOf bb) 0 e
      = outK (featOf inp base b) (maskOf mk b) (wOf W) (biasOf bb) 0 e :=
    outK_pad (N := 2049) (N' := 2304) (by norm_num) (featOf inp base b) (maskOf mk b) (wOf W) (biasOf bb) 0 e
  rw [hp]
  exact outK_eq_outRef (featOf inp base b) (maskOf mk b) (featOf_real hi hb b) (fun n => hm _)
    (fun n => hm0 _) (wOf W) (biasOf bb) (fun d e => hW _) 0 e

theorem gK_eq_gRef (x0 x1 : A3 16 1 256) (x2 x3 : A3 16 2048 256) (x4 x5 : A2 16 2049) (x6 : A2 256 256)
    (x7 : A2 2049 256) (x8 : A2 256 256) (x9 : A2 2049 256)
    (hg : Good x0 x1 x2 x3 x4 x5 x6 x7 x8 x9) (b : Fin 16) (e : Fin 256) :
    gK x0 x1 x2 x3 x4 x5 x6 x7 x8 x9 b e = gRef x0 x1 x2 x3 x4 x5 x6 x7 x8 x9 b e := by
  unfold gK gRef
  rw [outK_pad_eq_outRef x0 x2 x4 x6 x7 hg.r0 hg.r2 hg.r4 hg.r6 hg.n4 b e,
    outK_pad_eq_outRef x1 x3 x5 x8 x9 hg.r1 hg.r3 hg.r5 hg.r8 hg.n5 b e]

end GraphFuse

end
-- ==== Proof.PreFacts.lean ====
/-
  What the precondition says of the ten argument arrays.

  The precondition is a conjunction of twelve tests, each the conjunction over every entry of an array of
  an entrywise comparison: for each of the ten arrays, max x (−x) < +∞ at every entry x; for the two node
  masks, x ≥ 0 at every entry as well. On the extended reals max x (−x) is +∞ at both infinities, so the
  first test holds of an entry exactly when it is a real number; the second is the order's 0 ≤ x.
  Hence the arrays are what the specification calls good.
-/
import proofs.«179044_j54949811585484_2_alg».proof.Pre_finite_inputs
import proofs.«179044_j54949811585484_2_alg».proof.Proof.Gen.Pre_finite_inputs
import proofs.«179044_j54949811585484_2_alg».proof.Proof.Spec
import Idealize.ShloMosaic.Lib.ReduceAll
import Idealize.ShloMosaic.Lib.ValueIdx
import Idealize.ShloMosaic.PureOps.Ideal

noncomputable section

namespace GraphFuse.Pre

open Idealize.ShloMosaic Cert.Pre_finite_inputs

/-- A rank-0 array has one index. -/
instance : Subsingleton S_.Idx := ⟨fun a b => funext fun d => d.elim0⟩

/-! ## One entry -/

/-- The word of +∞ and the word of zero. -/
theorem top_word : Ideal.ofBits .f32 0x7F800000#32 = (⊤ : EReal) := by
  simp [Ideal.ofBits, Ideal.ieee]
theorem zero_word : Ideal.ofBits .f32 0x00000000#32 = (0 : EReal) := by
  simp [Ideal.ofBits, Ideal.ieee]

/-- max x (−x) < +∞ holds only of a real number: at −∞ and at +∞ the maximum is +∞. -/
theorem real_of_abs_lt (x : EReal) (h : Ideal.cmp .olt (max x (-x)) (Ideal.ofBits .f32 0x7F800000#32) = 1#1) :
    ∃ r : ℝ, x = (r : EReal) := by
  rw [top_word] at h
  induction x using EReal.rec with
  | bot => simp [Ideal.cmp] at h
  | top => simp [Ideal.cmp] at h
  | coe r => exact ⟨r, rfl⟩

/-- x ≥ 0 as a comparison that came out 1 is the order's 0 ≤ x. -/
theorem nonneg_of_ge (x : EReal) (h : Ideal.cmp .oge x (Ideal.ofBits .f32 0x00000000#32) = 1#1) : 0 ≤ x := by
  rw [zero_word] at h
  by_contra hx
  simp [Ideal.cmp, hx] at h

/-! ## One array -/

variable {s : Shape} {axes : List (Fin s.rank)}

/-- The conjunction over all entries of max x (−x) < +∞ came out 1: every entry is a real number. -/
theorem isReal_of_all (hb : S_.BroadcastsInDim s (![] : Fin 0 → Fin s.rank)) (hr : s.ReducesTo axes S_) (hu : 0 < S_.numel)
    (x : FVec Ideal s .f32)
    (e : Host.reduce IntOp.andi
          (cmpf .olt (Host.absf x) (broadcastInDim s ![] hb (constant (F := Ideal) S_ .f32 0x7F800000#32)))
          (constantI S_ 1 1#1) hr hu ValueIdx.ix0 = 1#1) : IsReal x := fun i =>
  real_of_abs_lt (x i) (Host.reduce_andi_all _ _ hr hu _ e i)

/-- The conjunction over all entries of x ≥ 0 came out 1: every entry is at least 0. -/
theorem nonneg_of_all (hb : S_.BroadcastsInDim s (![] : Fin 0 → Fin s.rank)) (hr : s.ReducesTo axes S_) (hu : 0 < S_.numel)
    (x : FVec Ideal s .f32)
    (e : Host.reduce IntOp.andi
          (cmpf .oge x (broadcastInDim s ![] hb (constant (F := Ideal) S_ .f32 0x00000000#32)))
          (constantI S_ 1 1#1) hr hu ValueIdx.ix0 = 1#1) : ∀ i, 0 ≤ x i := fun i =>
  nonneg_of_ge (x i) (Host.reduce_andi_all _ _ hr hu _ e i)

/-! ## The ten arrays -/

/-- Where the precondition holds the arrays are good: its value at the one index of its rank-0 result is the
    conjunction of the twelve tests, associated to the left, and each test is read by the two lemmas above. -/
theorem good (a0 a1 : FVec Ideal S16x1x256 .f32) (a2 a3 : FVec Ideal S16x2048x256 .f32) (a4 a5 : FVec Ideal S16x2049 .f32)
    (a6 : FVec Ideal S256x256 .f32) (a7 : FVec Ideal S2049x256 .f32) (a8 : FVec Ideal S256x256 .f32)
    (a9 : FVec Ideal S2049x256 .f32)
    (h : Cert.Pre_finite_inputs.fn (F := Ideal) a0 a1 a2 a3 a4 a5 a6 a7 a8 a9 = fun _ => 1#1) :
    GraphFuse.Good a0 a1 a2 a3 a4 a5 a6 a7 a8 a9 := by
  have e := congrFun h ValueIdx.ix0
  dsimp only [fn, fn_part1, fn_part2, fn_part3, Idealize.ShloMosaic.andi] at e
  simp only [IntOp.andi_eq_one] at e
  obtain ⟨⟨⟨⟨⟨⟨⟨⟨⟨⟨⟨h0, h1⟩, h2⟩, h3⟩, h4⟩, h5⟩, h6⟩, h7⟩, h8⟩, h9⟩, n4⟩, n5⟩ := e
  exact
    { r0 := isReal_of_all _ _ _ a0 h0
      r1 := isReal_of_all _ _ _ a1 h1
      r2 := isReal_of_all _ _ _ a2 h2
      r3 := isReal_of_all _ _ _ a3 h3
      r4 := isReal_of_all _ _ _ a4 h4
      r5 := isReal_of_all _ _ _ a5 h5
      r6 := isReal_of_all _ _ _ a6 h6
      r7 := isReal_of_all _ _ _ a7 h7
      r8 := isReal_of_all _ _ _ a8 h8
      r9 := isReal_of_all _ _ _ a9 h9
      n4 := nonneg_of_all _ _ _ a4 n4
      n5 := nonneg_of_all _ _ _ a5 n5 }

end GraphFuse.Pre

end
-- ==== Proof.lean ====
/-
  The certificate: a kernel that fuses two graph-convolution layers into the base features, against its reference.

  Per batch entry both programs build two graphs of 2049 nodes (a token followed by 2048 base-feature rows, 256
  features each), normalise every feature column over the nodes and mask the rows, take the rectified Gram matrix plus
  the identity as adjacency, mask its columns, normalise it by the inverse square roots of its row sums, apply one
  layer tanh(adj · feat · W + bias) · mask, keep node 0, blend the two graphs' rows 0.7 : 0.3, and write
  (0.5 · base + 0.5 · blend) · mask for both feature sets. The reference builds the whole 2049 × 2049 adjacency; the
  kernel pads the graph to 2304 = 9 · 256 nodes with zero rows and zero mask, streams the Gram matrix in nine column
  blocks, keeps only the row sums and row 0, and reassociates (adj₀ · feat) · W. On real inputs with nonnegative masks
  the two are one function: padding adds vanishing terms, the row sums agree by distributing the mask over
  "similarity plus identity", x ↦ x^(−1/2) and the reciprocal square root agree on the positive reals, a column whose
  mask is zero contributes nothing on either side, and the two orders of the products agree by exchanging finite sums
  of reals.

  The three frames are the generated runs; the kernel's idealization rewrote nothing, so that claim is trivial.
-/
import proofs.«179044_j54949811585484_2_alg».proof.Defs
import proofs.«179044_j54949811585484_2_alg».proof.Proof.Gen.Kernel
import proofs.«179044_j54949811585484_2_alg».proof.Proof.Gen.Kernel.Skeleton
import proofs.«179044_j54949811585484_2_alg».proof.Proof.Gen.Kernel.Launch
import proofs.«179044_j54949811585484_2_alg».proof.Proof.Gen.Kernel.Points
import proofs.«179044_j54949811585484_2_alg».proof.Proof.Gen.Kernel.Frame
import proofs.«179044_j54949811585484_2_alg».proof.Proof.Gen.KernelIdeal
import proofs.«179044_j54949811585484_2_alg».proof.Proof.Gen.KernelIdeal.Skeleton
import proofs.«179044_j54949811585484_2_alg».proof.Proof.Gen.KernelIdeal.Launch
import proofs.«179044_j54949811585484_2_alg».proof.Proof.Gen.KernelIdeal.Points
import proofs.«179044_j54949811585484_2_alg».proof.Proof.Gen.KernelIdeal.Frame
import proofs.«179044_j54949811585484_2_alg».proof.Proof.Gen.ReferenceIdeal
import proofs.«179044_j54949811585484_2_alg».proof.Proof.Gen.Pre_finite_inputs
import proofs.«179044_j54949811585484_2_alg».proof.Proof.Gen.KernelIdeal.Value
import proofs.«179044_j54949811585484_2_alg».proof.Proof.Gen.ReferenceIdeal.Run
import proofs.«179044_j54949811585484_2_alg».proof.Proof.Gen.ReferenceIdeal.Read
import proofs.«179044_j54949811585484_2_alg».proof.Proof.KerFinal
import proofs.«179044_j54949811585484_2_alg».proof.Proof.RefRead
import proofs.«179044_j54949811585484_2_alg».proof.Proof.Bridge
import proofs.«179044_j54949811585484_2_alg».proof.Proof.PreFacts
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end at the kernel's whole-array function of the arguments: the kernel's by its blocks, the reference's
    because, on the real inputs with nonnegative masks the precondition grants, its own reading of the layer is the
    kernel's. -/
theorem algebraic : Cert.algebraic_KernelIdeal_ReferenceIdeal := by
  intro m ρ m' ρ' hpre hagree
  refine ⟨fun c => GraphFuse.Ker.G12 m c, fun c => GraphFuse.Ker.G13 m c, GraphFuse.Ker.run m ρ, ?_⟩
  refine (θ_run Cert.ReferenceIdeal.defs _ _).mono (fun _ h c => ?_) (Cert.ReferenceIdeal.Value.run (F := Ideal) m' ρ')
  have hg := GraphFuse.Pre.good _ _ _ _ _ _ _ _ _ _ (hpre c)
  obtain ⟨a0, a1, a2, a3, a4, a5, a6, a7, a8, a9⟩ := hagree c
  refine ⟨(h c).1.trans ?_, (h c).2.1.trans ?_, (h c).2.2⟩
  · rw [Cert.ReferenceIdeal.Read.val_main_v115_eq, a0, a1, a2, a3, a4, a5, a6, a7, a8, a9]
    funext i
    obtain ⟨b, r, e, rfl⟩ : ∃ (b : Fin 16) (r : Fin 2048) (e : Fin 256), i = ix3 b r e := ⟨i 0, i 1, i 2, eq_ix3 i⟩
    rw [GraphFuse.Ref.text_apply]
    show GraphFuse.fuse _ _ _ b r e = GraphFuse.fuse _ _ _ b r e
    unfold GraphFuse.fuse
    rw [GraphFuse.gK_eq_gRef _ _ _ _ _ _ _ _ _ _ hg]
  · rw [Cert.ReferenceIdeal.Read.val_main_v122_eq, a0, a1, a2, a3, a4, a5, a6, a7, a8, a9]
    funext i
    obtain ⟨b, r, e, rfl⟩ : ∃ (b : Fin 16) (r : Fin 2048) (e : Fin 256), i = ix3 b r e := ⟨i 0, i 1, i 2, eq_ix3 i⟩
    rw [GraphFuse.Ref.img_apply]
    show GraphFuse.fuse _ _ _ b r e = GraphFuse.fuse _ _ _ b r e
    unfold GraphFuse.fuse
    rw [GraphFuse.gK_eq_gRef _ _ _ _ _ _ _ _ _ _ hg]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
